-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S2000000x3 : Shape := ⟨2, ![2000000, 3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel

variable [Facts]

def fn {F : FTy → Type} [FloatOps F] (main_arg0 : FVec F S1000000x3 .f32) (main_arg1 : IVec S2000000x3 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  main_v3
-- ==== Kernel.lean ====
abbrev S1000000x3 : Shape := ⟨2, ![1000000, 3]⟩
abbrev S2000000x3 : Shape := ⟨2, ![2000000, 3]⟩
abbrev S3 : Shape := ⟨1, ![3]⟩
abbrev S_ : Shape := ⟨0, ![]⟩
abbrev S3x1 : Shape := ⟨2, ![3, 1]⟩
abbrev S6000000 : Shape := ⟨1, ![6000000]⟩
abbrev S12000000 : Shape := ⟨1, ![12000000]⟩
abbrev S12000000x1 : Shape := ⟨2, ![12000000, 1]⟩
abbrev S1 : Shape := ⟨1, ![1]⟩
abbrev S11999999 : Shape := ⟨1, ![11999999]⟩
abbrev S12000000x3 : Shape := ⟨2, ![12000000, 3]⟩
abbrev S12000000x4 : Shape := ⟨2, ![12000000, 4]⟩
abbrev S1000001x4 : Shape := ⟨2, ![1000001, 4]⟩
abbrev S1000000x4 : Shape := ⟨2, ![1000000, 4]⟩
abbrev S1048576x3 : Shape := ⟨2, ![1048576, 3]⟩
abbrev S1048576x4 : Shape := ⟨2, ![1048576, 4]⟩
abbrev S1048576x7 : Shape := ⟨2, ![1048576, 7]⟩
abbrev S7x1048576 : Shape := ⟨2, ![7, 1048576]⟩
abbrev S1x1 : Shape := ⟨2, ![1, 1]⟩
abbrev S7x131072 : Shape := ⟨2, ![7, 131072]⟩
abbrev S1x131072 : Shape := ⟨2, ![1, 131072]⟩
abbrev S3x131072 : Shape := ⟨2, ![3, 131072]⟩

abbrev nBuf : Space → Nat
  | .hbm => 90
  | .vmem => 4
  | .smem => 0
  | _ => 0

abbrev bufTy : (tb : Table) → Fin (tcTables nBuf tb) → BufTy
  | .hbm, ⟨0, _⟩ => ⟨S1000000x3, .f32⟩
  | .hbm, ⟨1, _⟩ => ⟨S2000000x3, .i32⟩
  | .hbm, ⟨2, _⟩ => ⟨S3, .i32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i1⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S3, .i32⟩
  | .hbm, ⟨11, _⟩ => ⟨S3x1, .i32⟩
  | .hbm, ⟨12, _⟩ => ⟨S2000000x3, .i32⟩
  | .hbm, ⟨13, _⟩ => ⟨S6000000, .i32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S3x1, .i32⟩
  | .hbm, ⟨22, _⟩ => ⟨S2000000x3, .i32⟩
  | .hbm, ⟨23, _⟩ => ⟨S6000000, .i32⟩
  | .hbm, ⟨24, _⟩ => ⟨S12000000, .i32⟩
  | .hbm, ⟨25, _⟩ => ⟨S12000000, .i32⟩
  | .hbm, ⟨26, _⟩ => ⟨S12000000, .i32⟩
  | .hbm, ⟨27, _⟩ => ⟨S12000000, .i32⟩
  | .hbm, ⟨28, _⟩ => ⟨S12000000, .i32⟩
  | .hbm, ⟨29, _⟩ => ⟨S12000000, .i32⟩
  | .hbm, ⟨30, _⟩ => ⟨S_, .i32⟩
  | .hbm, ⟨31, _⟩ => ⟨S12000000, .i32⟩
  | .hbm, ⟨32, _⟩ => ⟨S12000000, .i1⟩
  | .hbm, ⟨33, _⟩ => ⟨S_, .i32⟩
  | .hbm, ⟨34, _⟩ => ⟨S12000000, .i32⟩
  | .hbm, ⟨35, _⟩ => ⟨S12000000, .i32⟩
  | .hbm, ⟨36, _⟩ => ⟨S12000000, .i32⟩
  | .hbm, ⟨37, _⟩ => ⟨S12000000x1, .i32⟩
  | .hbm, ⟨38, _⟩ => ⟨S12000000, .i32⟩
  | .hbm, ⟨39, _⟩ => ⟨S_, .i32⟩
  | .hbm, ⟨40, _⟩ => ⟨S12000000, .i32⟩
  | .hbm, ⟨41, _⟩ => ⟨S12000000, .i1⟩
  | .hbm, ⟨42, _⟩ => ⟨S_, .i32⟩
  | .hbm, ⟨43, _⟩ => ⟨S12000000, .i32⟩
  | .hbm, ⟨44, _⟩ => ⟨S12000000, .i32⟩
  | .hbm, ⟨45, _⟩ => ⟨S12000000, .i32⟩
  | .hbm, ⟨46, _⟩ => ⟨S12000000x1, .i32⟩
  | .hbm, ⟨47, _⟩ => ⟨S12000000, .i32⟩
  | .hbm, ⟨48, _⟩ => ⟨S_, .i1⟩
  | .hbm, ⟨49, _⟩ => ⟨S1, .i1⟩
  | .hbm, ⟨50, _⟩ => ⟨S11999999, .i32⟩
  | .hbm, ⟨51, _⟩ => ⟨S11999999, .i32⟩
  | .hbm, ⟨52, _⟩ => ⟨S11999999, .i1⟩
  | .hbm, ⟨53, _⟩ => ⟨S11999999, .i32⟩
  | .hbm, ⟨54, _⟩ => ⟨S11999999, .i32⟩
  | .hbm, ⟨55, _⟩ => ⟨S11999999, .i1⟩
  | .hbm, ⟨56, _⟩ => ⟨S11999999, .i1⟩
  | .hbm, ⟨57, _⟩ => ⟨S12000000, .i1⟩
  | .hbm, ⟨58, _⟩ => ⟨S_, .i32⟩
  | .hbm, ⟨59, _⟩ => ⟨S12000000, .i32⟩
  | .hbm, ⟨60, _⟩ => ⟨S12000000, .i32⟩
  | .hbm, ⟨61, _⟩ => ⟨S_, .i32⟩
  | .hbm, ⟨62, _⟩ => ⟨S12000000, .i32⟩
  | .hbm, ⟨63, _⟩ => ⟨S12000000, .i1⟩
  | .hbm, ⟨64, _⟩ => ⟨S_, .i32⟩
  | .hbm, ⟨65, _⟩ => ⟨S12000000, .i32⟩
  | .hbm, ⟨66, _⟩ => ⟨S12000000, .i32⟩
  | .hbm, ⟨67, _⟩ => ⟨S12000000, .i32⟩
  | .hbm, ⟨68, _⟩ => ⟨S12000000x1, .i32⟩
  | .hbm, ⟨69, _⟩ => ⟨S12000000x3, .f32⟩
  | .hbm, ⟨70, _⟩ => ⟨S_, .f32⟩
  | .hbm, ⟨71, _⟩ => ⟨S12000000x1, .f32⟩
  | .hbm, ⟨72, _⟩ => ⟨S12000000x4, .f32⟩
  | .hbm, ⟨73, _⟩ => ⟨S_, .f32⟩
  | .hbm, ⟨74, _⟩ => ⟨S1000001x4, .f32⟩
  | .hbm, ⟨75, _⟩ => ⟨S12000000x1, .i32⟩
  | .hbm, ⟨76, _⟩ => ⟨S1000001x4, .f32⟩
  | .hbm, ⟨77, _⟩ => ⟨S1000000x4, .f32⟩
  | .hbm, ⟨78, _⟩ => ⟨S_, .i32⟩
  | .hbm, ⟨79, _⟩ => ⟨S_, .f32⟩
  | .hbm, ⟨80, _⟩ => ⟨S1048576x3, .f32⟩
  | .hbm, ⟨81, _⟩ => ⟨S_, .i32⟩
  | .hbm, ⟨82, _⟩ => ⟨S_, .f32⟩
  | .hbm, ⟨83, _⟩ => ⟨S1048576x4, .f32⟩
  | .hbm, ⟨84, _⟩ => ⟨S1048576x7, .f32⟩
  | .hbm, ⟨85, _⟩ => ⟨S7x1048576, .f32⟩
  | .hbm, ⟨86, _⟩ => ⟨S1x1, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S7x131072, .f32⟩
  | .local _ .vmem, ⟨1, _⟩ => ⟨S7x131072, .f32⟩
  | .local _ .vmem, ⟨2, _⟩ => ⟨S1x1, .f32⟩
  | .local _ .vmem, ⟨3, _⟩ => ⟨S1x131072, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_call0_v1_1 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_call1_v0 : Ref sig .tc := ⟨.hbm, 59, rfl⟩
abbrev main_v42 : Ref sig .tc := ⟨.hbm, 60, rfl⟩
abbrev main_c_11 : Ref sig .tc := ⟨.hbm, 61, rfl⟩
abbrev main_v43 : Ref sig .tc := ⟨.hbm, 62, rfl⟩
abbrev main_v44 : Ref sig .tc := ⟨.hbm, 63, rfl⟩
abbrev main_c_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_14 : Ref sig .tc := ⟨.hbm, 78, rfl⟩
abbrev main_call2_v0 : Ref sig .tc := ⟨.hbm, 79, rfl⟩
abbrev main_v56 : Ref sig .tc := ⟨.hbm, 80, rfl⟩
abbrev main_c_15 : Ref sig .tc := ⟨.hbm, 81, rfl⟩
abbrev main_call3_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_6 : BitVec 32 := 0#32
  let v30 : BitVec 1 := Scalar.cmpi .ne v29 c0_i32_6
  v30

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  bcast_S_S3 : S_.BroadcastsInDim S3 (![] : Fin 0 → Fin S3.rank)
  bcast_S3_S3x1_0 : S3.BroadcastsInDim S3x1 (![0] : Fin 1 → Fin S3x1.rank)
  shapeCasts_S2000000x3_S6000000 : S2000000x3.ShapeCasts S6000000
  concatenates_S6000000_S6000000_S12000000_d0 : Shape.Concatenates [S6000000, S6000000] S12000000 0
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S1 : S_.BroadcastsInDim S1 (![] : Fin 0 → Fin S1.rank)
  slices_S12000000_S11999999_1 : S12000000.Slices ![1] S11999999
  slices_S12000000_S11999999_0 : S12000000.Slices ![0] S11999999
  concatenates_S1_S11999999_S12000000_d0 : Shape.Concatenates [S1, S11999999] S12000000 0
  bcast_S_S12000000x1 : S_.BroadcastsInDim S12000000x1 (![] : Fin 0 → Fin S12000000x1.rank)
  concatenates_S12000000x3_S12000000x1_S12000000x4_d1 : Shape.Concatenates [S12000000x3, S12000000x1] S12000000x4 1
  bcast_S_S1000001x4 : S_.BroadcastsInDim S1000001x4 (![] : Fin 0 → Fin S1000001x4.rank)
  slices_S1000001x4_S1000000x4_0_0 : S1000001x4.Slices ![0, 0] S1000000x4
  pads_S1000000x3_S1048576x3_0485760_000 : S1000000x3.Pads (![0, 0] : Fin 2 → Nat) ![48576, 0] ![0, 0] S1048576x3
  h_S_ : 0 < S_.numel
  pads_S1000000x4_S1048576x4_0485760_000 : S1000000x4.Pads (![0, 0] : Fin 2 → Nat) ![48576, 0] ![0, 0] S1048576x4
  concatenates_S1048576x3_S1048576x4_S1048576x7_d1 : Shape.Concatenates [S1048576x3, S1048576x4] S1048576x7 1
  transposes_S1048576x7_S7x1048576_1_0 : S1048576x7.Transposes [1, 0] S7x1048576
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  inb_S7x131072_S7x131072_0_0 : ∀ a, (![0, 0] : Fin 2 → Nat) a + S7x131072.size a ≤ S7x131072.size a
  h_S7x131072 : 0 < S7x131072.numel
  shapeCasts_S7x131072_S7x131072 : S7x131072.ShapeCasts S7x131072
  slices_S7x131072_o0_0_S3x131072 : S7x131072.Slices ![0, 0] S3x131072
  slices_S7x131072_o3_0_S3x131072 : S7x131072.Slices ![3, 0] S3x131072
  slices_S7x131072_o6_0_S1x131072 : S7x131072.Slices ![6, 0] S1x131072
  broadcasts_S1x131072_S3x131072 : S1x131072.Broadcasts S3x131072
  slices_S3x131072_o0_0_S1x131072 : S3x131072.Slices ![0, 0] S1x131072
  slices_S3x131072_o1_0_S1x131072 : S3x131072.Slices ![1, 0] S1x131072
  slices_S3x131072_o2_0_S1x131072 : S3x131072.Slices ![2, 0] S1x131072
  reduces_S1x131072_S1 : S1x131072.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  gather_S2000000x3_S3x1_S2000000x3_0_1_n_n_1_1_20000001_wf : GatherDims.WF S2000000x3 S3x1 S2000000x3 [0] [1] [] [1] [] 1 ![2000000, 1]
  gather_S12000000_S12000000x1_S12000000_n_0_n_n_0_1_1_wf : GatherDims.WF S12000000 S12000000x1 S12000000 [] [0] [] [0] [] 1 ![1]
  gather_S1000000x3_S12000000x1_S12000000x3_1_0_n_n_0_1_13_wf : GatherDims.WF S1000000x3 S12000000x1 S12000000x3 [1] [0] [] [0] [] 1 ![1, 3]
  scatter_S1000001x4_S12000000x1_S12000000x4_1_0_0_1_wf : ScatterDims.WF S1000001x4 S12000000x1 S12000000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x131072.size a ≤ S7x1048576.size a
  hwx0_0 : ∀ i : grid0.Coords, EltTy.bits .f32 = 32 ∨ (Rect.block (s := S7x1048576) S7x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def gather_S2000000x3_S3x1_S2000000x3_0_1_n_n_1_1_20000001 : GatherDims S2000000x3 S3x1 S2000000x3 where
  offsetDims := [0]
  collapsedSliceDims := [1]
  operandBatchingDims := []
  startIndicesBatchingDims := []
  startIndexMap := [1]
  indexVectorDim := 1
  sliceSizes := ![2000000, 1]
  wf := gather_S2000000x3_S3x1_S2000000x3_0_1_n_n_1_1_20000001_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S12000000_S12000000x1_S12000000_n_0_n_n_0_1_1 : GatherDims S12000000 S12000000x1 S12000000 where
  offsetDims := []
  collapsedSliceDims := [0]
  operandBatchingDims := []
  startIndicesBatchingDims := []
  startIndexMap := [0]
  indexVectorDim := 1
  sliceSizes := ![1]
  wf := gather_S12000000_S12000000x1_S12000000_n_0_n_n_0_1_1_wf
def gather_S1000000x3_S12000000x1_S12000000x3_1_0_n_n_0_1_13 : GatherDims S1000000x3 S12000000x1 S12000000x3 where
  offsetDims := [1]
  collapsedSliceDims := [0]
  operandBatchingDims := []
  startIndicesBatchingDims := []
  startIndexMap := [0]
  indexVectorDim := 1
  sliceSizes := ![1, 3]
  wf := gather_S1000000x3_S12000000x1_S12000000x3_1_0_n_n_0_1_13_wf
def scatter_S1000001x4_S12000000x1_S12000000x4_1_0_0_1 : ScatterDims S1000001x4 S12000000x1 S12000000x4 where
  updateWindowDims := [1]
  insertedWindowDims := [0]
  scatterDimsToOperandDims := [0]
  indexVectorDim := 1
  wf := scatter_S1000001x4_S12000000x1_S12000000x4_1_0_0_1_wf

abbrev win0_0 : Pipeline.Window sig grid0 :=
  Pipeline.Window.ofSpec (Memref.whole main_v59) S7x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S1000000x3 : Shape := ⟨2, ![1000000, 3]⟩
abbrev S2000000x3 : Shape := ⟨2, ![2000000, 3]⟩
abbrev S3 : Shape := ⟨1, ![3]⟩
abbrev S_ : Shape := ⟨0, ![]⟩
abbrev S3x1 : Shape := ⟨2, ![3, 1]⟩
abbrev S6000000 : Shape := ⟨1, ![6000000]⟩
abbrev S12000000 : Shape := ⟨1, ![12000000]⟩
abbrev S12000000x1 : Shape := ⟨2, ![12000000, 1]⟩
abbrev S1 : Shape := ⟨1, ![1]⟩
abbrev S11999999 : Shape := ⟨1, ![11999999]⟩
abbrev S12000000x3 : Shape := ⟨2, ![12000000, 3]⟩
abbrev S1000000 : Shape := ⟨1, ![1000000]⟩
abbrev S1000000x1 : Shape := ⟨2, ![1000000, 1]⟩

abbrev nBuf : Space → Nat
  | .hbm => 91
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S2000000x3, .i32⟩
  | .hbm, ⟨2, _⟩ => ⟨S3, .i32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i1⟩
  | .hbm, ⟨7, _⟩ => ⟨S_, .i32⟩
  | .hbm, ⟨8, _⟩ => ⟨S3, .i32⟩
  | .hbm, ⟨9, _⟩ => ⟨S3, .i32⟩
  | .hbm, ⟨10, _⟩ => ⟨S3, .i32⟩
  | .hbm, ⟨11, _⟩ => ⟨S3x1, .i32⟩
  | .hbm, ⟨12, _⟩ => ⟨S2000000x3, .i32⟩
  | .hbm, ⟨13, _⟩ => ⟨S6000000, .i32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S3x1, .i32⟩
  | .hbm, ⟨22, _⟩ => ⟨S2000000x3, .i32⟩
  | .hbm, ⟨23, _⟩ => ⟨S6000000, .i32⟩
  | .hbm, ⟨24, _⟩ => ⟨S12000000, .i32⟩
  | .hbm, ⟨25, _⟩ => ⟨S12000000, .i32⟩
  | .hbm, ⟨26, _⟩ => ⟨S12000000, .i32⟩
  | .hbm, ⟨27, _⟩ => ⟨S12000000, .i32⟩
  | .hbm, ⟨28, _⟩ => ⟨S12000000, .i32⟩
  | .hbm, ⟨29, _⟩ => ⟨S12000000, .i32⟩
  | .hbm, ⟨30, _⟩ => ⟨S_, .i32⟩
  | .hbm, ⟨31, _⟩ => ⟨S12000000, .i32⟩
  | .hbm, ⟨32, _⟩ => ⟨S12000000, .i1⟩
  | .hbm, ⟨33, _⟩ => ⟨S_, .i32⟩
  | .hbm, ⟨34, _⟩ => ⟨S12000000, .i32⟩
  | .hbm, ⟨35, _⟩ => ⟨S12000000, .i32⟩
  | .hbm, ⟨36, _⟩ => ⟨S12000000, .i32⟩
  | .hbm, ⟨37, _⟩ => ⟨S12000000x1, .i32⟩
  | .hbm, ⟨38, _⟩ => ⟨S12000000, .i32⟩
  | .hbm, ⟨39, _⟩ => ⟨S_, .i32⟩
  | .hbm, ⟨40, _⟩ => ⟨S12000000, .i32⟩
  | .hbm, ⟨41, _⟩ => ⟨S12000000, .i1⟩
  | .hbm, ⟨42, _⟩ => ⟨S_, .i32⟩
  | .hbm, ⟨43, _⟩ => ⟨S12000000, .i32⟩
  | .hbm, ⟨44, _⟩ => ⟨S12000000, .i32⟩
  | .hbm, ⟨45, _⟩ => ⟨S12000000, .i32⟩
  | .hbm, ⟨46, _⟩ => ⟨S12000000x1, .i32⟩
  | .hbm, ⟨47, _⟩ => ⟨S12000000, .i32⟩
  | .hbm, ⟨48, _⟩ => ⟨S_, .i1⟩
  | .hbm, ⟨49, _⟩ => ⟨S1, .i1⟩
  | .hbm, ⟨50, _⟩ => ⟨S11999999, .i32⟩
  | .hbm, ⟨51, _⟩ => ⟨S11999999, .i32⟩
  | .hbm, ⟨52, _⟩ => ⟨S11999999, .i1⟩
  | .hbm, ⟨53, _⟩ => ⟨S11999999, .i32⟩
  | .hbm, ⟨54, _⟩ => ⟨S11999999, .i32⟩
  | .hbm, ⟨55, _⟩ => ⟨S11999999, .i1⟩
  | .hbm, ⟨56, _⟩ => ⟨S11999999, .i1⟩
  | .hbm, ⟨57, _⟩ => ⟨S12000000, .i1⟩
  | .hbm, ⟨58, _⟩ => ⟨S12000000, .f32⟩
  | .hbm, ⟨59, _⟩ => ⟨S12000000x1, .f32⟩
  | .hbm, ⟨60, _⟩ => ⟨S_, .i32⟩
  | .hbm, ⟨61, _⟩ => ⟨S12000000, .i32⟩
  | .hbm, ⟨62, _⟩ => ⟨S12000000, .i1⟩
  | .hbm, ⟨63, _⟩ => ⟨S_, .i32⟩
  | .hbm, ⟨64, _⟩ => ⟨S12000000, .i32⟩
  | .hbm, ⟨65, _⟩ => ⟨S12000000, .i32⟩
  | .hbm, ⟨66, _⟩ => ⟨S12000000, .i32⟩
  | .hbm, ⟨67, _⟩ => ⟨S12000000x1, .i32⟩
  | .hbm, ⟨68, _⟩ => ⟨S12000000x3, .f32⟩
  | .hbm, ⟨69, _⟩ => ⟨S12000000x3, .f32⟩
  | .hbm, ⟨70, _⟩ => ⟨S12000000x3, .f32⟩
  | .hbm, ⟨71, _⟩ => ⟨S_, .f32⟩
  | .hbm, ⟨72, _⟩ => ⟨S1000000x3, .f32⟩
  | .hbm, ⟨73, _⟩ => ⟨S12000000x1, .i32⟩
  | .hbm, ⟨74, _⟩ => ⟨S1000000x3, .f32⟩
  | .hbm, ⟨75, _⟩ => ⟨S_, .f32⟩
  | .hbm, ⟨76, _⟩ => ⟨S1000000, .f32⟩
  | .hbm, ⟨77, _⟩ => ⟨S12000000x1, .i32⟩
  | .hbm, ⟨78, _⟩ => ⟨S1000000, .f32⟩
  | .hbm, ⟨79, _⟩ => ⟨S1000000x1, .f32⟩
  | .hbm, ⟨80, _⟩ => ⟨S1000000x3, .f32⟩
  | .hbm, ⟨81, _⟩ => ⟨S1000000x3, .f32⟩
  | .hbm, ⟨82, _⟩ => ⟨S1000000x3, .f32⟩
  | .hbm, ⟨83, _⟩ => ⟨S1000000x3, .f32⟩
  | .hbm, ⟨84, _⟩ => ⟨S_, .f32⟩
  | .hbm, ⟨85, _⟩ => ⟨S1000000, .f32⟩
  | .hbm, ⟨86, _⟩ => ⟨S1000000, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1_0 : Ref sig .tc := ⟨.hbm, 27, rfl⟩
abbrev main_call0_v1_1 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call1_v0 : Ref sig .tc := ⟨.hbm, 83, rfl⟩
abbrev main_call1_cst : Ref sig .tc := ⟨.hbm, 84, rfl⟩
abbrev main_call1_v1 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  shapeCasts_S2000000x3_S6000000 : S2000000x3.ShapeCasts S6000000
  concatenates_S6000000_S6000000_S12000000_d0 : Shape.Concatenates [S6000000, S6000000] S12000000 0
  bcast_S_S12000000 : S_.BroadcastsInDim S12000000 (![] : Fin 0 → Fin S12000000.rank)
  bcast_S12000000_S12000000x1_0 : S12000000.BroadcastsInDim S12000000x1 (![0] : Fin 1 → Fin S12000000x1.rank)
  bcast_S_S1 : S_.BroadcastsInDim S1 (![] : Fin 0 → Fin S1.rank)
  slices_S12000000_S11999999_1 : S12000000.Slices ![1] S11999999
  slices_S12000000_S11999999_0 : S12000000.Slices ![0] S11999999
  concatenates_S1_S11999999_S12000000_d0 : Shape.Concatenates [S1, S11999999] S12000000 0
  bcast_S12000000x1_S12000000x3_0_1 : S12000000x1.BroadcastsInDim S12000000x3 (![0, 1] : Fin 2 → Fin S12000000x3.rank)
  bcast_S_S1000000x3 : S_.BroadcastsInDim S1000000x3 (![] : Fin 0 → Fin S1000000x3.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x3_0_1 : S1000000x1.BroadcastsInDim S1000000x3 (![0, 1] : Fin 2 → Fin S1000000x3.rank)
  reducesTo_S1000000x3_S1000000_d1 : S1000000x3.ReducesTo [1] S1000000
  h_S_ : 0 < S_.numel
  reducesTo_S1000000_S_d0 : S1000000.ReducesTo [0] S_
  gather_S2000000x3_S3x1_S2000000x3_0_1_n_n_1_1_20000001_wf : GatherDims.WF S2000000x3 S3x1 S2000000x3 [0] [1] [] [1] [] 1 ![2000000, 1]
  gather_S12000000_S12000000x1_S12000000_n_0_n_n_0_1_1_wf : GatherDims.WF S12000000 S12000000x1 S12000000 [] [0] [] [0] [] 1 ![1]
  gather_S1000000x3_S12000000x1_S12000000x3_1_0_n_n_0_1_13_wf : GatherDims.WF S1000000x3 S12000000x1 S12000000x3 [1] [0] [] [0] [] 1 ![1, 3]
  scatter_S1000000x3_S12000000x1_S12000000x3_1_0_0_1_wf : ScatterDims.WF S1000000x3 S12000000x1 S12000000x3 [1] [0] [0] 1
  scatter_S1000000_S12000000x1_S12000000_n_0_0_1_wf : ScatterDims.WF S1000000 S12000000x1 S12000000 [] [0] [0] 1

variable [Facts₀]

def gather_S2000000x3_S3x1_S2000000x3_0_1_n_n_1_1_20000001 : GatherDims S2000000x3 S3x1 S2000000x3 where
  offsetDims := [0]
  collapsedSliceDims := [1]
  operandBatchingDims := []
  startIndicesBatchingDims := []
  startIndexMap := [1]
  indexVectorDim := 1
  sliceSizes := ![2000000, 1]
  wf := gather_S2000000x3_S3x1_S2000000x3_0_1_n_n_1_1_20000001_wf
def comparator_i32_i32_i32_d0 : BitVec 32 × BitVec 32 × BitVec 32 → BitVec 32 × BitVec 32 × BitVec 32 → BitVec 1 :=
  fun l r =>
    let v2 := IntOp.cmpi .slt l.2.1 r.2.1
    let v3 := IntOp.cmpi .slt l.1 r.1
    let v4 := IntOp.cmpi .eq l.1 r.1
    let v5 := IntOp.andi v4 v2
    let v6 := IntOp.ori v3 v5
    v6
def gather_S12000000_S12000000x1_S12000000_n_0_n_n_0_1_1 : GatherDims S12000000 S12000000x1 S12000000 where
  offsetDims := []
  collapsedSliceDims := [0]
  operandBatchingDims := []
  startIndicesBatchingDims := []
  startIndexMap := [0]
  indexVectorDim := 1
  sliceSizes := ![1]
  wf := gather_S12000000_S12000000x1_S12000000_n_0_n_n_0_1_1_wf
def gather_S1000000x3_S12000000x1_S12000000x3_1_0_n_n_0_1_13 : GatherDims S1000000x3 S12000000x1 S12000000x3 where
  offsetDims := [1]
  collapsedSliceDims := [0]
  operandBatchingDims := []
  startIndicesBatchingDims := []
  startIndexMap := [0]
  indexVectorDim := 1
  sliceSizes := ![1, 3]
  wf := gather_S1000000x3_S12000000x1_S12000000x3_1_0_n_n_0_1_13_wf
def scatter_S1000000x3_S12000000x1_S12000000x3_1_0_0_1 : ScatterDims S1000000x3 S12000000x1 S12000000x3 where
  updateWindowDims := [1]
  insertedWindowDims := [0]
  scatterDimsToOperandDims := [0]
  indexVectorDim := 1
  wf := scatter_S1000000x3_S12000000x1_S12000000x3_1_0_0_1_wf
def scatter_S1000000_S12000000x1_S12000000_n_0_0_1 : ScatterDims S1000000 S12000000x1 S12000000 where
  updateWindowDims := []
  insertedWindowDims := [0]
  scatterDimsToOperandDims := [0]
  indexVectorDim := 1
  wf := scatter_S1000000_S12000000x1_S12000000_n_0_0_1_wf

class Facts : Prop extends Facts₀ where

variable [Facts]
-- ==== Proof.KHostDefs.lean ====
/- The host side of the kernel's program as closed terms: the sorted edge words, the first-occurrence
   mask, the packed array the region reads, and the scalar the program returns from the region's output.
   Each definition lists the program's operations one per line, in program order, with the pure function
   each operation applies. -/
import proofs.«101357_j30545807409222_2_alg».proof.KernelIdeal

set_option synthInstance.maxSize 4096

noncomputable section

namespace Cert.KernelIdeal.KHost

open Idealize.ShloMosaic Idealize.SL.Sem
open Cert.KernelIdeal
open Cert.KernelIdeal.Facts₀ Cert.KernelIdeal.Facts

variable {F : FTy → Type} [FloatOps F] [Cert.KernelIdeal.Facts]

/-- `%25`: the source word of every directed edge, in the lexicographic order of (source, destination). -/
def src (faces : IVec S2000000x3 32) : IVec S12000000 32 :=
  have c : IVec S3 32 := fun i => lit0 (S3.rowMajor i)                 -- %c = constant dense<[1, 2, 0]>
  have c_0 : IVec S3 32 := fun i => lit1 (S3.rowMajor i)               -- %c_0 = constant dense<[2, 0, 1]>
  have c_1 : IVec S_ 32 := constantI S_ 32 0#32                         -- %c_1 = constant 0
  have v0 : IVec S3 32 := broadcastInDim S3 ![] bcast_S_S3 c_1          -- %0 = broadcast_in_dim %c_1
  have v1 : IVec S3 1 := cmpi .slt c v0                                 -- %1 = compare LT, %c, %0
  have c_2 : IVec S_ 32 := constantI S_ 32 3#32                         -- %c_2 = constant 3
  have v2 : IVec S3 32 := broadcastInDim S3 ![] bcast_S_S3 c_2          -- %2 = broadcast_in_dim %c_2
  have v3 : IVec S3 32 := addi c v2                                     -- %3 = add %c, %2
  have v4 : IVec S3 32 := select v1 v3 c                                -- %4 = select %1, %3, %c
  have v5 : IVec S3x1 32 := broadcastInDim S3x1 ![0] bcast_S3_S3x1_0 v4 -- %5 = broadcast_in_dim %4, dims = [0]
  have v6 : IVec S2000000x3 32 := Host.gather gather_S2000000x3_S3x1_S2000000x3_0_1_n_n_1_1_20000001 faces v5 -- %6 = gather(%arg1, %5): the columns of faces rolled by one
  have v7 : IVec S6000000 32 := shapeCast S6000000 v6 shapeCasts_S2000000x3_S6000000 -- %7 = reshape %6
  have c_3 : IVec S_ 32 := constantI S_ 32 0#32                         -- %c_3 = constant 0
  have v8 : IVec S3 32 := broadcastInDim S3 ![] bcast_S_S3 c_3          -- %8 = broadcast_in_dim %c_3
  have v9 : IVec S3 1 := cmpi .slt c_0 v8                               -- %9 = compare LT, %c_0, %8
  have c_4 : IVec S_ 32 := constantI S_ 32 3#32                         -- %c_4 = constant 3
  have v10 : IVec S3 32 := broadcastInDim S3 ![] bcast_S_S3 c_4         -- %10 = broadcast_in_dim %c_4
  have v11 : IVec S3 32 := addi c_0 v10                                 -- %11 = add %c_0, %10
  have v12 : IVec S3 32 := select v9 v11 c_0                            -- %12 = select %9, %11, %c_0
  have v13 : IVec S3x1 32 := broadcastInDim S3x1 ![0] bcast_S3_S3x1_0 v12 -- %13 = broadcast_in_dim %12, dims = [0]
  have v14 : IVec S2000000x3 32 := Host.gather gather_S2000000x3_S3x1_S2000000x3_0_1_n_n_1_1_20000001 faces v13 -- %14 = gather(%arg1, %13): the columns of faces rolled by two
  have v15 : IVec S6000000 32 := shapeCast S6000000 v14 shapeCasts_S2000000x3_S6000000 -- %15 = reshape %14
  have v16 : IVec S12000000 32 := concatenate S12000000 0 [⟨S6000000, v7⟩, ⟨S6000000, v15⟩] concatenates_S6000000_S6000000_S12000000_d0 -- %16 = concatenate %7, %15: the edge sources
  have v17 : IVec S12000000 32 := concatenate S12000000 0 [⟨S6000000, v15⟩, ⟨S6000000, v7⟩] concatenates_S6000000_S6000000_S12000000_d0 -- %17 = concatenate %15, %7: the edge destinations
  have call0_v0 : IVec S12000000 32 := iotaInDim S12000000 32 0         -- @lexsort's %0 = iota
  have call0_v1_0 : IVec S12000000 32 := (Host.sort3 S12000000 0 comparator_i32_i32_i32_d0 v16 v17 call0_v0).1 -- @lexsort's %1#0
  have call0_v1_1 : IVec S12000000 32 := (Host.sort3 S12000000 0 comparator_i32_i32_i32_d0 v16 v17 call0_v0).2.1 -- @lexsort's %1#1
  have v18 : IVec S12000000 32 := (Host.sort3 S12000000 0 comparator_i32_i32_i32_d0 v16 v17 call0_v0).2.2 -- %18 = @lexsort's %1#2: the sorting permutation
  have c_5 : IVec S_ 32 := constantI S_ 32 0#32                         -- %c_5 = constant 0
  have v19 : IVec S12000000 32 := broadcastInDim S12000000 ![] bcast_S_S12000000 c_5 -- %19 = broadcast_in_dim %c_5
  have v20 : IVec S12000000 1 := cmpi .slt v18 v19                      -- %20 = compare LT, %18, %19
  have c_6 : IVec S_ 32 := constantI S_ 32 12000000#32                  -- %c_6 = constant 12000000
  have v21 : IVec S12000000 32 := broadcastInDim S12000000 ![] bcast_S_S12000000 c_6 -- %21 = broadcast_in_dim %c_6
  have v22 : IVec S12000000 32 := addi v18 v21                          -- %22 = add %18, %21
  have v23 : IVec S12000000 32 := select v20 v22 v18                    -- %23 = select %20, %22, %18
  have v24 : IVec S12000000x1 32 := broadcastInDim S12000000x1 ![0] bcast_S12000000_S12000000x1_0 v23 -- %24 = broadcast_in_dim %23, dims = [0]
  have v25 : IVec S12000000 32 := Host.gather gather_S12000000_S12000000x1_S12000000_n_0_n_n_0_1_1 v16 v24 -- %25 = gather(%16, %24): the sorted sources
  v25

/-- `%32`: the destination word of every directed edge, in the same order. -/
def dst (faces : IVec S2000000x3 32) : IVec S12000000 32 :=
  have c : IVec S3 32 := fun i => lit0 (S3.rowMajor i)                 -- %c = constant dense<[1, 2, 0]>
  have c_0 : IVec S3 32 := fun i => lit1 (S3.rowMajor i)               -- %c_0 = constant dense<[2, 0, 1]>
  have c_1 : IVec S_ 32 := constantI S_ 32 0#32                         -- %c_1 = constant 0
  have v0 : IVec S3 32 := broadcastInDim S3 ![] bcast_S_S3 c_1          -- %0 = broadcast_in_dim %c_1
  have v1 : IVec S3 1 := cmpi .slt c v0                                 -- %1 = compare LT, %c, %0
  have c_2 : IVec S_ 32 := constantI S_ 32 3#32                         -- %c_2 = constant 3
  have v2 : IVec S3 32 := broadcastInDim S3 ![] bcast_S_S3 c_2          -- %2 = broadcast_in_dim %c_2
  have v3 : IVec S3 32 := addi c v2                                     -- %3 = add %c, %2
  have v4 : IVec S3 32 := select v1 v3 c                                -- %4 = select %1, %3, %c
  have v5 : IVec S3x1 32 := broadcastInDim S3x1 ![0] bcast_S3_S3x1_0 v4 -- %5 = broadcast_in_dim %4, dims = [0]
  have v6 : IVec S2000000x3 32 := Host.gather gather_S2000000x3_S3x1_S2000000x3_0_1_n_n_1_1_20000001 faces v5 -- %6 = gather(%arg1, %5): the columns of faces rolled by one
  have v7 : IVec S6000000 32 := shapeCast S6000000 v6 shapeCasts_S2000000x3_S6000000 -- %7 = reshape %6
  have c_3 : IVec S_ 32 := constantI S_ 32 0#32                         -- %c_3 = constant 0
  have v8 : IVec S3 32 := broadcastInDim S3 ![] bcast_S_S3 c_3          -- %8 = broadcast_in_dim %c_3
  have v9 : IVec S3 1 := cmpi .slt c_0 v8                               -- %9 = compare LT, %c_0, %8
  have c_4 : IVec S_ 32 := constantI S_ 32 3#32                         -- %c_4 = constant 3
  have v10 : IVec S3 32 := broadcastInDim S3 ![] bcast_S_S3 c_4         -- %10 = broadcast_in_dim %c_4
  have v11 : IVec S3 32 := addi c_0 v10                                 -- %11 = add %c_0, %10
  have v12 : IVec S3 32 := select v9 v11 c_0                            -- %12 = select %9, %11, %c_0
  have v13 : IVec S3x1 32 := broadcastInDim S3x1 ![0] bcast_S3_S3x1_0 v12 -- %13 = broadcast_in_dim %12, dims = [0]
  have v14 : IVec S2000000x3 32 := Host.gather gather_S2000000x3_S3x1_S2000000x3_0_1_n_n_1_1_20000001 faces v13 -- %14 = gather(%arg1, %13): the columns of faces rolled by two
  have v15 : IVec S6000000 32 := shapeCast S6000000 v14 shapeCasts_S2000000x3_S6000000 -- %15 = reshape %14
  have v16 : IVec S12000000 32 := concatenate S12000000 0 [⟨S6000000, v7⟩, ⟨S6000000, v15⟩] concatenates_S6000000_S6000000_S12000000_d0 -- %16 = concatenate %7, %15: the edge sources
  have v17 : IVec S12000000 32 := concatenate S12000000 0 [⟨S6000000, v15⟩, ⟨S6000000, v7⟩] concatenates_S6000000_S6000000_S12000000_d0 -- %17 = concatenate %15, %7: the edge destinations
  have call0_v0 : IVec S12000000 32 := iotaInDim S12000000 32 0         -- @lexsort's %0 = iota
  have call0_v1_0 : IVec S12000000 32 := (Host.sort3 S12000000 0 comparator_i32_i32_i32_d0 v16 v17 call0_v0).1 -- @lexsort's %1#0
  have call0_v1_1 : IVec S12000000 32 := (Host.sort3 S12000000 0 comparator_i32_i32_i32_d0 v16 v17 call0_v0).2.1 -- @lexsort's %1#1
  have v18 : IVec S12000000 32 := (Host.sort3 S12000000 0 comparator_i32_i32_i32_d0 v16 v17 call0_v0).2.2 -- %18 = @lexsort's %1#2: the sorting permutation
  have c_5 : IVec S_ 32 := constantI S_ 32 0#32                         -- %c_5 = constant 0
  have v19 : IVec S12000000 32 := broadcastInDim S12000000 ![] bcast_S_S12000000 c_5 -- %19 = broadcast_in_dim %c_5
  have v20 : IVec S12000000 1 := cmpi .slt v18 v19                      -- %20 = compare LT, %18, %19
  have c_6 : IVec S_ 32 := constantI S_ 32 12000000#32                  -- %c_6 = constant 12000000
  have v21 : IVec S12000000 32 := broadcastInDim S12000000 ![] bcast_S_S12000000 c_6 -- %21 = broadcast_in_dim %c_6
  have v22 : IVec S12000000 32 := addi v18 v21                          -- %22 = add %18, %21
  have v23 : IVec S12000000 32 := select v20 v22 v18                    -- %23 = select %20, %22, %18
  have v24 : IVec S12000000x1 32 := broadcastInDim S12000000x1 ![0] bcast_S12000000_S12000000x1_0 v23 -- %24 = broadcast_in_dim %23, dims = [0]
  have v25 : IVec S12000000 32 := Host.gather gather_S12000000_S12000000x1_S12000000_n_0_n_n_0_1_1 v16 v24 -- %25 = gather(%16, %24): the sorted sources
  have c_7 : IVec S_ 32 := constantI S_ 32 0#32                         -- %c_7 = constant 0
  have v26 : IVec S12000000 32 := broadcastInDim S12000000 ![] bcast_S_S12000000 c_7 -- %26 = broadcast_in_dim %c_7
  have v27 : IVec S12000000 1 := cmpi .slt v18 v26                      -- %27 = compare LT, %18, %26
  have c_8 : IVec S_ 32 := constantI S_ 32 12000000#32                  -- %c_8 = constant 12000000
  have v28 : IVec S12000000 32 := broadcastInDim S12000000 ![] bcast_S_S12000000 c_8 -- %28 = broadcast_in_dim %c_8
  have v29 : IVec S12000000 32 := addi v18 v28                          -- %29 = add %18, %28
  have v30 : IVec S12000000 32 := select v27 v29 v18                    -- %30 = select %27, %29, %18
  have v31 : IVec S12000000x1 32 := broadcastInDim S12000000x1 ![0] bcast_S12000000_S12000000x1_0 v30 -- %31 = broadcast_in_dim %30, dims = [0]
  have v32 : IVec S12000000 32 := Host.gather gather_S12000000_S12000000x1_S12000000_n_0_n_n_0_1_1 v17 v31 -- %32 = gather(%17, %31): the sorted destinations
  v32

/-- `%41`: one at position 0 and wherever the sorted edge differs from the one before it. -/
def first (faces : IVec S2000000x3 32) : IVec S12000000 1 :=
  have c : IVec S3 32 := fun i => lit0 (S3.rowMajor i)                 -- %c = constant dense<[1, 2, 0]>
  have c_0 : IVec S3 32 := fun i => lit1 (S3.rowMajor i)               -- %c_0 = constant dense<[2, 0, 1]>
  have c_1 : IVec S_ 32 := constantI S_ 32 0#32                         -- %c_1 = constant 0
  have v0 : IVec S3 32 := broadcastInDim S3 ![] bcast_S_S3 c_1          -- %0 = broadcast_in_dim %c_1
  have v1 : IVec S3 1 := cmpi .slt c v0                                 -- %1 = compare LT, %c, %0
  have c_2 : IVec S_ 32 := constantI S_ 32 3#32                         -- %c_2 = constant 3
  have v2 : IVec S3 32 := broadcastInDim S3 ![] bcast_S_S3 c_2          -- %2 = broadcast_in_dim %c_2
  have v3 : IVec S3 32 := addi c v2                                     -- %3 = add %c, %2
  have v4 : IVec S3 32 := select v1 v3 c                                -- %4 = select %1, %3, %c
  have v5 : IVec S3x1 32 := broadcastInDim S3x1 ![0] bcast_S3_S3x1_0 v4 -- %5 = broadcast_in_dim %4, dims = [0]
  have v6 : IVec S2000000x3 32 := Host.gather gather_S2000000x3_S3x1_S2000000x3_0_1_n_n_1_1_20000001 faces v5 -- %6 = gather(%arg1, %5): the columns of faces rolled by one
  have v7 : IVec S6000000 32 := shapeCast S6000000 v6 shapeCasts_S2000000x3_S6000000 -- %7 = reshape %6
  have c_3 : IVec S_ 32 := constantI S_ 32 0#32                         -- %c_3 = constant 0
  have v8 : IVec S3 32 := broadcastInDim S3 ![] bcast_S_S3 c_3          -- %8 = broadcast_in_dim %c_3
  have v9 : IVec S3 1 := cmpi .slt c_0 v8                               -- %9 = compare LT, %c_0, %8
  have c_4 : IVec S_ 32 := constantI S_ 32 3#32                         -- %c_4 = constant 3
  have v10 : IVec S3 32 := broadcastInDim S3 ![] bcast_S_S3 c_4         -- %10 = broadcast_in_dim %c_4
  have v11 : IVec S3 32 := addi c_0 v10                                 -- %11 = add %c_0, %10
  have v12 : IVec S3 32 := select v9 v11 c_0                            -- %12 = select %9, %11, %c_0
  have v13 : IVec S3x1 32 := broadcastInDim S3x1 ![0] bcast_S3_S3x1_0 v12 -- %13 = broadcast_in_dim %12, dims = [0]
  have v14 : IVec S2000000x3 32 := Host.gather gather_S2000000x3_S3x1_S2000000x3_0_1_n_n_1_1_20000001 faces v13 -- %14 = gather(%arg1, %13): the columns of faces rolled by two
  have v15 : IVec S6000000 32 := shapeCast S6000000 v14 shapeCasts_S2000000x3_S6000000 -- %15 = reshape %14
  have v16 : IVec S12000000 32 := concatenate S12000000 0 [⟨S6000000, v7⟩, ⟨S6000000, v15⟩] concatenates_S6000000_S6000000_S12000000_d0 -- %16 = concatenate %7, %15: the edge sources
  have v17 : IVec S12000000 32 := concatenate S12000000 0 [⟨S6000000, v15⟩, ⟨S6000000, v7⟩] concatenates_S6000000_S6000000_S12000000_d0 -- %17 = concatenate %15, %7: the edge destinations
  have call0_v0 : IVec S12000000 32 := iotaInDim S12000000 32 0         -- @lexsort's %0 = iota
  have call0_v1_0 : IVec S12000000 32 := (Host.sort3 S12000000 0 comparator_i32_i32_i32_d0 v16 v17 call0_v0).1 -- @lexsort's %1#0
  have call0_v1_1 : IVec S12000000 32 := (Host.sort3 S12000000 0 comparator_i32_i32_i32_d0 v16 v17 call0_v0).2.1 -- @lexsort's %1#1
  have v18 : IVec S12000000 32 := (Host.sort3 S12000000 0 comparator_i32_i32_i32_d0 v16 v17 call0_v0).2.2 -- %18 = @lexsort's %1#2: the sorting permutation
  have c_5 : IVec S_ 32 := constantI S_ 32 0#32                         -- %c_5 = constant 0
  have v19 : IVec S12000000 32 := broadcastInDim S12000000 ![] bcast_S_S12000000 c_5 -- %19 = broadcast_in_dim %c_5
  have v20 : IVec S12000000 1 := cmpi .slt v18 v19                      -- %20 = compare LT, %18, %19
  have c_6 : IVec S_ 32 := constantI S_ 32 12000000#32                  -- %c_6 = constant 12000000
  have v21 : IVec S12000000 32 := broadcastInDim S12000000 ![] bcast_S_S12000000 c_6 -- %21 = broadcast_in_dim %c_6
  have v22 : IVec S12000000 32 := addi v18 v21                          -- %22 = add %18, %21
  have v23 : IVec S12000000 32 := select v20 v22 v18                    -- %23 = select %20, %22, %18
  have v24 : IVec S12000000x1 32 := broadcastInDim S12000000x1 ![0] bcast_S12000000_S12000000x1_0 v23 -- %24 = broadcast_in_dim %23, dims = [0]
  have v25 : IVec S12000000 32 := Host.gather gather_S12000000_S12000000x1_S12000000_n_0_n_n_0_1_1 v16 v24 -- %25 = gather(%16, %24): the sorted sources
  have c_7 : IVec S_ 32 := constantI S_ 32 0#32                         -- %c_7 = constant 0
  have v26 : IVec S12000000 32 := broadcastInDim S12000000 ![] bcast_S_S12000000 c_7 -- %26 = broadcast_in_dim %c_7
  have v27 : IVec S12000000 1 := cmpi .slt v18 v26                      -- %27 = compare LT, %18, %26
  have c_8 : IVec S_ 32 := constantI S_ 32 12000000#32                  -- %c_8 = constant 12000000
  have v28 : IVec S12000000 32 := broadcastInDim S12000000 ![] bcast_S_S12000000 c_8 -- %28 = broadcast_in_dim %c_8
  have v29 : IVec S12000000 32 := addi v18 v28                          -- %29 = add %18, %28
  have v30 : IVec S12000000 32 := select v27 v29 v18                    -- %30 = select %27, %29, %18
  have v31 : IVec S12000000x1 32 := broadcastInDim S12000000x1 ![0] bcast_S12000000_S12000000x1_0 v30 -- %31 = broadcast_in_dim %30, dims = [0]
  have v32 : IVec S12000000 32 := Host.gather gather_S12000000_S12000000x1_S12000000_n_0_n_n_0_1_1 v17 v31 -- %32 = gather(%17, %31): the sorted destinations
  have c_9 : IVec S_ 1 := constantI S_ 1 1#1                            -- %c_9 = constant true
  have v33 : IVec S1 1 := broadcastInDim S1 ![] bcast_S_S1 c_9          -- %33 = broadcast_in_dim %c_9
  have v34 : IVec S11999999 32 := extractStridedSlice S11999999 ![1] v25 slices_S12000000_S11999999_1 -- %34 = slice %25 [1:12000000]
  have v35 : IVec S11999999 32 := extractStridedSlice S11999999 ![0] v25 slices_S12000000_S11999999_0 -- %35 = slice %25 [0:11999999]
  have v36 : IVec S11999999 1 := cmpi .ne v34 v35                       -- %36 = compare NE, %34, %35
  have v37 : IVec S11999999 32 := extractStridedSlice S11999999 ![1] v32 slices_S12000000_S11999999_1 -- %37 = slice %32 [1:12000000]
  have v38 : IVec S11999999 32 := extractStridedSlice S11999999 ![0] v32 slices_S12000000_S11999999_0 -- %38 = slice %32 [0:11999999]
  have v39 : IVec S11999999 1 := cmpi .ne v37 v38                       -- %39 = compare NE, %37, %38
  have v40 : IVec S11999999 1 := ori v36 v39                            -- %40 = or %36, %39
  have v41 : IVec S12000000 1 := concatenate S12000000 0 [⟨S1, v33⟩, ⟨S11999999, v40⟩] concatenates_S1_S11999999_S12000000_d0 -- %41 = concatenate %33, %40: the first-occurrence mask
  v41

/-- `%59`: rows 0..2 the vertex coordinates, rows 3..5 the sums of the neighbours' coordinates over the
    first occurrences of each vertex's edges, row 6 their count; columns past 1000000 are zero. -/
def packed (verts : FVec F S1000000x3 .f32) (s d : IVec S12000000 32) (fst : IVec S12000000 1) : FVec F S7x1048576 .f32 :=
  have c_10 : IVec S_ 32 := constantI S_ 32 1000000#32                  -- %c_10 = constant 1000000
  have call1_v0 : IVec S12000000 32 := broadcastInDim S12000000 ![] bcast_S_S12000000 c_10 -- @_where's %0 = broadcast_in_dim %arg2
  have v42 : IVec S12000000 32 := select fst s call1_v0                 -- %42 = @_where's select %arg0, %arg1, %0: duplicates go to row 1000000
  have c_11 : IVec S_ 32 := constantI S_ 32 0#32                        -- %c_11 = constant 0
  have v43 : IVec S12000000 32 := broadcastInDim S12000000 ![] bcast_S_S12000000 c_11 -- %43 = broadcast_in_dim %c_11
  have v44 : IVec S12000000 1 := cmpi .slt d v43                        -- %44 = compare LT, %32, %43
  have c_12 : IVec S_ 32 := constantI S_ 32 1000000#32                  -- %c_12 = constant 1000000
  have v45 : IVec S12000000 32 := broadcastInDim S12000000 ![] bcast_S_S12000000 c_12 -- %45 = broadcast_in_dim %c_12
  have v46 : IVec S12000000 32 := addi d v45                            -- %46 = add %32, %45
  have v47 : IVec S12000000 32 := select v44 v46 d                      -- %47 = select %44, %46, %32
  have v48 : IVec S12000000x1 32 := broadcastInDim S12000000x1 ![0] bcast_S12000000_S12000000x1_0 v47 -- %48 = broadcast_in_dim %47, dims = [0]
  have v49 : FVec F S12000000x3 .f32 := Host.gather gather_S1000000x3_S12000000x1_S12000000x3_1_0_n_n_0_1_13 verts v48 -- %49 = gather(%arg0, %48): the destination vertex of every edge
  have cst : FVec F S_ .f32 := constant S_ .f32 0x3F800000#32           -- %cst = constant 1.0
  have v50 : FVec F S12000000x1 .f32 := broadcastInDim S12000000x1 ![] bcast_S_S12000000x1 cst -- %50 = broadcast_in_dim %cst
  have v51 : FVec F S12000000x4 .f32 := concatenate S12000000x4 1 [⟨S12000000x3, v49⟩, ⟨S12000000x1, v50⟩] concatenates_S12000000x3_S12000000x1_S12000000x4_d1 -- %51 = concatenate %49, %50, dim = 1
  have cst_13 : FVec F S_ .f32 := constant S_ .f32 0x00000000#32        -- %cst_13 = constant 0.0
  have v52 : FVec F S1000001x4 .f32 := broadcastInDim S1000001x4 ![] bcast_S_S1000001x4 cst_13 -- %52 = broadcast_in_dim %cst_13
  have v53 : IVec S12000000x1 32 := broadcastInDim S12000000x1 ![0] bcast_S12000000_S12000000x1_0 v42 -- %53 = broadcast_in_dim %42, dims = [0]
  have v54 : FVec F S1000001x4 .f32 := Host.scatterAdd scatter_S1000001x4_S12000000x1_S12000000x4_1_0_0_1 v52 v53 v51 -- %54 = scatter-add of %51 into %52 at rows %53
  have v55 : FVec F S1000000x4 .f32 := extractStridedSlice S1000000x4 ![0, 0] v54 slices_S1000001x4_S1000000x4_0_0 -- %55 = slice %54 [0:1000000, 0:4]
  have c_14 : IVec S_ 32 := constantI S_ 32 0#32                        -- %c_14 = constant 0
  have call2_v0 : FVec F S_ .f32 := sitofp .f32 c_14                    -- @_pad's %0 = convert %arg1
  have v56 : FVec F S1048576x3 .f32 := pad S1048576x3 ![0, 0] ![48576, 0] ![0, 0] verts call2_v0 pads_S1000000x3_S1048576x3_0485760_000 h_S_ -- %56 = @_pad's pad %arg0, %0, high = [48576, 0]
  have c_15 : IVec S_ 32 := constantI S_ 32 0#32                        -- %c_15 = constant 0
  have call3_v0 : FVec F S_ .f32 := sitofp .f32 c_15                    -- @_pad_0's %0 = convert %arg1
  have v57 : FVec F S1048576x4 .f32 := pad S1048576x4 ![0, 0] ![48576, 0] ![0, 0] v55 call3_v0 pads_S1000000x4_S1048576x4_0485760_000 h_S_ -- %57 = @_pad_0's pad %arg0, %0, high = [48576, 0]
  have v58 : FVec F S1048576x7 .f32 := concatenate S1048576x7 1 [⟨S1048576x3, v56⟩, ⟨S1048576x4, v57⟩] concatenates_S1048576x3_S1048576x4_S1048576x7_d1 -- %58 = concatenate %56, %57, dim = 1
  have v59 : FVec F S7x1048576 .f32 := transpose S7x1048576 [1, 0] v58 transposes_S1048576x7_S7x1048576_1_0 -- %59 = transpose %58, dims = [1, 0]
  v59

/-- `%62`: the region's one output word divided by 1000000. -/
def result (out : FVec F S1x1 .f32) : FVec F S_ .f32 :=
  have v61 : FVec F S_ .f32 := shapeCast S_ out shapeCasts_S1x1_S_      -- %61 = reshape %60
  have cst_16 : FVec F S_ .f32 := constant S_ .f32 0x49742400#32        -- %cst_16 = constant 1000000.0
  have v62 : FVec F S_ .f32 := Host.divf v61 cst_16                     -- %62 = divide %61, %cst_16
  v62

end Cert.KernelIdeal.KHost

end
-- ==== Proof.OpsRead.lean ====
/-
  Layout operations of matrices read at coordinates: two matrices set side by side, rows of zeros (or any
  value) appended below a matrix, the leading rows of a matrix kept, a vector turned into a column, a column
  repeated across, a vector repeated across, and a matrix's rows added up.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.Lap

open Idealize.ShloMosaic Idealize.ShloMosaic.ValueIdx

variable {α : Type}

/-- Two matrices with the same rows set side by side: a column of the left one. -/
theorem concat_cols_left {n a b c : ℕ} (x : (⟨2, ![n, a]⟩ : Shape).Idx → α) (y : (⟨2, ![n, b]⟩ : Shape).Idx → α)
    (h : Shape.Concatenates [(⟨2, ![n, a]⟩ : Shape), (⟨2, ![n, b]⟩ : Shape)] ⟨2, ![n, c]⟩ 1)
    (i : Fin n) (k : Fin a) (hk : k.val < c) :
    concatenate ⟨2, ![n, c]⟩ 1 [⟨⟨2, ![n, a]⟩, x⟩, ⟨⟨2, ![n, b]⟩, y⟩] h (ix2 i ⟨k.val, hk⟩) = x (ix2 i k) :=
  concatenate_pair_apply_left (1 : Fin 2) x y h (ix2 i ⟨k.val, hk⟩) rfl (ix2 i k)
    (fun b => match b with | ⟨0, _⟩ => rfl | ⟨1, _⟩ => rfl)

/-- Two matrices with the same rows set side by side: a column of the right one. -/
theorem concat_cols_right {n a b c : ℕ} (x : (⟨2, ![n, a]⟩ : Shape).Idx → α) (y : (⟨2, ![n, b]⟩ : Shape).Idx → α)
    (h : Shape.Concatenates [(⟨2, ![n, a]⟩ : Shape), (⟨2, ![n, b]⟩ : Shape)] ⟨2, ![n, c]⟩ 1)
    (i : Fin n) (k : Fin b) (hk : a + k.val < c) :
    concatenate ⟨2, ![n, c]⟩ 1 [⟨⟨2, ![n, a]⟩, x⟩, ⟨⟨2, ![n, b]⟩, y⟩] h (ix2 i ⟨a + k.val, hk⟩) = y (ix2 i k) :=
  concatenate_pair_apply_right (1 : Fin 2) x y h (ix2 i ⟨a + k.val, hk⟩) rfl rfl (ix2 i k)
    (fun b hb => match b, hb with
      | ⟨0, _⟩, _ => rfl
      | ⟨1, _⟩, hb => absurd rfl hb)
    (by show k.val + a = a + k.val; omega)

/-- Rows appended below a matrix: a row of the matrix itself. -/
theorem pad_rows_inside {n N c p : ℕ} (x : (⟨2, ![n, c]⟩ : Shape).Idx → α) {u : Shape} (v : u.Idx → α)
    (h : (⟨2, ![n, c]⟩ : Shape).Pads ![0, 0] ![p, 0] ![0, 0] ⟨2, ![N, c]⟩) (hu : 0 < u.numel)
    (i : Fin n) (k : Fin c) (hi : i.val < N) :
    pad ⟨2, ![N, c]⟩ ![0, 0] ![p, 0] ![0, 0] x v h hu (ix2 ⟨i.val, hi⟩ k) = x (ix2 i k) :=
  pad_apply_of_inside ![0, 0] ![p, 0] ![0, 0] x v h hu (ix2 ⟨i.val, hi⟩ k) (ix2 i k)
    (fun a => match a with
      | ⟨0, _⟩ => by show i.val = 0 + i.val * (0 + 1); omega
      | ⟨1, _⟩ => by show k.val = 0 + k.val * (0 + 1); omega)

/-- Rows appended below a matrix: an appended row holds the padding value. -/
theorem pad_rows_outside {n N c p : ℕ} (x : (⟨2, ![n, c]⟩ : Shape).Idx → α) {u : Shape} (v : u.Idx → α)
    (h : (⟨2, ![n, c]⟩ : Shape).Pads ![0, 0] ![p, 0] ![0, 0] ⟨2, ![N, c]⟩) (hu : 0 < u.numel)
    (j : Fin N) (k : Fin c) (hj : n ≤ j.val) :
    pad ⟨2, ![N, c]⟩ ![0, 0] ![p, 0] ![0, 0] x v h hu (ix2 j k) = v (Shape.Idx.first hu) :=
  pad_apply_of_not_inside ![0, 0] ![p, 0] ![0, 0] x v h hu (ix2 j k) (0 : Fin 2)
    (by
      rintro ⟨_, _, h3⟩
      have h3' : (j.val - 0) / (0 + 1) < n := h3
      simp at h3'
      omega)

/-- The leading rows of a matrix kept. -/
theorem slice_rows_apply {n N c : ℕ} (x : (⟨2, ![N, c]⟩ : Shape).Idx → α)
    (h : (⟨2, ![N, c]⟩ : Shape).Slices ![0, 0] ⟨2, ![n, c]⟩) (i : Fin n) (k : Fin c) (hi : i.val < N) :
    extractStridedSlice ⟨2, ![n, c]⟩ ![0, 0] x h (ix2 i k) = x (ix2 ⟨i.val, hi⟩ k) :=
  extractStridedSlice_apply ![0, 0] x h (ix2 i k) (ix2 ⟨i.val, hi⟩ k)
    (fun a => match a with
      | ⟨0, _⟩ => by show i.val = 0 + i.val; omega
      | ⟨1, _⟩ => by show k.val = 0 + k.val; omega)

/-- A vector turned into a one-column matrix. -/
theorem column_of_vector_apply {n : ℕ} (x : (⟨1, ![n]⟩ : Shape).Idx → α)
    (h : (⟨1, ![n]⟩ : Shape).BroadcastsInDim ⟨2, ![n, 1]⟩ ![0]) (e : Fin n) :
    broadcastInDim ⟨2, ![n, 1]⟩ ![0] h x (ix2 e 0) = x (ix1 e) :=
  broadcastInDim_apply ![0] h x (ix2 e 0) (ix1 e)
    (fun a => match a with
      | ⟨0, _⟩ => by
        show e.val = if n = 1 then 0 else e.val
        split
        · have := e.isLt; omega
        · rfl)

/-- A one-column matrix repeated across `c` columns. -/
theorem column_across_apply {n c : ℕ} (x : (⟨2, ![n, 1]⟩ : Shape).Idx → α)
    (h : (⟨2, ![n, 1]⟩ : Shape).BroadcastsInDim ⟨2, ![n, c]⟩ ![0, 1]) (e : Fin n) (k : Fin c) :
    broadcastInDim ⟨2, ![n, c]⟩ ![0, 1] h x (ix2 e k) = x (ix2 e 0) :=
  broadcastInDim_apply ![0, 1] h x (ix2 e k) (ix2 e 0)
    (fun a => match a with
      | ⟨0, _⟩ => by
        show e.val = if n = 1 then 0 else e.val
        split
        · have := e.isLt; omega
        · rfl
      | ⟨1, _⟩ => by
        show (0 : ℕ) = if (1 : ℕ) = 1 then 0 else k.val
        rfl)

end Cert.Lap

end
-- ==== Proof.LibRowScatterGather.lean ====
/-
  Row scatters and row gathers read by coordinates.

  `x.at[rows].add(u)` on a vector `x : [N]` and on a matrix `x : [N, C]` (jax's segment sum), with the row numbers
  given as a column `[E, 1]` of signed words: update `e` (or its entry `(e, f)`) lands on row `i` (entry `(i, f')`)
  exactly when the word of row `e` reads, signed, as `i` (and `f = f'`); no clamping, an update outside is dropped.
  `x[rows]` on a matrix `[N, C]`, and the cell gather `x[rows, 0]` on a column `[N, 1]`: the row read is the word of
  row `e`, signed and clamped into `[0, N - 1]`.
-/
import Idealize.ShloMosaic.PureOps.Ideal.Laws
import Idealize.ShloMosaic.Lib.ValueIdx

namespace Idealize.ShloMosaic.ValueIdx

open Idealize.ShloMosaic

variable {N E C w : ℕ}

/-! ## The scatter of a vector's rows -/

/-- The dimension numbers of `x.at[rows].add(u)` for `x : [N]`, `rows : [E, 1]`, `u : [E]`. -/
abbrev addRows1 (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem addRows1_start (wf : ScatterDims.WF ⟨1, ![N]⟩ ⟨2, ![E, 1]⟩ ⟨1, ![E]⟩ [] [0] [0] 1)
    (idx : IVec ⟨2, ![E, 1]⟩ w) (e : Fin E) :
    (addRows1 N E wf).start (ix1 e) idx 0 = (idx (ix2 e 0)).toInt := by
  unfold ScatterDims.start
  rw [dif_pos (show (0 : Fin 1) ∈ (addRows1 N E wf).scatterDimsToOperandDims from List.mem_singleton.mpr rfl)]
  have hsi : (addRows1 N E wf).siIdx (ix1 e) ⟨List.idxOf (0 : Fin 1) (addRows1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows1_window (wf : ScatterDims.WF ⟨1, ![N]⟩ ⟨2, ![E, 1]⟩ ⟨1, ![E]⟩ [] [0] [0] 1) (e : Fin E) :
    (addRows1 N E wf).window (ix1 e) 0 = 0 := by
  unfold ScatterDims.window
  rw [dif_neg (by simp [Shape.kept])]

/-- Update `e` of a vector's row scatter lands on `i` exactly when row `e`'s word reads, signed, as `i`. -/
theorem addRows1_lands (wf : ScatterDims.WF ⟨1, ![N]⟩ ⟨2, ![E, 1]⟩ ⟨1, ![E]⟩ [] [0] [0] 1)
    (idx : IVec ⟨2, ![E, 1]⟩ w) (e : Fin E) (i : Fin N) :
    (addRows1 N E wf).resultIdx? (ix1 e) idx = some (ix1 i) ↔ (idx (ix2 e 0)).toInt = (i.val : ℤ) := by
  unfold ScatterDims.resultIdx?
  split
  · rename_i h
    rw [Option.some.injEq]
    constructor
    · intro heq
      have h1 : ((addRows1 N E wf).start (ix1 e) idx 0 + ((addRows1 N E wf).window (ix1 e) 0 : ℕ)).toNat = i.val :=
        congrArg Fin.val (congrFun heq 0)
      have h0 := (h 0).1
      rw [addRows1_start, addRows1_window] at h1 h0
      omega
    · intro hval
      funext a
      obtain rfl : a = 0 := Subsingleton.elim _ _
      apply Fin.ext
      show ((addRows1 N E wf).start (ix1 e) idx 0 + ((addRows1 N E wf).window (ix1 e) 0 : ℕ)).toNat = i.val
      rw [addRows1_start, addRows1_window, hval]
      omega
  · rename_i h
    constructor
    · intro h'; exact absurd h' (by simp)
    · intro hval
      exfalso; apply h
      intro a
      obtain rfl : a = 0 := Subsingleton.elim _ _
      rw [addRows1_start, addRows1_window, hval]
      have := i.isLt
      show 0 ≤ (i.val : ℤ) + ((0 : ℕ) : ℤ) ∧ (i.val : ℤ) + ((0 : ℕ) : ℤ) < ((N : ℕ) : ℤ)
      omega

/-! ## The scatter of a matrix's rows -/

/-- The dimension numbers of `x.at[rows].add(u)` for `x : [N, C]`, `rows : [E, 1]`, `u : [E, C]`. -/
abbrev addRows2 (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem addRows2_start0 (wf : ScatterDims.WF ⟨2, ![N, C]⟩ ⟨2, ![E, 1]⟩ ⟨2, ![E, C]⟩ [1] [0] [0] 1)
    (idx : IVec ⟨2, ![E, 1]⟩ w) (e : Fin E) (f : Fin C) :
    (addRows2 N C E wf).start (ix2 e f) idx 0 = (idx (ix2 e 0)).toInt := by
  unfold ScatterDims.start
  rw [dif_pos (show (0 : Fin 2) ∈ (addRows2 N C E wf).scatterDimsToOperandDims from List.mem_singleton.mpr rfl)]
  have hsi : (addRows2 N C E wf).siIdx (ix2 e f) ⟨List.idxOf (0 : Fin 2) (addRows2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows2_start1 (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRows2 N C E wf).start j idx 1 = 0 := by
  unfold ScatterDims.start
  rw [dif_neg (by simp)]

theorem addRows2_window0 (wf : ScatterDims.WF ⟨2, ![N, C]⟩ ⟨2, ![E, 1]⟩ ⟨2, ![E, C]⟩ [1] [0] [0] 1)
    (j : (⟨2, ![E, C]⟩ : Shape).Idx) : (addRows2 N C E wf).window j 0 = 0 := by
  unfold ScatterDims.window
  rw [dif_neg (by simp [Shape.kept])]

theorem addRows2_window1 (wf : ScatterDims.WF ⟨2, ![N, C]⟩ ⟨2, ![E, 1]⟩ ⟨2, ![E, C]⟩ [1] [0] [0] 1)
    (e : Fin E) (f : Fin C) : (addRows2 N C E wf).window (ix2 e f) 1 = f.val := by
  unfold ScatterDims.window
  rw [dif_pos (by simp [Shape.kept])]
  rfl

/-- Entry `(e, f)` of a matrix's row scatter lands on `(i, f')` exactly when row `e`'s word reads, signed, as `i`, and
    `f = f'`. -/
theorem addRows2_lands (wf : ScatterDims.WF ⟨2, ![N, C]⟩ ⟨2, ![E, 1]⟩ ⟨2, ![E, C]⟩ [1] [0] [0] 1)
    (idx : IVec ⟨2, ![E, 1]⟩ w) (e : Fin E) (f : Fin C) (i : Fin N) (f' : Fin C) :
    (addRows2 N C E wf).resultIdx? (ix2 e f) idx = some (ix2 i f') ↔ (idx (ix2 e 0)).toInt = (i.val : ℤ) ∧ f = f' := by
  unfold ScatterDims.resultIdx?
  split
  · rename_i h
    rw [Option.some.injEq]
    constructor
    · intro heq
      have h1 : ((addRows2 N C E wf).start (ix2 e f) idx 0 + ((addRows2 N C E wf).window (ix2 e f) 0 : ℕ)).toNat = i.val :=
        congrArg Fin.val (congrFun heq 0)
      have h2 : ((addRows2 N C E wf).start (ix2 e f) idx 1 + ((addRows2 N C E wf).window (ix2 e f) 1 : ℕ)).toNat = f'.val :=
        congrArg Fin.val (congrFun heq 1)
      have h0 := (h 0).1
      rw [addRows2_start0, addRows2_window0] at h1 h0
      rw [addRows2_start1, addRows2_window1] at h2
      exact ⟨by omega, Fin.ext (by omega)⟩
    · rintro ⟨hval, rfl⟩
      funext a
      apply Fin.ext
      match a with
      | ⟨0, _⟩ =>
        show ((addRows2 N C E wf).start (ix2 e f) idx 0 + ((addRows2 N C E wf).window (ix2 e f) 0 : ℕ)).toNat = i.val
        rw [addRows2_start0, addRows2_window0, hval]; omega
      | ⟨1, _⟩ =>
        show ((addRows2 N C E wf).start (ix2 e f) idx 1 + ((addRows2 N C E wf).window (ix2 e f) 1 : ℕ)).toNat = f.val
        rw [addRows2_start1, addRows2_window1]; omega
  · rename_i h
    constructor
    · intro h'; exact absurd h' (by simp)
    · rintro ⟨hval, rfl⟩
      exfalso; apply h
      intro a
      match a with
      | ⟨0, _⟩ =>
        have := i.isLt
        show 0 ≤ (addRows2 N C E wf).start (ix2 e f) idx 0 + ((addRows2 N C E wf).window (ix2 e f) 0 : ℕ)
          ∧ (addRows2 N C E wf).start (ix2 e f) idx 0 + ((addRows2 N C E wf).window (ix2 e f) 0 : ℕ) < ((N : ℕ) : ℤ)
        rw [addRows2_start0, addRows2_window0, hval]; omega
      | ⟨1, _⟩ =>
        have := f.isLt
        show 0 ≤ (addRows2 N C E wf).start (ix2 e f) idx 1 + ((addRows2 N C E wf).window (ix2 e f) 1 : ℕ)
          ∧ (addRows2 N C E wf).start (ix2 e f) idx 1 + ((addRows2 N C E wf).window (ix2 e f) 1 : ℕ) < ((C : ℕ) : ℤ)
        rw [addRows2_start1, addRows2_window1]; omega

/-! ## The two scatter-adds at an index, as sums over the updates' rows -/

/-- A rank-1 index set is its one coordinate's range, so a sum over it is the sum over the coordinate. -/
theorem sum_idx1 {M : Type*} [AddCommMonoid M] {n : Nat} (g : (⟨1, ![n]⟩ : Shape).Idx → M) :
    ∑ i, g i = ∑ a : Fin n, g (ix1 a) :=
  (Equiv.sum_comp (⟨fun a => ix1 a, fun i => i 0, fun _ => rfl, fun i => (eq_ix1 i).symm⟩ : Fin n ≃ (⟨1, ![n]⟩ : Shape).Idx) g).symm

/-- `x.at[rows].add(u)` on a vector, at `i`: `x i` plus the updates whose row word reads as `i`. -/
theorem scatterRows1_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (addRows1 N E wf) x idx upd (ix1 i)
      = x (ix1 i) + ∑ e ∈ Finset.univ.filter (fun e : Fin E => (idx (ix2 e 0)).toInt = (i.val : ℤ)), upd (ix1 e) := by
  unfold Ideal.hostScatterAdd
  refine congrArg (x (ix1 i) + ·) ?_
  rw [Finset.sum_filter, Finset.sum_filter, sum_idx1]
  refine Finset.sum_congr rfl fun e _ => ?_
  by_cases hL : (idx (ix2 e 0)).toInt = (i.val : ℤ)
  · rw [if_pos hL, if_pos ((addRows1_lands wf idx e i).mpr hL)]
  · rw [if_neg hL, if_neg (fun h => hL ((addRows1_lands wf idx e i).mp h))]

/-- `x.at[rows].add(u)` on a matrix, at `(i, f)`: `x (i, f)` plus column `f` of the updates whose row word reads as `i`. -/
theorem scatterRows2_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (addRows2 N C E wf) x idx upd (ix2 i f)
      = x (ix2 i f) + ∑ e ∈ Finset.univ.filter (fun e : Fin E => (idx (ix2 e 0)).toInt = (i.val : ℤ)), upd (ix2 e f) := by
  unfold Ideal.hostScatterAdd
  refine congrArg (x (ix2 i f) + ·) ?_
  rw [Finset.sum_filter, Finset.sum_filter, sum_idx2]
  refine Finset.sum_congr rfl fun e _ => ?_
  by_cases hL : (idx (ix2 e 0)).toInt = (i.val : ℤ)
  · rw [if_pos hL, Finset.sum_eq_single f]
    · rw [if_pos ((addRows2_lands wf idx e f i f).mpr ⟨hL, rfl⟩)]
    · intro f' _ hne
      rw [if_neg (fun h => hne ((addRows2_lands wf idx e f' i f).mp h).2)]
    · intro h; exact absurd (Finset.mem_univ f) h
  · rw [if_neg hL]
    refine Finset.sum_eq_zero fun f' _ => ?_
    rw [if_neg (fun h => hL ((addRows2_lands wf idx e f' i f).mp h).1)]

/-- The same for the host's scatter-add at any dimension record equal to the vector row form. -/
theorem host_scatterRows1_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = addRows1 N E wf)
    (x : (⟨1, ![N]⟩ : Shape).Idx → EReal) (idx : IVec ⟨2, ![E, 1]⟩ w) (upd : (⟨1, ![E]⟩ : Shape).Idx → EReal) (i : Fin N) :
    Host.scatterAdd (F := Ideal) (φ := .f32) d x idx upd (ix1 i)
      = x (ix1 i) + ∑ e ∈ Finset.univ.filter (fun e : Fin E => (idx (ix2 e 0)).toInt = (i.val : ℤ)), upd (ix1 e) := by
  subst hd
  exact scatterRows1_apply wf x idx upd i

/-- The same for the host's scatter-add at any dimension record equal to the matrix row form. -/
theorem host_scatterRows2_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = addRows2 N C E wf)
    (x : (⟨2, ![N, C]⟩ : Shape).Idx → EReal) (idx : IVec ⟨2, ![E, 1]⟩ w) (upd : (⟨2, ![E, C]⟩ : Shape).Idx → EReal)
    (i : Fin N) (f : Fin C) :
    Host.scatterAdd (F := Ideal) (φ := .f32) d x idx upd (ix2 i f)
      = x (ix2 i f) + ∑ e ∈ Finset.univ.filter (fun e : Fin E => (idx (ix2 e 0)).toInt = (i.val : ℤ)), upd (ix2 e f) := by
  subst hd
  exact scatterRows2_apply wf x idx upd i f

/-! ## Gathers of rows -/

/-- A signed word clamped to a row number of an array with `N` rows. -/
def clampRow (N : ℕ) (hN : 0 < N) {w : ℕ} (v : BitVec w) : Fin N := ⟨min v.toInt.toNat (N - 1), by omega⟩

/-- The dimension numbers of `x[rows]` for `x : [N, C]`, `rows : [E, 1]`, result `[E, C]`. -/
abbrev takeRows (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[rows]` at `(e, f)` is `x` at (row `e`'s word clamped, `f`). -/
theorem takeRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (takeRows N C E wf) x idx (ix2 e f) = x (ix2 (clampRow N hN (idx (ix2 e 0))) f) := by
  unfold Host.gather
  congr 1
  funext a
  refine Fin.ext ?_
  match a with
  | ⟨0, _⟩ =>
    show (takeRows N C E wf).start (ix2 e f) idx 0 + (takeRows N C E wf).batchCoord (ix2 e f) 0 + (takeRows N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e f) ⟨List.idxOf (0 : Fin 2) (takeRows N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (takeRows N C E wf).start (ix2 e f) idx 1 + (takeRows N C E wf).batchCoord (ix2 e f) 1 + (takeRows N C E wf).offCoord (ix2 e f) 1 = f.val
    rw [GatherDims.batchCoord_eq_zero _ _ _ List.not_mem_nil]
    have hs : (takeRows N C E wf).start (ix2 e f) idx 1 = 0 := by
      unfold GatherDims.start
      rw [dif_neg (by simp)]
    have ho : (takeRows N C E wf).offCoord (ix2 e f) 1 = f.val := by
      unfold GatherDims.offCoord
      rw [dif_pos (by simp [Shape.kept])]
      rfl
    rw [hs, ho]
    omega

/-- The dimension numbers of the cell gather `x[rows, cols]` for `x : [N, 1]`, the pairs `[E, 2]`, result `[E]`. -/
abbrev takeCells (N E : ℕ) (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A cell gather from a one-column matrix at `e` is the column at pair `e`'s first word clamped, whatever its second
    word: the column axis has one coordinate. -/
theorem takeCells_apply {α : Type} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (takeCells N E wf) x idx (ix1 e) = x (ix2 (clampRow N hN (idx (ix2 e 0))) 0) := by
  unfold Host.gather
  congr 1
  funext a
  refine Fin.ext ?_
  match a with
  | ⟨0, _⟩ =>
    show (takeCells N E wf).start (ix1 e) idx 0 + (takeCells N E wf).batchCoord (ix1 e) 0 + (takeCells N E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (takeCells N E wf).startIndexMap from by simp)]
    have hsi : (takeCells N E wf).siIdx (ix1 e) ⟨List.idxOf (0 : Fin 2) (takeCells N E wf).startIndexMap,
        List.idxOf_lt_length_iff.2 (by simp)⟩ = ix2 e 0 := by
      funext b; refine Fin.ext ?_
      match b with
      | ⟨0, _⟩ => rfl
      | ⟨1, _⟩ => rfl
    rw [hsi]
    rfl
  | ⟨1, _⟩ =>
    have h1 := (takeCells N E wf).lt (ix1 e) idx 1
    show (takeCells N E wf).start (ix1 e) idx 1 + (takeCells N E wf).batchCoord (ix1 e) 1 + (takeCells N E wf).offCoord (ix1 e) 1 = 0
    have : ((⟨2, ![N, 1]⟩ : Shape).size 1) = 1 := rfl
    omega

end Idealize.ShloMosaic.ValueIdx
-- ==== Proof.Spec.lean ====
/-
  The per-column quantity both programs sum, stated over the packed array alone.

  The packed array has seven rows and one column per (padded) vertex: rows 0-2 hold the vertex's coordinates,
  rows 3-5 the sum of its distinct neighbours' coordinates, row 6 its number of distinct neighbours. For a column
  `j` the Laplacian row is `deg * x - nbr` in each of the three coordinates and `colNorm` is its Euclidean
  length. `total` adds the lengths of all 1048576 columns, lane by lane over the eight column blocks of width
  131072 (the order in which the kernel accumulates them).
-/
import Idealize.ShloMosaic.PureOps.Ideal
import Idealize.ShloMosaic.Lib.ValueIdx

noncomputable section

namespace Cert.Lap

open Idealize.ShloMosaic Idealize.ShloMosaic.ValueIdx

/-- The packed array's shape, seven rows by 1048576 columns. -/
abbrev SP : Shape := ⟨2, ![7, 1048576]⟩

/-- One coordinate of the Laplacian row of column `j`: degree times coordinate minus neighbour sum. -/
def lapAt (ct : SP.Idx → EReal) (k : Fin 3) (j : Fin 1048576) : EReal :=
  ct (ix2 6 j) * ct (ix2 ⟨k.val, by omega⟩ j) - ct (ix2 ⟨k.val + 3, by omega⟩ j)

/-- The Euclidean length of column `j`'s Laplacian row. -/
def colNorm (ct : SP.Idx → EReal) (j : Fin 1048576) : EReal :=
  Ideal.sqrt (lapAt ct 0 j * lapAt ct 0 j + lapAt ct 1 j * lapAt ct 1 j + lapAt ct 2 j * lapAt ct 2 j)

/-- The sum of all columns' lengths: for each of the 131072 lanes, the eight blocks' entries added up, then the lanes. -/
def total (ct : SP.Idx → EReal) : EReal :=
  ∑ l : Fin 131072, ∑ t : Fin 8, colNorm ct ⟨t.val * 131072 + l.val, by have := t.isLt; have := l.isLt; omega⟩

end Cert.Lap

end
-- ==== Proof.LibPaddedSum.lean ====
import Mathlib.Data.EReal.Inv
import Mathlib.Algebra.BigOperators.Fin
import Mathlib.Tactic.Ring

/-!
# Finite sums whose tail contributes nothing

General facts about sums over `Fin N` in which every index `j ≥ n` contributes zero, the fact
that a finite sum of real numbers (viewed as extended reals) is a real number, and a
distributivity identity for a normalised weighted row sum.
-/

open Finset

namespace PaddedSum

/-- Dropping a zero tail: if `n ≤ N` and `g j = 0` for every index `j` with `n ≤ j`, then the
sum of `g` over `Fin N` equals the sum over `Fin n` of `g` restricted along the inclusion
`Fin n → Fin N`. Holds in every additive commutative monoid. -/
theorem sum_drop_zero_tail {M : Type*} [AddCommMonoid M] {n N : ℕ} (h : n ≤ N) (g : Fin N → M)
    (hg : ∀ j : Fin N, n ≤ j.val → g j = 0) :
    ∑ j : Fin N, g j = ∑ j : Fin n, g (Fin.castLE h j) := by
  symm
  refine Finset.sum_of_injOn (Fin.castLE h) ?_ ?_ ?_ ?_
  · intro a _ b _ hab
    exact Fin.castLE_injective h hab
  · intro a _
    exact Finset.mem_coe.mpr (Finset.mem_univ _)
  · intro j _ hj
    apply hg
    by_contra hlt
    apply hj
    refine ⟨⟨j.val, Nat.lt_of_not_le hlt⟩, Finset.mem_coe.mpr (Finset.mem_univ _), ?_⟩
    exact Fin.ext rfl
  · intro j _
    rfl

/-- A finite sum of real numbers, each viewed as an extended real, is the extended real attached
to the real sum (sum over a finite set). -/
theorem coe_sum_finset {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers, each viewed as an extended real, is the extended real attached
to the real sum (sum over a finite type). -/
theorem coe_sum {ι : Type*} [Fintype ι] (f : ι → ℝ) :
    ∑ i, ((f i : ℝ) : EReal) = ((∑ i, f i : ℝ) : EReal) :=
  coe_sum_finset Finset.univ f

/-- If every entry of a finite family of extended reals is `0` or `1` and at least one entry is
`1`, then the sum of the family is a real number `r` with `1 ≤ r`. -/
theorem sum_zero_one_real {n : ℕ} (a : Fin n → EReal) (ha : ∀ j, a j = 0 ∨ a j = 1)
    (i : Fin n) (hi : a i = 1) :
    ∃ r : ℝ, 1 ≤ r ∧ ∑ j, a j = (r : EReal) := by
  classical
  have hf : ∀ j, ∃ t : ℝ, 0 ≤ t ∧ (a j = 1 → t = 1) ∧ a j = (t : EReal) := by
    intro j
    rcases ha j with h0 | h1
    · refine ⟨0, le_refl _, ?_, by rw [h0, EReal.coe_zero]⟩
      intro h1
      rw [h0] at h1
      exact absurd h1 zero_ne_one
    · exact ⟨1, zero_le_one, fun _ => rfl, by rw [h1, EReal.coe_one]⟩
  choose f hf0 hf1 hfa using hf
  refine ⟨∑ j, f j, ?_, ?_⟩
  · have h1 : f i = 1 := hf1 i hi
    rw [← h1]
    exact Finset.single_le_sum (fun j _ => hf0 j) (Finset.mem_univ i)
  · rw [← coe_sum]
    exact Finset.sum_congr rfl (fun j _ => hfa j)

/-- The degree of a padded row: if the padded matrix `Ak` agrees with `Ar` on row `i` at the
first `n` columns and vanishes on that row at every column `j ≥ n`, then the row sum of `Ak`
over `Fin N` equals the row sum of `Ar` over `Fin n`. Holds in every additive commutative
monoid. -/
theorem padded_row_sum {M : Type*} [AddCommMonoid M] {n N : ℕ} (h : n ≤ N)
    (Ar : Fin n → Fin n → M) (Ak : Fin N → Fin N → M) (i : Fin n)
    (hA : ∀ j : Fin n, Ak (Fin.castLE h i) (Fin.castLE h j) = Ar i j)
    (hA0 : ∀ j : Fin N, n ≤ j.val → Ak (Fin.castLE h i) j = 0) :
    ∑ j : Fin N, Ak (Fin.castLE h i) j = ∑ j : Fin n, Ar i j := by
  rw [sum_drop_zero_tail h (fun j => Ak (Fin.castLE h i) j) hA0]
  exact Finset.sum_congr rfl (fun j _ => hA j)

/-- The normalised aggregate. Let `n ≤ N`. Suppose row `i` of the padded matrix `Ak` agrees
with the `0/1`-valued row `i` of `Ar` on the first `n` columns, the padded vector `xp` agrees
with the real-valued vector `x` on the first `n` entries and vanishes on every entry `j ≥ n`,
and the padded scaling `dis` agrees with the real-valued scaling `d` on the first `n` entries.
Then `(∑ j, Ak i j * (xp j * dis j)) * dis i = ∑ j, ((Ar i j * d i) * d j) * x j`.
Nothing is assumed about `Ak` or `dis` on the tail, since `0 * y = 0 = y * 0` for every
extended real `y`. -/
theorem normalised_aggregate {n N : ℕ} (h : n ≤ N)
    (Ar : Fin n → Fin n → EReal) (Ak : Fin N → Fin N → EReal)
    (x : Fin n → EReal) (xp : Fin N → EReal) (d : Fin n → EReal) (dis : Fin N → EReal)
    (i : Fin n)
    (hA : ∀ j : Fin n, Ak (Fin.castLE h i) (Fin.castLE h j) = Ar i j)
    (hAr : ∀ j : Fin n, Ar i j = 0 ∨ Ar i j = 1)
    (hxp : ∀ j : Fin n, xp (Fin.castLE h j) = x j)
    (hx0 : ∀ j : Fin N, n ≤ j.val → xp j = 0)
    (hx : ∀ j : Fin n, ∃ r : ℝ, x j = (r : EReal))
    (hd : ∀ j : Fin n, ∃ q : ℝ, d j = (q : EReal))
    (hdis : ∀ j : Fin n, dis (Fin.castLE h j) = d j) :
    (∑ j : Fin N, Ak (Fin.castLE h i) j * (xp j * dis j)) * dis (Fin.castLE h i)
      = ∑ j : Fin n, ((Ar i j * d i) * d j) * x j := by
  have hAr' : ∀ j : Fin n, ∃ a : ℝ, Ar i j = (a : EReal) := by
    intro j
    rcases hAr j with h0 | h1
    · exact ⟨0, by rw [h0, EReal.coe_zero]⟩
    · exact ⟨1, by rw [h1, EReal.coe_one]⟩
  choose ra hra using hAr'
  choose rx hrx using hx
  choose rd hrd using hd
  have hL : ∑ j : Fin N, Ak (Fin.castLE h i) j * (xp j * dis j)
      = ∑ j : Fin n, ((ra j * (rx j * rd j) : ℝ) : EReal) := by
    rw [sum_drop_zero_tail h (fun j => Ak (Fin.castLE h i) j * (xp j * dis j))
      (fun j hj => by rw [hx0 j hj, zero_mul, mul_zero])]
    refine Finset.sum_congr rfl (fun j _ => ?_)
    show Ak (Fin.castLE h i) (Fin.castLE h j) * (xp (Fin.castLE h j) * dis (Fin.castLE h j)) = _
    rw [hA j, hxp j, hdis j, hra j, hrx j, hrd j, EReal.coe_mul, EReal.coe_mul]
  have hR : ∑ j : Fin n, ((Ar i j * d i) * d j) * x j
      = ∑ j : Fin n, ((((ra j * rd i) * rd j) * rx j : ℝ) : EReal) := by
    refine Finset.sum_congr rfl (fun j _ => ?_)
    rw [EReal.coe_mul, EReal.coe_mul, EReal.coe_mul, ← hra j, ← hrd i, ← hrd j, ← hrx j]
  rw [hL, hR, hdis i, hrd i, coe_sum, coe_sum, ← EReal.coe_mul, Finset.sum_mul]
  congr 1
  refine Finset.sum_congr rfl (fun j _ => ?_)
  ring

end PaddedSum
-- ==== Proof.LapMath.lean ====
/-
  The arithmetic that joins the two programs, free of either program's text.

  * A lane-by-lane sum over eight blocks of width 131072 is the sum over all 1048576 columns, and columns from
    1000000 on that contribute zero may be dropped.
  * A column of the packed array that is zero in all seven rows has Laplacian length zero.
  * Weighting an edge's contribution by its 0/1 first-occurrence flag is the same as leaving the flagged-off
    edges out of the sum, and sending a flagged-off edge to the spare row 1000000 leaves it out of every row
    below 1000000.
-/
import proofs.«101357_j30545807409222_2_alg».proof.Proof.Spec
import proofs.«101357_j30545807409222_2_alg».proof.Proof.LibPaddedSum

noncomputable section

namespace Cert.Lap

open Idealize.ShloMosaic Idealize.ShloMosaic.ValueIdx Finset

/-! ## Sums over the padded column axis -/

/-- Column number from (block, lane). -/
def colOf (p : Fin 8 × Fin 131072) : Fin 1048576 :=
  ⟨p.1.val * 131072 + p.2.val, by have := p.1.isLt; have := p.2.isLt; omega⟩

/-- Every column is lane `j % 131072` of block `j / 131072`. -/
def colEquiv : Fin 8 × Fin 131072 ≃ Fin 1048576 where
  toFun := colOf
  invFun j := (⟨j.val / 131072, by have := j.isLt; omega⟩, ⟨j.val % 131072, Nat.mod_lt _ (by norm_num)⟩)
  left_inv p := by
    obtain ⟨a, b⟩ := p
    have ha := a.isLt; have hb := b.isLt
    refine Prod.ext (Fin.ext ?_) (Fin.ext ?_)
    · show (a.val * 131072 + b.val) / 131072 = a.val
      omega
    · show (a.val * 131072 + b.val) % 131072 = b.val
      omega
  right_inv j := by
    refine Fin.ext ?_
    show j.val / 131072 * 131072 + j.val % 131072 = j.val
    omega

/-- Adding lane by lane over the eight blocks is adding over all columns. -/
theorem sum_lanes_blocks {M : Type*} [AddCommMonoid M] (g : Fin 1048576 → M) :
    ∑ l : Fin 131072, ∑ t : Fin 8, g (colOf (t, l)) = ∑ j : Fin 1048576, g j := by
  rw [Finset.sum_comm, ← Finset.sum_product', Finset.univ_product_univ]
  exact Equiv.sum_comp colEquiv g

theorem total_eq_sum (ct : SP.Idx → EReal) : total ct = ∑ j : Fin 1048576, colNorm ct j :=
  sum_lanes_blocks (colNorm ct)

/-- The first 1000000 columns, as columns of the padded axis. -/
abbrev realCol (v : Fin 1000000) : Fin 1048576 := Fin.castLE (by norm_num) v

/-- If the columns from 1000000 on have length zero, only the first 1000000 count. -/
theorem total_eq_sum_real (ct : SP.Idx → EReal) (h0 : ∀ j : Fin 1048576, 1000000 ≤ j.val → colNorm ct j = 0) :
    total ct = ∑ v : Fin 1000000, colNorm ct (realCol v) := by
  rw [total_eq_sum]
  exact PaddedSum.sum_drop_zero_tail (by norm_num) (colNorm ct) h0

/-! ## A zero column -/

theorem sqrt_zero : Ideal.sqrt 0 = 0 := by
  rw [← EReal.coe_zero, Ideal.sqrt_coe, if_neg (lt_irrefl _), Real.sqrt_zero]

/-- A column whose seven entries are all zero has length zero. -/
theorem colNorm_of_zero (ct : SP.Idx → EReal) (j : Fin 1048576) (hz : ∀ r : Fin 7, ct (ix2 r j) = 0) :
    colNorm ct j = 0 := by
  have hl : ∀ k : Fin 3, lapAt ct k j = 0 := fun k => by
    unfold lapAt
    rw [hz, hz, hz, mul_zero, sub_zero]
  unfold colNorm
  rw [hl, hl, hl, mul_zero, add_zero, add_zero, sqrt_zero]

/-! ## Flags as weights, flags as redirections -/

/-- A one-bit word read as a number is one or zero. -/
theorem flag_cases (b : BitVec 1) : b = 1#1 ∨ b = 0#1 := by
  rcases BitVec.eq_zero_or_eq_one b with h | h
  · exact Or.inr h
  · exact Or.inl h

/-- Weighting each term by its flag read as a number keeps exactly the flagged terms. -/
theorem sum_flag_weighted {ι : Type*} [Fintype ι] (P : ι → Prop) [DecidablePred P] (b : ι → BitVec 1) (g : ι → EReal) :
    ∑ e ∈ univ.filter P, (((b e).toNat : ℝ) : EReal) * g e
      = ∑ e ∈ univ.filter (fun e => b e = 1#1 ∧ P e), g e := by
  rw [Finset.sum_filter, Finset.sum_filter]
  refine Finset.sum_congr rfl fun e _ => ?_
  by_cases hP : P e
  · rcases flag_cases (b e) with hb | hb
    · rw [if_pos hP, if_pos ⟨hb, hP⟩, hb]
      norm_num
    · rw [if_pos hP, if_neg (fun h => by rw [hb] at h; exact absurd h.1 (by decide)), hb]
      norm_num
  · rw [if_neg hP, if_neg (fun h => hP h.2)]

/-- The flags themselves, added over a set of terms, count its flagged terms. -/
theorem sum_flag {ι : Type*} [Fintype ι] (P : ι → Prop) [DecidablePred P] (b : ι → BitVec 1) :
    ∑ e ∈ univ.filter P, (((b e).toNat : ℝ) : EReal)
      = ∑ e ∈ univ.filter (fun e => b e = 1#1 ∧ P e), (1 : EReal) := by
  rw [← sum_flag_weighted P b (fun _ => 1)]
  exact Finset.sum_congr rfl fun e _ => (mul_one _).symm

/-- A row word replaced by 1000000 where the flag is off reads as a row below 1000000 exactly when the flag is on and
    the word itself reads as that row. -/
theorem redirected_reads (b : BitVec 1) (s : BitVec 32) (v : Fin 1000000) :
    (Scalar.select b s 1000000#32).toInt = (v.val : ℤ) ↔ b = 1#1 ∧ s.toInt = (v.val : ℤ) := by
  have hv := v.isLt
  rcases flag_cases b with hb | hb
  · subst hb
    rw [select_one]
    exact ⟨fun h => ⟨rfl, h⟩, fun h => h.2⟩
  · subst hb
    rw [select_zero]
    constructor
    · intro h
      have : (1000000#32 : BitVec 32).toInt = 1000000 := by decide
      omega
    · intro h; exact absurd h.1 (by decide)

end Cert.Lap

end
-- ==== Proof.KRead.lean ====
/-
  The packed array of the kernel's program read at coordinates.

  Column `j` of the packed array belongs to vertex `j` when `j < 1000000` and is zero in all seven rows
  otherwise. For a vertex `v`, rows 0-2 are its coordinates; row `3 + c` is column `c` of the accumulator: the sum,
  over the edges whose flag is on and whose source word reads as `v`, of column `c` of the edge's update, which is
  the destination vertex's coordinate for `c < 3` and one for `c = 3`.
-/
import proofs.«101357_j30545807409222_2_alg».proof.Proof.KHostDefs
import proofs.«101357_j30545807409222_2_alg».proof.Proof.OpsRead
import proofs.«101357_j30545807409222_2_alg».proof.Proof.LibRowScatterGather
import proofs.«101357_j30545807409222_2_alg».proof.Proof.LapMath

noncomputable section

namespace Cert.KernelIdeal.KRead

open Idealize.ShloMosaic Idealize.ShloMosaic.ValueIdx Finset
open Cert.KernelIdeal Cert.KernelIdeal.KHost Cert.Lap
open Cert.KernelIdeal.Facts₀ Cert.KernelIdeal.Facts

variable [Cert.KernelIdeal.Facts]

/-- The destination word of an edge made non-negative: a negative word has 1000000 added. -/
def dstWord (d : IVec S12000000 32) : IVec S12000000 32 :=
  select (cmpi .slt d (broadcastInDim S12000000 ![] bcast_S_S12000000 (constantI S_ 32 0#32)))
    (addi d (broadcastInDim S12000000 ![] bcast_S_S12000000 (constantI S_ 32 1000000#32))) d

/-- The destination vertex's coordinates, edge by edge. -/
def gathered (verts : FVec Ideal S1000000x3 .f32) (d : IVec S12000000 32) : FVec Ideal S12000000x3 .f32 :=
  Host.gather gather_S1000000x3_S12000000x1_S12000000x3_1_0_n_n_0_1_13 verts
    (broadcastInDim S12000000x1 ![0] bcast_S12000000_S12000000x1_0 (dstWord d))

/-- An edge's update: the destination's three coordinates, then a one. -/
def update (verts : FVec Ideal S1000000x3 .f32) (d : IVec S12000000 32) : FVec Ideal S12000000x4 .f32 :=
  concatenate S12000000x4 1 [⟨S12000000x3, gathered verts d⟩,
    ⟨S12000000x1, broadcastInDim S12000000x1 ![] bcast_S_S12000000x1 (constant S_ .f32 0x3F800000#32)⟩]
    concatenates_S12000000x3_S12000000x1_S12000000x4_d1

/-- The accumulator: every edge's update added into the row its redirected source word names. -/
def accum (verts : FVec Ideal S1000000x3 .f32) (s d : IVec S12000000 32) (fst : IVec S12000000 1) : FVec Ideal S1000001x4 .f32 :=
  Host.scatterAdd scatter_S1000001x4_S12000000x1_S12000000x4_1_0_0_1
    (broadcastInDim S1000001x4 ![] bcast_S_S1000001x4 (constant S_ .f32 0x00000000#32))
    (broadcastInDim S12000000x1 ![0] bcast_S12000000_S12000000x1_0
      (select fst s (broadcastInDim S12000000 ![] bcast_S_S12000000 (constantI S_ 32 1000000#32))))
    (update verts d)

/-- The padding value, the integer zero converted, is zero. -/
theorem pad_value (i : S_.Idx) : (sitofp (F := Ideal) .f32 (constantI S_ 32 0#32)) i = 0 := by
  show (((0#32 : BitVec 32).toInt : ℝ) : EReal) = 0
  simp

/-- The packed array is the transpose of the padded coordinates beside the padded accumulator. -/
theorem packed_eq (verts : FVec Ideal S1000000x3 .f32) (s d : IVec S12000000 32) (fst : IVec S12000000 1) :
    packed verts s d fst = transpose S7x1048576 [1, 0]
      (concatenate S1048576x7 1
        [⟨S1048576x3, pad S1048576x3 ![0, 0] ![48576, 0] ![0, 0] verts (sitofp .f32 (constantI S_ 32 0#32))
            pads_S1000000x3_S1048576x3_0485760_000 h_S_⟩,
         ⟨S1048576x4, pad S1048576x4 ![0, 0] ![48576, 0] ![0, 0]
            (extractStridedSlice S1000000x4 ![0, 0] (accum verts s d fst) slices_S1000001x4_S1000000x4_0_0)
            (sitofp .f32 (constantI S_ 32 0#32)) pads_S1000000x4_S1048576x4_0485760_000 h_S_⟩]
        concatenates_S1048576x3_S1048576x4_S1048576x7_d1) transposes_S1048576x7_S7x1048576_1_0 := rfl

/-- Rows 0-2 of a vertex's column: its coordinates. -/
theorem packed_vert (verts : FVec Ideal S1000000x3 .f32) (s d : IVec S12000000 32) (fst : IVec S12000000 1)
    (v : Fin 1000000) (k : Fin 3) (hk : k.val < 7) :
    packed verts s d fst (ix2 ⟨k.val, hk⟩ (realCol v)) = verts (ix2 v k) := by
  rw [packed_eq]
  refine (transpose_ix2_apply _ _ ⟨k.val, hk⟩ (realCol v)).trans ?_
  refine (concat_cols_left _ _ _ (realCol v) k hk).trans ?_
  exact pad_rows_inside verts _ _ h_S_ v k (by have := v.isLt; omega)

/-- Rows 3-6 of a vertex's column: the accumulator's row. -/
theorem packed_acc (verts : FVec Ideal S1000000x3 .f32) (s d : IVec S12000000 32) (fst : IVec S12000000 1)
    (v : Fin 1000000) (c : Fin 4) (hc : 3 + c.val < 7) :
    packed verts s d fst (ix2 ⟨3 + c.val, hc⟩ (realCol v))
      = accum verts s d fst (ix2 ⟨v.val, by have := v.isLt; omega⟩ c) := by
  rw [packed_eq]
  refine (transpose_ix2_apply _ _ ⟨3 + c.val, hc⟩ (realCol v)).trans ?_
  refine (concat_cols_right _ _ _ (realCol v) c hc).trans ?_
  refine (pad_rows_inside _ _ _ h_S_ v c (by have := v.isLt; omega)).trans ?_
  exact slice_rows_apply _ _ v c (by have := v.isLt; omega)

/-- A column past the vertices is zero in every row. -/
theorem packed_pad (verts : FVec Ideal S1000000x3 .f32) (s d : IVec S12000000 32) (fst : IVec S12000000 1)
    (j : Fin 1048576) (hj : 1000000 ≤ j.val) (r : Fin 7) :
    packed verts s d fst (ix2 r j) = 0 := by
  rw [packed_eq]
  refine (transpose_ix2_apply _ _ r j).trans ?_
  by_cases hr : r.val < 3
  · obtain ⟨k, rfl⟩ : ∃ k : Fin 3, r = ⟨k.val, Nat.lt_of_lt_of_le k.isLt (by norm_num)⟩ := ⟨⟨r.val, hr⟩, Fin.ext rfl⟩
    refine (concat_cols_left _ _ _ j k _).trans ?_
    refine (pad_rows_outside verts _ _ h_S_ j k hj).trans ?_
    exact pad_value _
  · obtain ⟨c, rfl⟩ : ∃ c : Fin 4, r = ⟨3 + c.val, Nat.add_lt_add_left c.isLt 3⟩ :=
      ⟨⟨r.val - 3, by have := r.isLt; omega⟩, Fin.ext (by show r.val = 3 + (r.val - 3); omega)⟩
    refine (concat_cols_right _ _ _ j c _).trans ?_
    refine (pad_rows_outside _ _ _ h_S_ j c hj).trans ?_
    exact pad_value _

/-- The accumulator's row of a vertex: the updates of the edges whose flag is on and whose source word reads as the
    vertex, added up from zero. -/
theorem accum_apply (verts : FVec Ideal S1000000x3 .f32) (s d : IVec S12000000 32) (fst : IVec S12000000 1)
    (v : Fin 1000000) (c : Fin 4) (hv : v.val < 1000001) :
    accum verts s d fst (ix2 ⟨v.val, hv⟩ c)
      = 0 + ∑ e ∈ univ.filter (fun e : Fin 12000000 => fst (ix1 e) = 1#1 ∧ (s (ix1 e)).toInt = (v.val : ℤ)),
          update verts d (ix2 e c) := by
  unfold accum
  refine (host_scatterRows2_apply scatter_S1000001x4_S12000000x1_S12000000x4_1_0_0_1
    scatter_S1000001x4_S12000000x1_S12000000x4_1_0_0_1_wf rfl _ _ _ ⟨v.val, hv⟩ c).trans ?_
  refine congrArg₂ (· + ·) ?_ ?_
  · rw [broadcastInDim_scalar_apply, constant_apply, Ideal.ofBits_zero_f32]
  · refine Finset.sum_congr (Finset.filter_congr fun e _ => ?_) fun _ _ => rfl
    rw [column_of_vector_apply, select_apply, broadcastInDim_scalar_apply]
    exact redirected_reads (fst (ix1 e)) (s (ix1 e)) v

/-- An update's first three columns: the destination vertex's coordinates. -/
theorem update_coord (verts : FVec Ideal S1000000x3 .f32) (d : IVec S12000000 32) (e : Fin 12000000) (k : Fin 3)
    (hk : k.val < 4) : update verts d (ix2 e ⟨k.val, hk⟩) = gathered verts d (ix2 e k) :=
  concat_cols_left _ _ _ e k hk

/-- An update's last column: one. -/
theorem update_one (verts : FVec Ideal S1000000x3 .f32) (d : IVec S12000000 32) (e : Fin 12000000) :
    update verts d (ix2 e 3) = 1 := by
  refine (concat_cols_right (a := 3) _ _ _ e (0 : Fin 1) (by norm_num)).trans ?_
  rw [broadcastInDim_scalar_apply, constant_apply, Ideal.ofBits_one_f32]

end Cert.KernelIdeal.KRead

end
-- ==== Proof.RefDefs.lean ====
import proofs.«101357_j30545807409222_2_alg».proof.ReferenceIdeal

/-! The reference program's values as pure terms of its two arguments.

src, dst and first are the sorted source words, the sorted destination words and the first-occurrence
mask of the directed-edge list built from the faces (the values of %25, %32 and %41); tail is the mean row
norm of deg * verts - nbr as a term of the vertices and of those three values (the operations %42 … %65,
the row norm's three operations in place). Each definition binds one value per operation, in program
order, with the pure function the operation carries; src runs through %25, dst leaves out the nine
operations %c_5 … %25 (nothing of %32 reads them) and runs through %32, first runs through %41. -/

noncomputable section

namespace Cert.ReferenceIdeal.Ref

open Idealize.ShloMosaic Idealize.SL.Sem
open Cert.ReferenceIdeal Cert.ReferenceIdeal.Facts₀ Cert.ReferenceIdeal.Facts

variable {F : FTy → Type} [FloatOps F] [Cert.ReferenceIdeal.Facts]

/-- The lexicographically sorted edge list's source words: the value of %25 as a term of the faces. -/
def src (faces : IVec S2000000x3 32) : IVec S12000000 32 :=
  have c : IVec S3 32 := fun i => lit0 (S3.rowMajor i)
  have c_0 : IVec S3 32 := fun i => lit1 (S3.rowMajor i)
  have c_1 : IVec S_ 32 := constantI S_ 32 0#32
  have v0 : IVec S3 32 := broadcastInDim S3 ![] bcast_S_S3 c_1
  have v1 : IVec S3 1 := cmpi .slt c v0
  have c_2 : IVec S_ 32 := constantI S_ 32 3#32
  have v2 : IVec S3 32 := broadcastInDim S3 ![] bcast_S_S3 c_2
  have v3 : IVec S3 32 := addi c v2
  have v4 : IVec S3 32 := select v1 v3 c
  have v5 : IVec S3x1 32 := broadcastInDim S3x1 ![0] bcast_S3_S3x1_0 v4
  have v6 : IVec S2000000x3 32 := Host.gather gather_S2000000x3_S3x1_S2000000x3_0_1_n_n_1_1_20000001 faces v5
  have v7 : IVec S6000000 32 := shapeCast S6000000 v6 shapeCasts_S2000000x3_S6000000
  have c_3 : IVec S_ 32 := constantI S_ 32 0#32
  have v8 : IVec S3 32 := broadcastInDim S3 ![] bcast_S_S3 c_3
  have v9 : IVec S3 1 := cmpi .slt c_0 v8
  have c_4 : IVec S_ 32 := constantI S_ 32 3#32
  have v10 : IVec S3 32 := broadcastInDim S3 ![] bcast_S_S3 c_4
  have v11 : IVec S3 32 := addi c_0 v10
  have v12 : IVec S3 32 := select v9 v11 c_0
  have v13 : IVec S3x1 32 := broadcastInDim S3x1 ![0] bcast_S3_S3x1_0 v12
  have v14 : IVec S2000000x3 32 := Host.gather gather_S2000000x3_S3x1_S2000000x3_0_1_n_n_1_1_20000001 faces v13
  have v15 : IVec S6000000 32 := shapeCast S6000000 v14 shapeCasts_S2000000x3_S6000000
  have v16 : IVec S12000000 32 := concatenate S12000000 0 [⟨S6000000, v7⟩, ⟨S6000000, v15⟩] concatenates_S6000000_S6000000_S12000000_d0
  have v17 : IVec S12000000 32 := concatenate S12000000 0 [⟨S6000000, v15⟩, ⟨S6000000, v7⟩] concatenates_S6000000_S6000000_S12000000_d0
  have call0_v0 : IVec S12000000 32 := iotaInDim S12000000 32 0
  have call0_v1_0 : IVec S12000000 32 := (Host.sort3 S12000000 0 comparator_i32_i32_i32_d0 v16 v17 call0_v0).1
  have call0_v1_1 : IVec S12000000 32 := (Host.sort3 S12000000 0 comparator_i32_i32_i32_d0 v16 v17 call0_v0).2.1
  have v18 : IVec S12000000 32 := (Host.sort3 S12000000 0 comparator_i32_i32_i32_d0 v16 v17 call0_v0).2.2
  have c_5 : IVec S_ 32 := constantI S_ 32 0#32
  have v19 : IVec S12000000 32 := broadcastInDim S12000000 ![] bcast_S_S12000000 c_5
  have v20 : IVec S12000000 1 := cmpi .slt v18 v19
  have c_6 : IVec S_ 32 := constantI S_ 32 12000000#32
  have v21 : IVec S12000000 32 := broadcastInDim S12000000 ![] bcast_S_S12000000 c_6
  have v22 : IVec S12000000 32 := addi v18 v21
  have v23 : IVec S12000000 32 := select v20 v22 v18
  have v24 : IVec S12000000x1 32 := broadcastInDim S12000000x1 ![0] bcast_S12000000_S12000000x1_0 v23
  have v25 : IVec S12000000 32 := Host.gather gather_S12000000_S12000000x1_S12000000_n_0_n_n_0_1_1 v16 v24
  v25

/-- The lexicographically sorted edge list's destination words: the value of %32 as a term of the faces. -/
def dst (faces : IVec S2000000x3 32) : IVec S12000000 32 :=
  have c : IVec S3 32 := fun i => lit0 (S3.rowMajor i)
  have c_0 : IVec S3 32 := fun i => lit1 (S3.rowMajor i)
  have c_1 : IVec S_ 32 := constantI S_ 32 0#32
  have v0 : IVec S3 32 := broadcastInDim S3 ![] bcast_S_S3 c_1
  have v1 : IVec S3 1 := cmpi .slt c v0
  have c_2 : IVec S_ 32 := constantI S_ 32 3#32
  have v2 : IVec S3 32 := broadcastInDim S3 ![] bcast_S_S3 c_2
  have v3 : IVec S3 32 := addi c v2
  have v4 : IVec S3 32 := select v1 v3 c
  have v5 : IVec S3x1 32 := broadcastInDim S3x1 ![0] bcast_S3_S3x1_0 v4
  have v6 : IVec S2000000x3 32 := Host.gather gather_S2000000x3_S3x1_S2000000x3_0_1_n_n_1_1_20000001 faces v5
  have v7 : IVec S6000000 32 := shapeCast S6000000 v6 shapeCasts_S2000000x3_S6000000
  have c_3 : IVec S_ 32 := constantI S_ 32 0#32
  have v8 : IVec S3 32 := broadcastInDim S3 ![] bcast_S_S3 c_3
  have v9 : IVec S3 1 := cmpi .slt c_0 v8
  have c_4 : IVec S_ 32 := constantI S_ 32 3#32
  have v10 : IVec S3 32 := broadcastInDim S3 ![] bcast_S_S3 c_4
  have v11 : IVec S3 32 := addi c_0 v10
  have v12 : IVec S3 32 := select v9 v11 c_0
  have v13 : IVec S3x1 32 := broadcastInDim S3x1 ![0] bcast_S3_S3x1_0 v12
  have v14 : IVec S2000000x3 32 := Host.gather gather_S2000000x3_S3x1_S2000000x3_0_1_n_n_1_1_20000001 faces v13
  have v15 : IVec S6000000 32 := shapeCast S6000000 v14 shapeCasts_S2000000x3_S6000000
  have v16 : IVec S12000000 32 := concatenate S12000000 0 [⟨S6000000, v7⟩, ⟨S6000000, v15⟩] concatenates_S6000000_S6000000_S12000000_d0
  have v17 : IVec S12000000 32 := concatenate S12000000 0 [⟨S6000000, v15⟩, ⟨S6000000, v7⟩] concatenates_S6000000_S6000000_S12000000_d0
  have call0_v0 : IVec S12000000 32 := iotaInDim S12000000 32 0
  have call0_v1_0 : IVec S12000000 32 := (Host.sort3 S12000000 0 comparator_i32_i32_i32_d0 v16 v17 call0_v0).1
  have call0_v1_1 : IVec S12000000 32 := (Host.sort3 S12000000 0 comparator_i32_i32_i32_d0 v16 v17 call0_v0).2.1
  have v18 : IVec S12000000 32 := (Host.sort3 S12000000 0 comparator_i32_i32_i32_d0 v16 v17 call0_v0).2.2
  have c_7 : IVec S_ 32 := constantI S_ 32 0#32
  have v26 : IVec S12000000 32 := broadcastInDim S12000000 ![] bcast_S_S12000000 c_7
  have v27 : IVec S12000000 1 := cmpi .slt v18 v26
  have c_8 : IVec S_ 32 := constantI S_ 32 12000000#32
  have v28 : IVec S12000000 32 := broadcastInDim S12000000 ![] bcast_S_S12000000 c_8
  have v29 : IVec S12000000 32 := addi v18 v28
  have v30 : IVec S12000000 32 := select v27 v29 v18
  have v31 : IVec S12000000x1 32 := broadcastInDim S12000000x1 ![0] bcast_S12000000_S12000000x1_0 v30
  have v32 : IVec S12000000 32 := Host.gather gather_S12000000_S12000000x1_S12000000_n_0_n_n_0_1_1 v17 v31
  v32

/-- The first-occurrence mask of the sorted edge list: the value of %41 as a term of the faces
    (position 0 set; position i + 1 set when its source or its destination word differs from position i's). -/
def first (faces : IVec S2000000x3 32) : IVec S12000000 1 :=
  have c : IVec S3 32 := fun i => lit0 (S3.rowMajor i)
  have c_0 : IVec S3 32 := fun i => lit1 (S3.rowMajor i)
  have c_1 : IVec S_ 32 := constantI S_ 32 0#32
  have v0 : IVec S3 32 := broadcastInDim S3 ![] bcast_S_S3 c_1
  have v1 : IVec S3 1 := cmpi .slt c v0
  have c_2 : IVec S_ 32 := constantI S_ 32 3#32
  have v2 : IVec S3 32 := broadcastInDim S3 ![] bcast_S_S3 c_2
  have v3 : IVec S3 32 := addi c v2
  have v4 : IVec S3 32 := select v1 v3 c
  have v5 : IVec S3x1 32 := broadcastInDim S3x1 ![0] bcast_S3_S3x1_0 v4
  have v6 : IVec S2000000x3 32 := Host.gather gather_S2000000x3_S3x1_S2000000x3_0_1_n_n_1_1_20000001 faces v5
  have v7 : IVec S6000000 32 := shapeCast S6000000 v6 shapeCasts_S2000000x3_S6000000
  have c_3 : IVec S_ 32 := constantI S_ 32 0#32
  have v8 : IVec S3 32 := broadcastInDim S3 ![] bcast_S_S3 c_3
  have v9 : IVec S3 1 := cmpi .slt c_0 v8
  have c_4 : IVec S_ 32 := constantI S_ 32 3#32
  have v10 : IVec S3 32 := broadcastInDim S3 ![] bcast_S_S3 c_4
  have v11 : IVec S3 32 := addi c_0 v10
  have v12 : IVec S3 32 := select v9 v11 c_0
  have v13 : IVec S3x1 32 := broadcastInDim S3x1 ![0] bcast_S3_S3x1_0 v12
  have v14 : IVec S2000000x3 32 := Host.gather gather_S2000000x3_S3x1_S2000000x3_0_1_n_n_1_1_20000001 faces v13
  have v15 : IVec S6000000 32 := shapeCast S6000000 v14 shapeCasts_S2000000x3_S6000000
  have v16 : IVec S12000000 32 := concatenate S12000000 0 [⟨S6000000, v7⟩, ⟨S6000000, v15⟩] concatenates_S6000000_S6000000_S12000000_d0
  have v17 : IVec S12000000 32 := concatenate S12000000 0 [⟨S6000000, v15⟩, ⟨S6000000, v7⟩] concatenates_S6000000_S6000000_S12000000_d0
  have call0_v0 : IVec S12000000 32 := iotaInDim S12000000 32 0
  have call0_v1_0 : IVec S12000000 32 := (Host.sort3 S12000000 0 comparator_i32_i32_i32_d0 v16 v17 call0_v0).1
  have call0_v1_1 : IVec S12000000 32 := (Host.sort3 S12000000 0 comparator_i32_i32_i32_d0 v16 v17 call0_v0).2.1
  have v18 : IVec S12000000 32 := (Host.sort3 S12000000 0 comparator_i32_i32_i32_d0 v16 v17 call0_v0).2.2
  have c_5 : IVec S_ 32 := constantI S_ 32 0#32
  have v19 : IVec S12000000 32 := broadcastInDim S12000000 ![] bcast_S_S12000000 c_5
  have v20 : IVec S12000000 1 := cmpi .slt v18 v19
  have c_6 : IVec S_ 32 := constantI S_ 32 12000000#32
  have v21 : IVec S12000000 32 := broadcastInDim S12000000 ![] bcast_S_S12000000 c_6
  have v22 : IVec S12000000 32 := addi v18 v21
  have v23 : IVec S12000000 32 := select v20 v22 v18
  have v24 : IVec S12000000x1 32 := broadcastInDim S12000000x1 ![0] bcast_S12000000_S12000000x1_0 v23
  have v25 : IVec S12000000 32 := Host.gather gather_S12000000_S12000000x1_S12000000_n_0_n_n_0_1_1 v16 v24
  have c_7 : IVec S_ 32 := constantI S_ 32 0#32
  have v26 : IVec S12000000 32 := broadcastInDim S12000000 ![] bcast_S_S12000000 c_7
  have v27 : IVec S12000000 1 := cmpi .slt v18 v26
  have c_8 : IVec S_ 32 := constantI S_ 32 12000000#32
  have v28 : IVec S12000000 32 := broadcastInDim S12000000 ![] bcast_S_S12000000 c_8
  have v29 : IVec S12000000 32 := addi v18 v28
  have v30 : IVec S12000000 32 := select v27 v29 v18
  have v31 : IVec S12000000x1 32 := broadcastInDim S12000000x1 ![0] bcast_S12000000_S12000000x1_0 v30
  have v32 : IVec S12000000 32 := Host.gather gather_S12000000_S12000000x1_S12000000_n_0_n_n_0_1_1 v17 v31
  have c_9 : IVec S_ 1 := constantI S_ 1 1#1
  have v33 : IVec S1 1 := broadcastInDim S1 ![] bcast_S_S1 c_9
  have v34 : IVec S11999999 32 := extractStridedSlice S11999999 ![1] v25 slices_S12000000_S11999999_1
  have v35 : IVec S11999999 32 := extractStridedSlice S11999999 ![0] v25 slices_S12000000_S11999999_0
  have v36 : IVec S11999999 1 := cmpi .ne v34 v35
  have v37 : IVec S11999999 32 := extractStridedSlice S11999999 ![1] v32 slices_S12000000_S11999999_1
  have v38 : IVec S11999999 32 := extractStridedSlice S11999999 ![0] v32 slices_S12000000_S11999999_0
  have v39 : IVec S11999999 1 := cmpi .ne v37 v38
  have v40 : IVec S11999999 1 := ori v36 v39
  have v41 : IVec S12000000 1 := concatenate S12000000 0 [⟨S1, v33⟩, ⟨S11999999, v40⟩] concatenates_S1_S11999999_S12000000_d0
  v41

/-- The reference's result from the first-occurrence mask on: the weights w are the mask as floats;
    nbr = Σ w * verts[d] and deg = Σ w are scattered by the source words; the result is the sum over the
    vertices of the row norms of deg * verts - nbr, divided by 10⁶. The value of %65 as a term of %arg0 and
    of the values of %25, %32 and %41. -/
def tail (verts : FVec F S1000000x3 .f32) (s d : IVec S12000000 32) (fst : IVec S12000000 1) : FVec F S_ .f32 :=
  have v42 : FVec F S12000000 .f32 := uitofp .f32 fst
  have v43 : FVec F S12000000x1 .f32 := broadcastInDim S12000000x1 ![0] bcast_S12000000_S12000000x1_0 v42
  have c_10 : IVec S_ 32 := constantI S_ 32 0#32
  have v44 : IVec S12000000 32 := broadcastInDim S12000000 ![] bcast_S_S12000000 c_10
  have v45 : IVec S12000000 1 := cmpi .slt d v44
  have c_11 : IVec S_ 32 := constantI S_ 32 1000000#32
  have v46 : IVec S12000000 32 := broadcastInDim S12000000 ![] bcast_S_S12000000 c_11
  have v47 : IVec S12000000 32 := addi d v46
  have v48 : IVec S12000000 32 := select v45 v47 d
  have v49 : IVec S12000000x1 32 := broadcastInDim S12000000x1 ![0] bcast_S12000000_S12000000x1_0 v48
  have v50 : FVec F S12000000x3 .f32 := Host.gather gather_S1000000x3_S12000000x1_S12000000x3_1_0_n_n_0_1_13 verts v49
  have v51 : FVec F S12000000x3 .f32 := broadcastInDim S12000000x3 ![0, 1] bcast_S12000000x1_S12000000x3_0_1 v43
  have v52 : FVec F S12000000x3 .f32 := mulf v51 v50
  have cst : FVec F S_ .f32 := constant S_ .f32 0x00000000#32
  have v53 : FVec F S1000000x3 .f32 := broadcastInDim S1000000x3 ![] bcast_S_S1000000x3 cst
  have v54 : IVec S12000000x1 32 := broadcastInDim S12000000x1 ![0] bcast_S12000000_S12000000x1_0 s
  have v55 : FVec F S1000000x3 .f32 := Host.scatterAdd scatter_S1000000x3_S12000000x1_S12000000x3_1_0_0_1 v53 v54 v52
  have cst_12 : FVec F S_ .f32 := constant S_ .f32 0x00000000#32
  have v56 : FVec F S1000000 .f32 := broadcastInDim S1000000 ![] bcast_S_S1000000 cst_12
  have v57 : IVec S12000000x1 32 := broadcastInDim S12000000x1 ![0] bcast_S12000000_S12000000x1_0 s
  have v58 : FVec F S1000000 .f32 := Host.scatterAdd scatter_S1000000_S12000000x1_S12000000_n_0_0_1 v56 v57 v42
  have v59 : FVec F S1000000x1 .f32 := broadcastInDim S1000000x1 ![0] bcast_S1000000_S1000000x1_0 v58
  have v60 : FVec F S1000000x3 .f32 := broadcastInDim S1000000x3 ![0, 1] bcast_S1000000x1_S1000000x3_0_1 v59
  have v61 : FVec F S1000000x3 .f32 := mulf v60 verts
  have v62 : FVec F S1000000x3 .f32 := subf v61 v55
  have call1_v0 : FVec F S1000000x3 .f32 := mulf v62 v62
  have call1_cst : FVec F S_ .f32 := constant S_ .f32 0x00000000#32
  have call1_v1 : FVec F S1000000 .f32 := Host.reduceAdd call1_v0 call1_cst reducesTo_S1000000x3_S1000000_d1 h_S_
  have v63 : FVec F S1000000 .f32 := Host.sqrt call1_v1
  have cst_13 : FVec F S_ .f32 := constant S_ .f32 0x00000000#32
  have v64 : FVec F S_ .f32 := Host.reduceAdd v63 cst_13 reducesTo_S1000000_S_d0 h_S_
  have cst_14 : FVec F S_ .f32 := constant S_ .f32 0x49742400#32
  have v65 : FVec F S_ .f32 := Host.divf v64 cst_14
  v65

end Cert.ReferenceIdeal.Ref

end
-- ==== Proof.RedRead.lean ====
/-
  The host's float sums read at coordinates: the sum of each row of a matrix, and the sum of a vector, each as
  the initial value plus the plain sum over the coordinate that is added up.
-/
import Idealize.ShloMosaic.PureOps.Ideal.Laws
import Idealize.ShloMosaic.Lib.ValueIdx
import Idealize.ShloMosaic.Lib.IdealHost
import proofs.«101357_j30545807409222_2_alg».proof.Proof.LibRowScatterGather

noncomputable section

namespace Cert.Lap

open Idealize.ShloMosaic Idealize.ShloMosaic.ValueIdx

/-- The host's square root, entry by entry. -/
theorem hostSqrt_apply {s : Shape} (x : FVec Ideal s .f32) (i : s.Idx) : Host.sqrt x i = Ideal.sqrt (x i) := rfl

/-- An unsigned word converted, entry by entry: the word read as a number. -/
theorem uitofp_apply {s : Shape} {w : ℕ} (x : IVec s w) (i : s.Idx) :
    (uitofp .f32 x : FVec Ideal s .f32) i = (((x i).toNat : ℝ) : EReal) := rfl

/-- Each row of a matrix added up: the initial value plus the row's entries. -/
theorem row_sums_apply {n c : ℕ} (x : (⟨2, ![n, c]⟩ : Shape).Idx → EReal) (init : EReal)
    (h' : (⟨2, ![n, c]⟩ : Shape).ReducesTo [1] ⟨1, ![n]⟩) (h : (⟨2, ![n, c]⟩ : Shape).Reduces [1] ⟨1, ![n]⟩) (v : Fin n) :
    Ideal.hostReduceAdd h' x init (ix1 v) = init + ∑ k : Fin c, x (ix2 v k) := by
  rw [Ideal.hostReduceAdd_single h' h x init (ix1 v)]
  refine congrArg (init + ·) (Finset.sum_congr rfl fun k _ => congrArg x ?_)
  funext a
  refine Fin.ext ?_
  match a with
  | ⟨0, _⟩ => rfl
  | ⟨1, _⟩ => rfl

/-- A vector added up: the initial value plus its entries. -/
theorem vector_sum_apply {n : ℕ} (x : (⟨1, ![n]⟩ : Shape).Idx → EReal) (init : EReal)
    (h' : (⟨1, ![n]⟩ : Shape).ReducesTo [0] ⟨0, ![]⟩) :
    Ideal.hostReduceAdd h' x init ix0 = init + ∑ v : Fin n, x (ix1 v) := by
  rw [Ideal.hostReduceAdd_total h' (fun b => b.elim0) x init ix0, sum_idx1]

end Cert.Lap

end
-- ==== Proof.RRead.lean ====
/-
  The reference's result read at coordinates.

  Each edge carries a weight, its flag read as a number. The neighbour sum of a vertex adds, over the edges whose
  source word reads as the vertex, the weight times the destination vertex's coordinates; the degree adds the
  weights. The Laplacian row is degree times coordinates minus neighbour sum, its length the square root of the sum
  of its three squares, and the result the sum of the lengths over the vertices divided by 1000000.
-/
import proofs.«101357_j30545807409222_2_alg».proof.Proof.RefDefs
import proofs.«101357_j30545807409222_2_alg».proof.Proof.OpsRead
import proofs.«101357_j30545807409222_2_alg».proof.Proof.RedRead
import proofs.«101357_j30545807409222_2_alg».proof.Proof.LibRowScatterGather
import proofs.«101357_j30545807409222_2_alg».proof.Proof.LapMath

noncomputable section

namespace Cert.ReferenceIdeal.RRead

open Idealize.ShloMosaic Idealize.ShloMosaic.ValueIdx Finset
open Cert.ReferenceIdeal Cert.ReferenceIdeal.Ref Cert.Lap
open Cert.ReferenceIdeal.Facts₀ Cert.ReferenceIdeal.Facts

variable [Cert.ReferenceIdeal.Facts]

/-- The destination word of an edge made non-negative: a negative word has 1000000 added. -/
def dstWord (d : IVec S12000000 32) : IVec S12000000 32 :=
  select (cmpi .slt d (broadcastInDim S12000000 ![] bcast_S_S12000000 (constantI S_ 32 0#32)))
    (addi d (broadcastInDim S12000000 ![] bcast_S_S12000000 (constantI S_ 32 1000000#32))) d

/-- The destination vertex's coordinates, edge by edge. -/
def gathered (verts : FVec Ideal S1000000x3 .f32) (d : IVec S12000000 32) : FVec Ideal S12000000x3 .f32 :=
  Host.gather gather_S1000000x3_S12000000x1_S12000000x3_1_0_n_n_0_1_13 verts
    (broadcastInDim S12000000x1 ![0] bcast_S12000000_S12000000x1_0 (dstWord d))

/-- An edge's weight: its flag as a number. -/
def weight (fst : IVec S12000000 1) : FVec Ideal S12000000 .f32 := uitofp .f32 fst

/-- The weighted sum of the neighbours' coordinates, vertex by vertex. -/
def nbr (verts : FVec Ideal S1000000x3 .f32) (s d : IVec S12000000 32) (fst : IVec S12000000 1) : FVec Ideal S1000000x3 .f32 :=
  Host.scatterAdd scatter_S1000000x3_S12000000x1_S12000000x3_1_0_0_1
    (broadcastInDim S1000000x3 ![] bcast_S_S1000000x3 (constant S_ .f32 0x00000000#32))
    (broadcastInDim S12000000x1 ![0] bcast_S12000000_S12000000x1_0 s)
    (mulf (broadcastInDim S12000000x3 ![0, 1] bcast_S12000000x1_S12000000x3_0_1
        (broadcastInDim S12000000x1 ![0] bcast_S12000000_S12000000x1_0 (weight fst)))
      (gathered verts d))

/-- The sum of the weights, vertex by vertex. -/
def deg (s : IVec S12000000 32) (fst : IVec S12000000 1) : FVec Ideal S1000000 .f32 :=
  Host.scatterAdd scatter_S1000000_S12000000x1_S12000000_n_0_0_1
    (broadcastInDim S1000000 ![] bcast_S_S1000000 (constant S_ .f32 0x00000000#32))
    (broadcastInDim S12000000x1 ![0] bcast_S12000000_S12000000x1_0 s)
    (weight fst)

/-- The Laplacian rows. -/
def lap (verts : FVec Ideal S1000000x3 .f32) (s d : IVec S12000000 32) (fst : IVec S12000000 1) : FVec Ideal S1000000x3 .f32 :=
  subf (mulf (broadcastInDim S1000000x3 ![0, 1] bcast_S1000000x1_S1000000x3_0_1
      (broadcastInDim S1000000x1 ![0] bcast_S1000000_S1000000x1_0 (deg s fst))) verts) (nbr verts s d fst)

/-- The reference's result over the Laplacian rows. -/
theorem tail_eq (verts : FVec Ideal S1000000x3 .f32) (s d : IVec S12000000 32) (fst : IVec S12000000 1) :
    tail verts s d fst
      = Host.divf (Host.reduceAdd (Host.sqrt (Host.reduceAdd (mulf (lap verts s d fst) (lap verts s d fst))
            (constant S_ .f32 0x00000000#32) reducesTo_S1000000x3_S1000000_d1 h_S_))
          (constant S_ .f32 0x00000000#32) reducesTo_S1000000_S_d0 h_S_) (constant S_ .f32 0x49742400#32) := rfl

end Cert.ReferenceIdeal.RRead

end
-- ==== Proof.RReadRows.lean ====
/-
  The reference's neighbour sums, degrees and Laplacian rows read at coordinates: an edge weighted by a flag that
  is off contributes nothing, so each sum runs over the edges whose flag is on and whose source word reads as the
  vertex.
-/
import proofs.«101357_j30545807409222_2_alg».proof.Proof.RRead

noncomputable section

namespace Cert.ReferenceIdeal.RRead

open Idealize.ShloMosaic Idealize.ShloMosaic.ValueIdx Finset
open Cert.ReferenceIdeal Cert.ReferenceIdeal.Ref Cert.Lap
open Cert.ReferenceIdeal.Facts₀ Cert.ReferenceIdeal.Facts

variable [Cert.ReferenceIdeal.Facts]

/-- A vertex's neighbour sum: the destination coordinates of the edges whose flag is on and whose source word reads as
    the vertex, added up from zero. -/
theorem nbr_apply (verts : FVec Ideal S1000000x3 .f32) (s d : IVec S12000000 32) (fst : IVec S12000000 1)
    (v : Fin 1000000) (k : Fin 3) :
    nbr verts s d fst (ix2 v k)
      = 0 + ∑ e ∈ univ.filter (fun e : Fin 12000000 => fst (ix1 e) = 1#1 ∧ (s (ix1 e)).toInt = (v.val : ℤ)),
          gathered verts d (ix2 e k) := by
  unfold nbr
  refine (host_scatterRows2_apply scatter_S1000000x3_S12000000x1_S12000000x3_1_0_0_1
    scatter_S1000000x3_S12000000x1_S12000000x3_1_0_0_1_wf rfl _ _ _ v k).trans ?_
  refine congrArg₂ (· + ·) ?_ ?_
  · rw [broadcastInDim_scalar_apply, constant_apply, Ideal.ofBits_zero_f32]
  · refine (Finset.sum_congr (Finset.filter_congr fun e _ => ?_) fun e _ => ?_).trans
      (sum_flag_weighted (fun e : Fin 12000000 => (s (ix1 e)).toInt = (v.val : ℤ)) (fun e => fst (ix1 e))
        (fun e => gathered verts d (ix2 e k)))
    · rw [column_of_vector_apply]
    · refine (mulf_apply _ _ (ix2 e k)).trans ?_
      rw [column_across_apply, column_of_vector_apply]
      exact congrArg (· * gathered verts d (ix2 e k)) (uitofp_apply fst (ix1 e))

/-- A vertex's degree: the number of edges whose flag is on and whose source word reads as the vertex, counted up from
    zero. -/
theorem deg_apply (s : IVec S12000000 32) (fst : IVec S12000000 1) (v : Fin 1000000) :
    deg s fst (ix1 v)
      = 0 + ∑ e ∈ univ.filter (fun e : Fin 12000000 => fst (ix1 e) = 1#1 ∧ (s (ix1 e)).toInt = (v.val : ℤ)), (1 : EReal) := by
  unfold deg
  refine (host_scatterRows1_apply scatter_S1000000_S12000000x1_S12000000_n_0_0_1
    scatter_S1000000_S12000000x1_S12000000_n_0_0_1_wf rfl _ _ _ v).trans ?_
  refine congrArg₂ (· + ·) ?_ ?_
  · rw [broadcastInDim_scalar_apply, constant_apply, Ideal.ofBits_zero_f32]
  · refine (Finset.sum_congr (Finset.filter_congr fun e _ => ?_) fun e _ => ?_).trans
      (sum_flag (fun e : Fin 12000000 => (s (ix1 e)).toInt = (v.val : ℤ)) (fun e => fst (ix1 e)))
    · rw [column_of_vector_apply]
    · exact uitofp_apply fst (ix1 e)

/-- A Laplacian row's entry. -/
theorem lap_apply (verts : FVec Ideal S1000000x3 .f32) (s d : IVec S12000000 32) (fst : IVec S12000000 1)
    (v : Fin 1000000) (k : Fin 3) :
    lap verts s d fst (ix2 v k) = deg s fst (ix1 v) * verts (ix2 v k) - nbr verts s d fst (ix2 v k) := by
  refine (subf_apply _ _ (ix2 v k)).trans ?_
  refine congrArg (· - nbr verts s d fst (ix2 v k)) ?_
  refine (mulf_apply _ _ (ix2 v k)).trans ?_
  rw [column_across_apply, column_of_vector_apply]

end Cert.ReferenceIdeal.RRead

end
-- ==== Proof.RReadTail.lean ====
/-
  The reference's result read as a number: the row norms of the Laplacian rows, each the square root of the sum of
  three squares, added over the vertices and divided by 1000000.
-/
import proofs.«101357_j30545807409222_2_alg».proof.Proof.RRead

noncomputable section

namespace Cert.ReferenceIdeal.RRead

open Idealize.ShloMosaic Idealize.ShloMosaic.ValueIdx Finset
open Cert.ReferenceIdeal Cert.ReferenceIdeal.Ref Cert.Lap
open Cert.ReferenceIdeal.Facts₀ Cert.ReferenceIdeal.Facts

variable [Cert.ReferenceIdeal.Facts]

/-- The row norms of any matrix of three columns: the square root of the three squares added up from zero. -/
theorem norms_apply (L : FVec Ideal S1000000x3 .f32) (v : Fin 1000000) :
    Host.sqrt (Host.reduceAdd (mulf L L) (constant S_ .f32 0x00000000#32) reducesTo_S1000000x3_S1000000_d1 h_S_) (ix1 v)
      = Ideal.sqrt (0 + ∑ k : Fin 3, L (ix2 v k) * L (ix2 v k)) := by
  refine (hostSqrt_apply _ (ix1 v)).trans ?_
  refine congrArg Ideal.sqrt ?_
  refine (hostReduceAdd_apply (mulf L L) (constant S_ .f32 0x00000000#32) reducesTo_S1000000x3_S1000000_d1 h_S_ (ix1 v)).trans ?_
  refine (row_sums_apply (mulf L L) _ reducesTo_S1000000x3_S1000000_d1 (by decide) v).trans ?_
  rw [constant_apply, Ideal.ofBits_zero_f32]
  refine congrArg (0 + ·) (Finset.sum_congr rfl fun k _ => ?_)
  exact mulf_apply L L (ix2 v k)

/-- The mean of any vector over the vertices: its entries added up from zero, over 1000000. -/
theorem mean_apply (nr : FVec Ideal S1000000 .f32) :
    Host.divf (Host.reduceAdd nr (constant S_ .f32 0x00000000#32) reducesTo_S1000000_S_d0 h_S_)
        (constant S_ .f32 0x49742400#32) ix0
      = Ideal.div (0 + ∑ v : Fin 1000000, nr (ix1 v)) (Ideal.ofBits .f32 0x49742400#32) := by
  have h1 : Host.reduceAdd nr (constant S_ .f32 0x00000000#32) reducesTo_S1000000_S_d0 h_S_ ix0
      = 0 + ∑ v : Fin 1000000, nr (ix1 v) := by
    refine (hostReduceAdd_apply nr (constant S_ .f32 0x00000000#32) reducesTo_S1000000_S_d0 h_S_ ix0).trans ?_
    refine (vector_sum_apply nr _ reducesTo_S1000000_S_d0).trans ?_
    rw [constant_apply, Ideal.ofBits_zero_f32]
  refine (hostDivf_apply _ _ ix0).trans ?_
  rw [h1, constant_apply]

/-- The reference's result: the vertices' Laplacian lengths added up from zero, over 1000000. -/
theorem tail_apply (verts : FVec Ideal S1000000x3 .f32) (s d : IVec S12000000 32) (fst : IVec S12000000 1) :
    tail verts s d fst ix0
      = Ideal.div (0 + ∑ v : Fin 1000000, Ideal.sqrt (0 + ∑ k : Fin 3,
          lap verts s d fst (ix2 v k) * lap verts s d fst (ix2 v k))) (Ideal.ofBits .f32 0x49742400#32) := by
  rw [tail_eq, mean_apply]
  simp only [norms_apply]

end Cert.ReferenceIdeal.RRead

end
-- ==== Proof.Bridge.lean ====
/-
  The two programs compute one number.

  Both build the same sorted edge list from the faces. Given that list, the kernel's packed array holds, in the
  column of vertex `v`, the vertex's coordinates, its neighbour sum and its degree exactly as the reference
  computes them: an edge whose flag is off is sent to the spare row by the kernel and weighted by zero by the
  reference, so both leave it out. The column's Laplacian length is therefore the reference's row norm, the padded
  columns have length zero, and adding the lengths lane by lane over the eight blocks is adding them over the
  vertices. Both programs then divide by 1000000.
-/
import proofs.«101357_j30545807409222_2_alg».proof.Proof.KRead
import proofs.«101357_j30545807409222_2_alg».proof.Proof.RReadRows
import proofs.«101357_j30545807409222_2_alg».proof.Proof.RReadTail

noncomputable section

namespace Cert.Proof.Bridge

open Idealize.ShloMosaic Idealize.ShloMosaic.ValueIdx Finset Cert.Lap

variable [Cert.KernelIdeal.Facts] [Cert.ReferenceIdeal.Facts]

/-! ## The shared edge list -/

theorem src_eq (faces : IVec Cert.KernelIdeal.S2000000x3 32) :
    Cert.KernelIdeal.KHost.src faces = Cert.ReferenceIdeal.Ref.src faces := rfl

theorem dst_eq (faces : IVec Cert.KernelIdeal.S2000000x3 32) :
    Cert.KernelIdeal.KHost.dst faces = Cert.ReferenceIdeal.Ref.dst faces := rfl

theorem first_eq (faces : IVec Cert.KernelIdeal.S2000000x3 32) :
    Cert.KernelIdeal.KHost.first faces = Cert.ReferenceIdeal.Ref.first faces := rfl

theorem gathered_eq (verts : FVec Ideal Cert.KernelIdeal.S1000000x3 .f32) (d : IVec Cert.KernelIdeal.S12000000 32) :
    Cert.KernelIdeal.KRead.gathered verts d = Cert.ReferenceIdeal.RRead.gathered verts d := rfl

/-! ## A vertex's column -/

section Column

variable (verts : FVec Ideal Cert.KernelIdeal.S1000000x3 .f32) (s d : IVec Cert.KernelIdeal.S12000000 32)
  (fst : IVec Cert.KernelIdeal.S12000000 1)

/-- Row 6 of a vertex's column is the reference's degree. -/
theorem packed_deg (v : Fin 1000000) :
    Cert.KernelIdeal.KHost.packed verts s d fst (ix2 6 (realCol v)) = Cert.ReferenceIdeal.RRead.deg s fst (ix1 v) := by
  refine (Cert.KernelIdeal.KRead.packed_acc verts s d fst v 3 (by decide)).trans ?_
  refine (Cert.KernelIdeal.KRead.accum_apply verts s d fst v 3 _).trans ?_
  refine Eq.trans ?_ (Cert.ReferenceIdeal.RRead.deg_apply s fst v).symm
  refine congrArg (0 + ·) (Finset.sum_congr rfl fun e _ => ?_)
  exact Cert.KernelIdeal.KRead.update_one verts d e

/-- Row `k + 3` of a vertex's column is the reference's neighbour sum. -/
theorem packed_nbr (v : Fin 1000000) (k : Fin 3) (hk : k.val + 3 < 7) :
    Cert.KernelIdeal.KHost.packed verts s d fst (ix2 ⟨k.val + 3, hk⟩ (realCol v))
      = Cert.ReferenceIdeal.RRead.nbr verts s d fst (ix2 v k) := by
  have hk4 : k.val < 4 := by have := k.isLt; omega
  have e1 : (⟨k.val + 3, hk⟩ : Fin 7) = ⟨3 + (⟨k.val, hk4⟩ : Fin 4).val, by show 3 + k.val < 7; omega⟩ :=
    Fin.ext (Nat.add_comm _ _)
  rw [e1]
  refine (Cert.KernelIdeal.KRead.packed_acc verts s d fst v ⟨k.val, hk4⟩ _).trans ?_
  refine (Cert.KernelIdeal.KRead.accum_apply verts s d fst v ⟨k.val, hk4⟩ _).trans ?_
  refine Eq.trans ?_ (Cert.ReferenceIdeal.RRead.nbr_apply verts s d fst v k).symm
  refine congrArg (0 + ·) (Finset.sum_congr rfl fun e _ => ?_)
  exact Cert.KernelIdeal.KRead.update_coord verts d e k hk4

/-- A vertex's column has the reference's Laplacian row. -/
theorem lapAt_eq (v : Fin 1000000) (k : Fin 3) :
    lapAt (Cert.KernelIdeal.KHost.packed verts s d fst) k (realCol v)
      = Cert.ReferenceIdeal.RRead.lap verts s d fst (ix2 v k) := by
  unfold lapAt
  rw [packed_deg, Cert.KernelIdeal.KRead.packed_vert verts s d fst v k, packed_nbr,
    Cert.ReferenceIdeal.RRead.lap_apply]

/-- A vertex's column has the reference's row norm. -/
theorem colNorm_eq (v : Fin 1000000) :
    colNorm (Cert.KernelIdeal.KHost.packed verts s d fst) (realCol v)
      = Ideal.sqrt (0 + ∑ k : Fin 3, Cert.ReferenceIdeal.RRead.lap verts s d fst (ix2 v k)
          * Cert.ReferenceIdeal.RRead.lap verts s d fst (ix2 v k)) := by
  unfold colNorm
  rw [lapAt_eq, lapAt_eq, lapAt_eq, Fin.sum_univ_three, zero_add]

/-- The lane-by-lane sum over the packed array is the sum of the reference's row norms. -/
theorem total_eq :
    total (Cert.KernelIdeal.KHost.packed verts s d fst)
      = ∑ v : Fin 1000000, Ideal.sqrt (0 + ∑ k : Fin 3, Cert.ReferenceIdeal.RRead.lap verts s d fst (ix2 v k)
          * Cert.ReferenceIdeal.RRead.lap verts s d fst (ix2 v k)) := by
  rw [total_eq_sum_real _ fun j hj => colNorm_of_zero _ j fun r =>
    Cert.KernelIdeal.KRead.packed_pad verts s d fst j hj r]
  exact Finset.sum_congr rfl fun v _ => colNorm_eq verts s d fst v

/-- The kernel's program returns its region's one output word over 1000000. -/
theorem result_apply (x : EReal) :
    Cert.KernelIdeal.KHost.result (F := Ideal) (fun _ => x) ix0 = Ideal.div x (Ideal.ofBits .f32 0x49742400#32) := rfl

/-- The two programs' results, from the same vertices and the same edge list. -/
theorem result_eq :
    Cert.KernelIdeal.KHost.result (F := Ideal) (fun _ => total (Cert.KernelIdeal.KHost.packed verts s d fst))
      = Cert.ReferenceIdeal.Ref.tail verts s d fst := by
  funext i
  obtain rfl : i = ix0 := Subsingleton.elim _ _
  rw [result_apply, Cert.ReferenceIdeal.RRead.tail_apply, zero_add, total_eq]

end Column

end Cert.Proof.Bridge

end
-- ==== Proof.KRegionPay.lean ====
/-
  The body's arithmetic read at an index over the extended reals, and the value the accumulation reaches.

  A block is seven rows by 131072 lanes: rows 0-2 a vertex's coordinates, rows 3-5 the sum of its neighbours'
  coordinates, row 6 its number of neighbours, one vertex per lane. The accumulator update adds to each lane of
  a one-row accumulator the Euclidean length of that lane's Laplacian row (degree times coordinate minus
  neighbour sum, in each of the three coordinates; the squares added left to right). Started from the zero row
  and applied to eight blocks in turn, lane `l` of the accumulator holds the eight blocks' lengths at lane `l`
  added in order from zero; zero is the unit of addition, so this is the sum over the eight blocks. The lane sum
  then adds the 131072 lanes. When block `n` is columns `131072 n …` of one seven-row array, the result is the
  sum of all 1048576 columns' lengths, in the order the specification writes it.
-/
import proofs.«101357_j30545807409222_2_alg».proof.Proof.Gen.KernelIdeal.Skeleton
import proofs.«101357_j30545807409222_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
open Idealize.ShloMosaic Idealize.ShloMosaic.ValueIdx
namespace Cert.KernelIdeal.KRegion
open Cert.KernelIdeal Cert.KernelIdeal.Gen

/-- One coordinate of the Laplacian row of lane `l` of a seven-row block: degree times coordinate minus neighbour sum. -/
def blkLap (x : S7x131072.Idx → EReal) (k : Fin 3) (l : Fin 131072) : EReal :=
  x (ix2 (6 : Fin 7) l) * x (ix2 (⟨k.val, by omega⟩ : Fin 7) l) - x (ix2 (⟨k.val + 3, by omega⟩ : Fin 7) l)

/-- The Euclidean length of lane `l`'s Laplacian row, the squares added left to right. -/
def blkNorm (x : S7x131072.Idx → EReal) (l : Fin 131072) : EReal :=
  Ideal.sqrt (blkLap x 0 l * blkLap x 0 l + blkLap x 1 l * blkLap x 1 l + blkLap x 2 l * blkLap x 2 l)

/-- The row the first grid point stores into the accumulator is zero in every lane. -/
theorem pay1_apply (j : S1x131072.Idx) : k0_pay1 (F := Ideal) j = 0 := by
  unfold k0_pay1
  show Ideal.ofBits .f32 0x00000000#32 = 0
  exact Ideal.ofBits_zero_f32

/-- The three-row difference (degree row broadcast over the coordinate rows, times them, minus the neighbour
    rows), read at row `k`, lane `l`. -/
theorem diff_apply (x : FVec Ideal S7x131072 .f32) (k : Fin 3) (l : Fin 131072) :
    subf (mulf (broadcastTo S3x131072 (extractStridedSlice S1x131072 ![6, 0] x slices_S7x131072_o6_0_S1x131072) broadcasts_S1x131072_S3x131072)
        (extractStridedSlice S3x131072 ![0, 0] x slices_S7x131072_o0_0_S3x131072))
      (extractStridedSlice S3x131072 ![3, 0] x slices_S7x131072_o3_0_S3x131072) (ix2 k l) = blkLap x k l := by
  rw [subf_apply, mulf_apply]
  rw [broadcastTo_1b_ab_apply, slice2_axis0_apply 6 x _ (0 : Fin 1) l (6 : Fin 7) rfl,
    slice2_axis0_apply 0 x _ k l (⟨k.val, by omega⟩ : Fin 7) (by simp),
    slice2_axis0_apply 3 x _ k l (⟨k.val + 3, by omega⟩ : Fin 7) (by simp; omega)]
  rfl

/-- A vector square root read at an index. -/
theorem sqrt_apply {s : Shape} {φ : FTy} (v : FVec Ideal s φ) (i : s.Idx) : sqrt v i = Ideal.sqrt (v i) := rfl

/-- The accumulator update read at lane `l`: the accumulator found there plus the length of the lane's
    Laplacian row. -/
theorem pay2_apply (x : FVec Ideal S7x131072 .f32) (a : FVec Ideal S1x131072 .f32) (l : Fin 131072) :
    k0_pay2 (F := Ideal) x a (ix2 (0 : Fin 1) l) = a (ix2 (0 : Fin 1) l) + blkNorm x l := by
  unfold k0_pay2
  rw [shapeCast_self, shapeCast_self]
  rw [addf_apply, sqrt_apply, addf_apply, addf_apply, mulf_apply, mulf_apply, mulf_apply]
  rw [slice2_axis0_apply 0 _ slices_S3x131072_o0_0_S1x131072 (0 : Fin 1) l (0 : Fin 3) rfl,
    slice2_axis0_apply 1 _ slices_S3x131072_o1_0_S1x131072 (0 : Fin 1) l (1 : Fin 3) rfl,
    slice2_axis0_apply 2 _ slices_S3x131072_o2_0_S1x131072 (0 : Fin 1) l (2 : Fin 3) rfl]
  rw [diff_apply x 0 l, diff_apply x 1 l, diff_apply x 2 l]
  rfl

/-- The lane sum read at the one index of the one-by-one output: the sum of the row's 131072 lanes. -/
theorem pay3_apply (v : FVec Ideal S1x131072 .f32) (j : S1x1.Idx) :
    k0_pay3 (F := Ideal) v j = ∑ l : Fin 131072, v (ix2 (0 : Fin 1) l) := by
  obtain ⟨p, q, rfl⟩ : ∃ (p : Fin 1) (q : Fin 1), j = ix2 p q := ⟨j 0, j 1, eq_ix2 j⟩
  unfold k0_pay3
  refine (shapeCast_a_1a_apply _ shapeCasts_S1_S1x1 p q).trans ?_
  refine (Ideal.multiReduction_add_single v 0x00000000#32 reduces_S1x131072_S1 (.inl rfl) rfl (ix1 q)).trans ?_
  refine Finset.sum_congr rfl fun l _ => congrArg v ?_
  funext a
  match a with
  | ⟨0, _⟩ => exact Fin.ext (by show q.val = 0; omega)
  | ⟨1, _⟩ => rfl

/-! ## The accumulator after each grid point, over an arbitrary family of blocks -/

variable {F : FTy → Type} [FloatOps F]

/-- The accumulator after grid point `n`: the zero row updated with blocks 0, 1, …, `n` in turn. -/
def chain {N : ℕ} (B : (n : ℕ) → n < N → Vec F S7x131072 .f32) : (n : ℕ) → n < N → Vec F S1x131072 .f32
  | 0, h => k0_pay2 (B 0 h) (k0_pay1 (F := F))
  | n + 1, h => k0_pay2 (B (n + 1) h) (chain B n (Nat.lt_of_succ_lt h))

/-- A running sum of extended reals from zero: ((0 + g₀) + g₁) + … + gₙ. -/
def psum {N : ℕ} (g : (n : ℕ) → n < N → EReal) : (n : ℕ) → n < N → EReal
  | 0, h => 0 + g 0 h
  | n + 1, h => psum g n (Nat.lt_of_succ_lt h) + g (n + 1) h

/-- Lane `l` of the accumulator after point `n` is the running sum of the blocks' column lengths at that lane. -/
theorem chain_apply {N : ℕ} (B : (n : ℕ) → n < N → Vec Ideal S7x131072 .f32) (l : Fin 131072) :
    ∀ (n : ℕ) (h : n < N), chain B n h (ix2 (0 : Fin 1) l) = psum (fun n h => blkNorm (B n h) l) n h
  | 0, h => by
    show k0_pay2 (F := Ideal) (B 0 h) (k0_pay1 (F := Ideal)) (ix2 (0 : Fin 1) l) = 0 + blkNorm (B 0 h) l
    rw [pay2_apply, pay1_apply]
  | n + 1, h => by
    show k0_pay2 (F := Ideal) (B (n + 1) h) (chain B n (Nat.lt_of_succ_lt h)) (ix2 (0 : Fin 1) l)
      = psum (fun n h => blkNorm (B n h) l) n (Nat.lt_of_succ_lt h) + blkNorm (B (n + 1) h) l
    rw [pay2_apply, chain_apply B l n]

/-- After eight terms the running sum is the sum over the eight grid points: zero is the unit of addition and
    the eight-term sum is written out left to right. -/
theorem psum_seven {N : ℕ} (g : (n : ℕ) → n < N → EReal) (h7 : 7 < N) :
    psum g 7 h7 = ∑ t : Fin 8, g t.val (lt_of_lt_of_le t.isLt h7) := by
  rw [Fin.sum_univ_eight]
  simp only [psum, zero_add]
  rfl

/-- THE REGION'S VALUE over abstract blocks. If block `n` of the family is columns `131072 n … 131072 n + 131071`
    of a seven-row array, the lane sum of the accumulator after the eighth point is the sum of all columns'
    Laplacian-row lengths: lane `l` of the accumulator holds the eight blocks' lengths at that lane, added in grid
    order from zero, and the lane sum adds the 131072 lanes. -/
theorem total_of_blocks {N : ℕ} (h7 : 7 < N) (ct : Cert.Lap.SP.Idx → EReal)
    (B : (n : ℕ) → n < N → Vec Ideal S7x131072 .f32)
    (hB : ∀ (n : ℕ) (h : n < N) (r : Fin 7) (l : Fin 131072) (hj : n * 131072 + l.val < 1048576),
      B n h (ix2 r l) = ct (ix2 r (⟨n * 131072 + l.val, hj⟩ : Fin 1048576))) :
    k0_pay3 (F := Ideal) (chain B 7 h7) = fun _ => Cert.Lap.total ct := by
  funext j
  rw [pay3_apply]
  unfold Cert.Lap.total
  refine Finset.sum_congr rfl fun l _ => ?_
  rw [chain_apply B l 7 h7, psum_seven _ h7]
  refine Finset.sum_congr rfl fun t _ => ?_
  have ht : t.val * 131072 + l.val < 1048576 := by have := t.isLt; have := l.isLt; omega
  unfold blkNorm Cert.Lap.colNorm blkLap Cert.Lap.lapAt
  simp only [hB t.val (lt_of_lt_of_le t.isLt h7) _ l ht]

end Cert.KernelIdeal.KRegion
end
-- ==== Proof.KRegionPieces.lean ====
/-
  What each control case of the accumulating body leaves behind, as values.

  The body keeps a one-row accumulator of 131072 lanes. At every grid point it adds, lane by lane, the length of
  the Laplacian row of the block's column to the accumulator it finds; at the first point it first stores the
  zero row; at the last point it also stores the sum of the updated accumulator's lanes into the one-by-one
  output. The lemmas below read the stores the three cases were found to make back as the arithmetic of the
  loaded block and accumulator: each store covers its whole buffer at offset zero, so the buffer ends holding
  the stored value, and each load reads the whole buffer, so it reads what the buffer held.
-/
import proofs.«101357_j30545807409222_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)
namespace Cert.KernelIdeal.KRegion
open Cert.KernelIdeal Cert.KernelIdeal.Gen
variable {F : FTy → Type} [FloatOps F]

/-- The offset pair (0, 0) is the zero offset. -/
theorem hz : (![0, 0] : Fin 2 → Nat) = fun _ => 0 := funext fun a => by fin_cases a <;> rfl

/-- At the first grid point the body stores the zero row into the accumulator, reads it back, and leaves
    the zero row plus the block's column lengths. -/
theorem sout_A (c : Dev nD) (i : grid0.Coords) (a1 : Memref sig .tc .vmem S7x131072 .f32) (h1 : a1.IsWhole)
    (a2 : Memref sig .tc .vmem S1x1 .f32) (h2 : a2.IsWhole) (a3 : Memref sig .tc .vmem S1x131072 .f32) (h3 : a3.IsWhole)
    (hc0 : cond0_0 i) (hc1 : ¬cond0_1 i) (x : Vec F S7x131072 .f32) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x131072) hz, View.readCov_unit_zero (S := S1x131072) _ hz]
  simp only [View.readAt_eq_ld, h1.read_unread, View.ld_unit_zero (S := S7x131072) hz]

/-- At a middle grid point the body leaves the accumulator it found plus the block's column lengths. -/
theorem sout_B (c : Dev nD) (i : grid0.Coords) (a1 : Memref sig .tc .vmem S7x131072 .f32) (h1 : a1.IsWhole)
    (a2 : Memref sig .tc .vmem S1x1 .f32) (h2 : a2.IsWhole) (a3 : Memref sig .tc .vmem S1x131072 .f32) (h3 : a3.IsWhole)
    (hc0 : ¬cond0_0 i) (hc1 : ¬cond0_1 i) (x : Vec F S7x131072 .f32) (xs : Vec F S1x131072 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  rw [View.canon_unit_zero (S := S1x131072) hz]
  simp only [View.readAt_eq_ld, h1.read_unread, h3.read_unread, View.ld_unit_zero (S := S7x131072) hz,
    View.ld_unit_zero (S := S1x131072) hz]

/-- At the last grid point the accumulator is updated in the same way, -/
theorem sout_C (c : Dev nD) (i : grid0.Coords) (a1 : Memref sig .tc .vmem S7x131072 .f32) (h1 : a1.IsWhole)
    (a2 : Memref sig .tc .vmem S1x1 .f32) (h2 : a2.IsWhole) (a3 : Memref sig .tc .vmem S1x131072 .f32) (h3 : a3.IsWhole)
    (hc0 : ¬cond0_0 i) (hc1 : cond0_1 i) (x : Vec F S7x131072 .f32) (xs : Vec F S1x131072 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero (S := S1x131072) hz]
  simp only [View.readAt_eq_ld, h1.read_unread, h3.read_unread, View.ld_unit_zero (S := S7x131072) hz,
    View.ld_unit_zero (S := S1x131072) hz]

/-- and the one-by-one output receives the lane sum of the updated accumulator. -/
theorem out_C (c : Dev nD) (i : grid0.Coords) (a1 : Memref sig .tc .vmem S7x131072 .f32) (h1 : a1.IsWhole)
    (a2 : Memref sig .tc .vmem S1x1 .f32) (h2 : a2.IsWhole) (a3 : Memref sig .tc .vmem S1x131072 .f32) (h3 : a3.IsWhole)
    (hc0 : ¬cond0_0 i) (hc1 : cond0_1 i) (x : Vec F S7x131072 .f32) (xs : Vec F S1x131072 .f32) :
    out0_C_1 c i a1 h1 a2 h2 a3 h3 hc0 hc1 x xs = k0_pay3 (k0_pay2 x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero (S := S1x1) hz, View.readCov_unit_zero (S := S1x131072) _ hz]
  simp only [View.readAt_eq_ld, h1.read_unread, h3.read_unread, View.ld_unit_zero (S := S7x131072) hz,
    View.ld_unit_zero (S := S1x131072) hz]

end Cert.KernelIdeal.KRegion
end
-- ==== Proof.KRegionBlock.lean ====
/-
  Where a block of the packed array sits in the array.

  The packed array has seven rows and 1048576 columns; the kernel's input window cuts it into eight blocks of
  131072 columns, all seven rows each, and grid point `t` reads block `t`. An element of a block sits in the
  array, on each axis, at the block's index times the block's size plus its coordinate inside the block: row
  `r`, lane `l` of block `t` is row `r`, column `131072 t + l` of the array.
-/
import proofs.«101357_j30545807409222_2_alg».proof.Proof.Gen.KernelIdeal.Frame
import Idealize.ShloMosaic.Lib.Pipeline.Value
import Idealize.ShloMosaic.Lib.ValueIdx
import Idealize.ShloMosaic.Lib.Tactic

noncomputable section
open Idealize.ShloMosaic Idealize.ShloMosaic.TcCoe Idealize.SL.Sem Idealize.ShloMosaic.ValueIdx
open Idealize.ShloMosaic.Pipeline (Dat)
namespace Cert.KernelIdeal.KRegion
open Cert.KernelIdeal Cert.KernelIdeal.Gen
variable {F : FTy → Type} [FloatOps F]
variable (m : (ℓ : Loc nD τ sig) → Buf (Elt F) ℓ)

/-- The input window's block index at grid point `t`: row block 0, column block `t`. -/
theorem idx_in : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Block `t` of the packed array, read at row `r`, lane `l`, is the array at row `r`, column `131072 t + l`:
    a block's element sits at block index times block size plus its coordinate inside the block. -/
theorem iblk_apply (c : Dev nD) (t : Fin cfg0.N) (r : Fin 7) (l : Fin 131072) (hj : t.val * 131072 + l.val < 1048576) :
    (iblk m c 0 t : Vec F S7x131072 .f32) (ix2 r l) = V m c main_v59 (ix2 r (⟨t.val * 131072 + l.val, hj⟩ : Fin 1048576)) := by
  unfold iblk
  rw [View.read_apply]
  show V m c main_v59 (((cfg0.win 0).blk t).view.emb (ix2 r l)) = V m c main_v59 _
  refine congrArg (V m c main_v59) ?_
  funext a
  apply Fin.ext
  match a with
  | ⟨0, _⟩ =>
    show win0_0.index t 0 * 7 + 1 * r.val = r.val
    rw [(idx_in t).1]; omega
  | ⟨1, _⟩ =>
    show win0_0.index t 1 * 131072 + 1 * l.val = t.val * 131072 + l.val
    rw [(idx_in t).2]; omega

end Cert.KernelIdeal.KRegion
end
-- ==== Proof.KRegion.lean ====
/-
  What the accumulating region leaves in its output array, over the extended reals.

  The region runs eight grid points over the packed array's eight column blocks. A one-row accumulator of 131072
  lanes is carried from point to point: the first point resets it to zero, every point adds to each lane the
  Euclidean length of that lane's Laplacian row in the point's block, and the last point stores the sum of the
  accumulator's lanes into the one-by-one output, which is written back to the output array at that point only.
  By induction on the point the accumulator after point `n` is the zero row updated with blocks 0 … `n` in turn;
  the one write-back writes the lane sum of the accumulator after the eighth point, and its block is the whole
  output array. Since block `t` is columns `131072 t …` of the packed array, that lane sum is the sum of all
  columns' lengths.
-/
import proofs.«101357_j30545807409222_2_alg».proof.Proof.KRegionPay
import proofs.«101357_j30545807409222_2_alg».proof.Proof.KRegionPieces
import proofs.«101357_j30545807409222_2_alg».proof.Proof.KRegionBlock

noncomputable section
open Idealize.ShloMosaic Idealize.ShloMosaic.TcCoe Idealize.SL.Sem Idealize.ShloMosaic.ValueIdx
open Idealize.ShloMosaic.Pipeline (Dat)
namespace Cert.KernelIdeal.KRegion
open Cert.KernelIdeal Cert.KernelIdeal.Gen

section generic
variable {F : FTy → Type} [FloatOps F]
variable (m : (ℓ : Loc nD τ sig) → Buf (Elt F) ℓ)

/-- The input window's blocks, by grid point. -/
abbrev blocks (c : Dev nD) : (n : ℕ) → n < cfg0.N → Vec F S7x131072 .f32 := fun n h => iblk m c 0 ⟨n, h⟩

set_option maxHeartbeats 400000 in
/-- What the carried accumulator holds after grid point `n` is the zero row updated with blocks 0 … `n` in turn:
    by induction on the point, the first point being the case that resets, every later one a case that adds to what
    the point before left. -/
theorem scratch_eq (c : Dev nD) : ∀ (n : ℕ) (h : n < cfg0.N), (outsAt0 m c n h).2 = chain (blocks m c) n h
  | 0, h => by
    rw [outsAt0_A m c ⟨0, h⟩ rfl (by show ¬0 % 8 = 7; decide)]
    dsimp only
    exact sout_A c (grid0.coords ⟨0, h⟩) (ms0_0 ⟨0, h⟩) (hs0_0 ⟨0, h⟩) (ms0_1 ⟨0, h⟩) (hs0_1 ⟨0, h⟩) scM0_0
      (Memref.isWhole_whole _) _ _ (iblk m c 0 ⟨0, h⟩)
  | n + 1, h => by
    have hN : cfg0.N = 8 := N_0
    have h0 : ¬(⟨n + 1, h⟩ : Fin cfg0.N).val % 8 = 0 := by dsimp only; omega
    by_cases h7 : (⟨n + 1, h⟩ : Fin cfg0.N).val % 8 = 7
    · rw [outsAt0_C m c ⟨n + 1, h⟩ h0 h7]
      dsimp only
      refine (sout_C c (grid0.coords ⟨n + 1, h⟩) (ms0_0 ⟨n + 1, h⟩) (hs0_0 ⟨n + 1, h⟩) (ms0_1 ⟨n + 1, h⟩) (hs0_1 ⟨n + 1, h⟩) scM0_0
        (Memref.isWhole_whole _) _ _ (iblk m c 0 ⟨n + 1, h⟩) _).trans ?_
      show k0_pay2 (iblk m c 0 ⟨n + 1, h⟩) (outsAt0 m c n (Nat.lt_of_succ_lt h)).2
        = k0_pay2 (iblk m c 0 ⟨n + 1, h⟩) (chain (blocks m c) n (Nat.lt_of_succ_lt h))
      rw [scratch_eq c n]
    · rw [outsAt0_B m c ⟨n + 1, h⟩ h0 h7]
      dsimp only
      refine (sout_B c (grid0.coords ⟨n + 1, h⟩) (ms0_0 ⟨n + 1, h⟩) (hs0_0 ⟨n + 1, h⟩) (ms0_1 ⟨n + 1, h⟩) (hs0_1 ⟨n + 1, h⟩) scM0_0
        (Memref.isWhole_whole _) _ _ (iblk m c 0 ⟨n + 1, h⟩) _).trans ?_
      show k0_pay2 (iblk m c 0 ⟨n + 1, h⟩) (outsAt0 m c n (Nat.lt_of_succ_lt h)).2
        = k0_pay2 (iblk m c 0 ⟨n + 1, h⟩) (chain (blocks m c) n (Nat.lt_of_succ_lt h))
      rw [scratch_eq c n]

/-- The eighth grid point exists. -/
theorem h7N : 7 < cfg0.N := by rw [show cfg0.N = 8 from N_0]; decide

/-- The region's result: the lane sum of the accumulator after the eighth point. -/
abbrev result (c : Dev nD) : Vec F S1x1 .f32 := k0_pay3 (chain (blocks m c) 7 h7N)

set_option maxHeartbeats 400000 in
/-- At the last grid point the one-by-one output's staging buffer receives the lane sum of the accumulator that
    point leaves. -/
theorem out_eq (c : Dev nD) : (outsAt0 m c 7 h7N).1 = result m c := by
  rw [outsAt0_C m c ⟨7, h7N⟩ (by show ¬7 % 8 = 0; decide) rfl]
  dsimp only
  refine (out_C c (grid0.coords ⟨7, h7N⟩) (ms0_0 ⟨7, h7N⟩) (hs0_0 ⟨7, h7N⟩) (ms0_1 ⟨7, h7N⟩) (hs0_1 ⟨7, h7N⟩) scM0_0
    (Memref.isWhole_whole _) _ _ (iblk m c 0 ⟨7, h7N⟩) _).trans ?_
  show k0_pay3 (k0_pay2 (iblk m c 0 ⟨7, h7N⟩) (outsAt0 m c 6 (Nat.lt_of_succ_lt h7N)).2)
    = k0_pay3 (k0_pay2 (iblk m c 0 ⟨7, h7N⟩) (chain (blocks m c) 6 (Nat.lt_of_succ_lt h7N)))
  rw [scratch_eq m c 6]

end generic

section generic2
variable {F : FTy → Type} [FloatOps F]
variable (m : (ℓ : Loc nD τ sig) → Buf (Elt F) ℓ)

set_option maxHeartbeats 400000 in
/-- The one write-back of the output window, at the last grid point, writes the region's result: the window's
    block is the whole one-by-one array, read through zero offsets. -/
theorem flushed_eq (c : Dev nD) (t : Fin cfg0.N) (hf : (cfg0.win 1).flush t = true) :
    (dats m 0 c).flushed 1 t = ((cfg0.win 1).blk t).view.read (Elt F) (result m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  rw [show (outsAt0 m c t0_7.val t0_7.isLt).1 = result m c from out_eq m c]
  have hz' : (fun a => win0_1.index t0_7 a * main_v60.ty.shape.size a) = fun _ => 0 :=
    funext fun a => by fin_cases a <;> decide
  exact (Memref.read_access_unit_zero (Elt F) main_v60 hz' (fun a => by rw [congrFun hz' a]; simp) (result m c)).symm

set_option maxHeartbeats 400000 in
/-- So the output array ends holding the region's result: the last point's block covers its one element. -/
theorem out_blocks (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_v60).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_7 0 * win0_1.size 0 ≤ (i 0 : Nat)
          ∧ (i 0 : Nat) < win0_1.index t0_7 0 * win0_1.size 0 + win0_1.xsize (grid0.coords t0_7) 0
        rw [show win0_1.index t0_7 0 * win0_1.size 0 = 0 from by decide +kernel,
          show win0_1.xsize (grid0.coords t0_7) 0 = 1 from by decide +kernel]; omega
      | ⟨1, _⟩ =>
        show win0_1.index t0_7 1 * win0_1.size 1 ≤ (i 1 : Nat)
          ∧ (i 1 : Nat) < win0_1.index t0_7 1 * win0_1.size 1 + win0_1.xsize (grid0.coords t0_7) 1
        rw [show win0_1.index t0_7 1 * win0_1.size 1 = 0 from by decide +kernel,
          show win0_1.xsize (grid0.coords t0_7) 1 = 1 from by decide +kernel]; omega⟩

end generic2

set_option maxHeartbeats 400000 in
/-- WHAT THE REGION LEAVES IN ITS OUTPUT ARRAY, over the extended reals: the one element of the one-by-one array is
    the sum, over all 1048576 columns of the packed array as the region finds it, of the Euclidean length of the
    column's Laplacian row — for each of the 131072 lanes the eight blocks' entries added in grid order, then the
    lanes added. -/
theorem out_final (m : (ℓ : Loc nD τ sig) → Buf (Elt Ideal) ℓ) (c : Dev nD) :
    (Gen.dats (F := Ideal) m 0 c).arrAt 1 cfg0.N = fun _ => Cert.Lap.total (Gen.V m c main_v59) :=
  (out_blocks m c).trans
    (total_of_blocks h7N (Gen.V m c main_v59) (blocks m c) fun n h r l hj => iblk_apply m c ⟨n, h⟩ r l hj)

end Cert.KernelIdeal.KRegion
end
-- ==== Proof.KFirst.lean ====
/- The first-occurrence mask of the kernel's program as a function of the two sorted word arrays. -/
import proofs.«101357_j30545807409222_2_alg».proof.Proof.KHostDefs

set_option synthInstance.maxSize 4096

noncomputable section

namespace Cert.KernelIdeal.KHost

open Idealize.ShloMosaic Idealize.SL.Sem
open Cert.KernelIdeal
open Cert.KernelIdeal.Facts₀ Cert.KernelIdeal.Facts

variable {F : FTy → Type} [FloatOps F] [Cert.KernelIdeal.Facts]

/-- The first-occurrence mask as a term of the sorted source and destination words (the operations %c_9 … %41):
    position 0 set; position i + 1 set when its source or its destination word differs from position i's. -/
def firstOf (s d : IVec S12000000 32) : IVec S12000000 1 :=
  have c_9 : IVec S_ 1 := constantI S_ 1 1#1
  have v33 : IVec S1 1 := broadcastInDim S1 ![] bcast_S_S1 c_9
  have v34 : IVec S11999999 32 := extractStridedSlice S11999999 ![1] s slices_S12000000_S11999999_1
  have v35 : IVec S11999999 32 := extractStridedSlice S11999999 ![0] s slices_S12000000_S11999999_0
  have v36 : IVec S11999999 1 := cmpi .ne v34 v35
  have v37 : IVec S11999999 32 := extractStridedSlice S11999999 ![1] d slices_S12000000_S11999999_1
  have v38 : IVec S11999999 32 := extractStridedSlice S11999999 ![0] d slices_S12000000_S11999999_0
  have v39 : IVec S11999999 1 := cmpi .ne v37 v38
  have v40 : IVec S11999999 1 := ori v36 v39
  have v41 : IVec S12000000 1 := concatenate S12000000 0 [⟨S1, v33⟩, ⟨S11999999, v40⟩] concatenates_S1_S11999999_S12000000_d0
  v41

attribute [local irreducible] Host.sort3 Host.gather concatenate shapeCast extractStridedSlice broadcastInDim in
/-- `first` is `firstOf` of `src` and `dst`: the same bindings, the two gathers named. -/
theorem first_split (faces : IVec S2000000x3 32) : first faces = firstOf (src faces) (dst faces) := rfl

end Cert.KernelIdeal.KHost

end
-- ==== Proof.KHost.lean ====
/- The host side of the kernel's program read off its list of operations: the packed array the region reads is
   `packed` of the vertices and of the sorted edge words and first-occurrence mask computed from the faces.
   The operations before the region are cut into three stretches — up to the sorted destinations, the mask
   with the constant 1000000, and the rest up to the packed array — and each stretch is read on its own:
   the first from the launch contents, the other two from arbitrary contents. -/
import proofs.«101357_j30545807409222_2_alg».proof.Proof.KHostDefs
import proofs.«101357_j30545807409222_2_alg».proof.Proof.KFirst
import proofs.«101357_j30545807409222_2_alg».proof.Proof.Gen.KernelIdeal.Frame

set_option maxRecDepth 16384

noncomputable section

namespace Cert.KernelIdeal.KHost

open Idealize.ShloMosaic Idealize.ShloMosaic.TcCoe Idealize.SL.Sem
open Cert.KernelIdeal Cert.KernelIdeal.Gen

variable {F : FTy → Type} [FloatOps F]

-- the sort, the gathers, the scatter-add and the re-indexings are compared as written, never opened
attribute [local irreducible] Host.sort3 Host.gather Host.scatterAdd pad concatenate transpose shapeCast broadcastInDim extractStridedSlice

/-- Running two lists of host operations one after the other is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The operations up to the sorted destinations `%32`; -/
abbrev opsA1 : List (HloOp τ sig (Elt F)) := Gen.hostOps0 ++ (Gen.hostOps0_1 ++ List.take 18 Gen.hostOps0_2)
/-- the eleven after them: the first-occurrence mask `%41` and the constant `%c_10`; -/
abbrev opsM : List (HloOp τ sig (Elt F)) := List.drop 18 Gen.hostOps0_2
/-- and the rest, up to the packed array `%59`. -/
abbrev opsB : List (HloOp τ sig (Elt F)) :=
  Gen.hostOps0_3 ++ (Gen.hostOps0_4 ++ (Gen.hostOps0_5 ++ (Gen.hostOps0_6 ++ (Gen.hostOps0_7 ++ Gen.hostOps0_8))))

/-- The operations before the region are the three stretches in order. -/
theorem ops_split :
    List.flatten [(Gen.hostOps0 : List (HloOp τ sig (Elt F))), Gen.hostOps0_1, Gen.hostOps0_2, Gen.hostOps0_3, Gen.hostOps0_4,
      Gen.hostOps0_5, Gen.hostOps0_6, Gen.hostOps0_7, Gen.hostOps0_8] = opsA1 ++ (opsM ++ opsB) := by
  simp only [List.flatten_cons, List.flatten_nil, List.append_nil, opsA1, opsM, opsB, List.append_assoc]
  rw [← List.append_assoc (List.take 18 _) (List.drop 18 _), List.take_append_drop]

/-- The contents at the region's entry: the three stretches run in order from the launch contents. -/
theorem V0_split (m : (ℓ : Loc nD τ sig) → Buf (Elt F) ℓ) (c : Dev nD) :
    Gen.V0 m c = StableHlo.after opsB (StableHlo.after opsM (StableHlo.after opsA1 (fun b => m (c, b)))) := by
  dsimp only [Gen.V0]
  rw [ops_split, after_append, after_append]

/-! ## The first stretch, from the launch contents -/

set_option maxHeartbeats 1000000 in
/-- `%25` is the sorted sources of the faces. -/
theorem opsA1_v25 (m : (ℓ : Loc nD τ sig) → Buf (Elt F) ℓ) (c : Dev nD) :
    StableHlo.after opsA1 (fun b => m (c, b)) (Proc.devRef .tc main_v25) = src (m ((c : Thread nD τ).loc main_arg1)) := by
  simp only [opsA1, Gen.hostOps0, Gen.hostOps0_1, Gen.hostOps0_2, List.take_succ_cons, List.take_zero, List.append_nil, List.cons_append, List.nil_append]
  after_results_simp
  rfl

set_option maxHeartbeats 1000000 in
/-- `%32` is the sorted destinations of the faces. -/
theorem opsA1_v32 (m : (ℓ : Loc nD τ sig) → Buf (Elt F) ℓ) (c : Dev nD) :
    StableHlo.after opsA1 (fun b => m (c, b)) (Proc.devRef .tc main_v32) = dst (m ((c : Thread nD τ).loc main_arg1)) := by
  simp only [opsA1, Gen.hostOps0, Gen.hostOps0_1, Gen.hostOps0_2, List.take_succ_cons, List.take_zero, List.append_nil, List.cons_append, List.nil_append]
  after_results_simp
  rfl

set_option maxHeartbeats 1000000 in
/-- No operation of the first stretch writes `%arg0`. -/
theorem opsA1_arg0 (m : (ℓ : Loc nD τ sig) → Buf (Elt F) ℓ) (c : Dev nD) :
    StableHlo.after opsA1 (fun b => m (c, b)) (Proc.devRef .tc main_arg0) = m ((c : Thread nD τ).loc main_arg0) := by
  simp only [opsA1, Gen.hostOps0, Gen.hostOps0_1, Gen.hostOps0_2, List.take_succ_cons, List.take_zero, List.append_nil, List.cons_append, List.nil_append]
  after_results_simp

/-! ## The mask, from any contents -/

set_option maxHeartbeats 1000000 in
/-- `%41` is the mask of what `%25` and `%32` held. -/
theorem opsM_v41 (W : Valuation τ sig (Elt F)) :
    StableHlo.after opsM W (Proc.devRef .tc main_v41) = firstOf (W (Proc.devRef .tc main_v25)) (W (Proc.devRef .tc main_v32)) := by
  simp only [opsM, Gen.hostOps0_2, List.drop_succ_cons, List.drop_zero]
  after_results
  rfl

set_option maxHeartbeats 1000000 in
/-- `%c_10` is 1000000. -/
theorem opsM_c10 (W : Valuation τ sig (Elt F)) :
    StableHlo.after opsM W (Proc.devRef .tc main_c_10) = constantI S_ 32 1000000#32 := by
  simp only [opsM, Gen.hostOps0_2, List.drop_succ_cons, List.drop_zero]
  after_results

set_option maxHeartbeats 1000000 in
/-- The mask's operations write none of `%25`, `%32`, `%arg0`. -/
theorem opsM_v25 (W : Valuation τ sig (Elt F)) :
    StableHlo.after opsM W (Proc.devRef .tc main_v25) = W (Proc.devRef .tc main_v25) := by
  simp only [opsM, Gen.hostOps0_2, List.drop_succ_cons, List.drop_zero]
  after_results

set_option maxHeartbeats 1000000 in
theorem opsM_v32 (W : Valuation τ sig (Elt F)) :
    StableHlo.after opsM W (Proc.devRef .tc main_v32) = W (Proc.devRef .tc main_v32) := by
  simp only [opsM, Gen.hostOps0_2, List.drop_succ_cons, List.drop_zero]
  after_results

set_option maxHeartbeats 1000000 in
theorem opsM_arg0 (W : Valuation τ sig (Elt F)) :
    StableHlo.after opsM W (Proc.devRef .tc main_arg0) = W (Proc.devRef .tc main_arg0) := by
  simp only [opsM, Gen.hostOps0_2, List.drop_succ_cons, List.drop_zero]
  after_results

/-! ## The rest, from any contents -/

set_option maxHeartbeats 2000000 in
/-- From any contents holding 1000000 in `%c_10`, the last stretch leaves in `%59` the packed array of what
    `%arg0`, `%25`, `%32`, `%41` held. -/
theorem opsB_v59 (W : Valuation τ sig (Elt F))
    (h10 : W (Proc.devRef .tc main_c_10) = constantI S_ 32 1000000#32) :
    StableHlo.after opsB W (Proc.devRef .tc main_v59)
      = packed (W (Proc.devRef .tc main_arg0)) (W (Proc.devRef .tc main_v25)) (W (Proc.devRef .tc main_v32)) (W (Proc.devRef .tc main_v41)) := by
  simp only [opsB, Gen.hostOps0_3, Gen.hostOps0_4, Gen.hostOps0_5, Gen.hostOps0_6, Gen.hostOps0_7, Gen.hostOps0_8,
    List.append_nil, List.cons_append, List.nil_append]
  after_results
  rw [h10]
  rfl

/-! ## The packed array at the region's entry -/

/-- At the region's entry `%59` holds the packed array of the launch's vertices and of the sorted edge words and
    mask of the launch's faces. -/
theorem V_packed (m : (ℓ : Loc nD τ sig) → Buf (Elt F) ℓ) (c : Dev nD) :
    Gen.V m c main_v59 = packed (m ((c : Thread nD τ).loc main_arg0)) (src (m ((c : Thread nD τ).loc main_arg1)))
      (dst (m ((c : Thread nD τ).loc main_arg1))) (first (m ((c : Thread nD τ).loc main_arg1))) := by
  refine (congrFun (V0_split m c) (Proc.devRef .tc main_v59)).trans ((opsB_v59 _ (opsM_c10 _)).trans ?_)
  rw [opsM_arg0, opsM_v25, opsM_v32, opsM_v41, opsA1_arg0, opsA1_v25, opsA1_v32, ← first_split]

end Cert.KernelIdeal.KHost

end
-- ==== Proof.KRun.lean ====
/-
  The kernel program's run, read at its result buffer.

  After the accumulating region the program applies three host operations to the region's one-by-one output
  array: a reshape to a scalar, the constant 1000000, and a division. Nothing else is written after the region,
  and no operation of the program writes either argument. So once the output array's final contents are named,
  the result buffer ends holding that array reshaped and divided by 1000000, and both arguments end as launched.
-/
import proofs.«101357_j30545807409222_2_alg».proof.Proof.KHostDefs
import proofs.«101357_j30545807409222_2_alg».proof.Proof.Gen.KernelIdeal.Frame
import Idealize.ShloMosaic.PureOps.Ideal
import Idealize.ShloMosaic.Lib.StableHlo.Run
import Idealize.ShloMosaic.Lib.Tactic

noncomputable section
open Idealize.ShloMosaic Idealize.ShloMosaic.TcCoe Idealize.SL.Sem
open Idealize.ShloMosaic.Pipeline (Dat)
namespace Cert.KernelIdeal.KHost
open Cert.KernelIdeal Cert.KernelIdeal.Gen

/-- The scalar the program returns is computed after the region from the region's output array alone: the
    one-by-one array reshaped to a scalar and divided by 1000000. -/
theorem tail_eq (m : (ℓ : Loc nD τ sig) → Buf (Elt Ideal) ℓ) (c : Dev nD) (o : FVec Ideal S1x1 .f32)
    (ho : (Gen.dats (F := Ideal) m 0 c).arrAt 1 cfg0.N = o) :
    Pipeline.afterTail₀ cfgs (Gen.dats (F := Ideal) m) 0 (V0 m) [hostOps1] c main_v62 = result o := by
  unfold Pipeline.afterTail₀
  show StableHlo.after hostOps1 _ (Proc.devRef .tc main_v62) = _
  after_results
  have e : Pipeline.withArrays (cfgs 0).spec c (V0 m c) (fun w => (Gen.dats (F := Ideal) m 0 c).arrAt w (cfgs 0).N)
      (Proc.tc.devRef main_v60) = o :=
    (Pipeline.withArrays_arr spec0 launch0.win.arr_inj c _ _ 1).trans ho
  rw [e]
  rfl

/-- THE KERNEL PROGRAM'S RUN with the region's output array named: if on every core the output array ends holding
    `out c`, every fair execution of the program terminates with the result buffer at `out c` reshaped and divided
    by 1000000, and both arguments as launched. -/
theorem run_of (m : (ℓ : Loc nD τ sig) → Buf (Elt Ideal) ℓ) (ρ : Dev nD → PrngReg) (out : Dev nD → FVec Ideal S1x1 .f32)
    (hout : ∀ c : Dev nD, (Gen.dats (F := Ideal) m 0 c).arrAt 1 cfg0.N = out c) :
    θ_run (defs (F := Ideal)) (onTc (τ := τ) (main (F := Ideal))) ⟨m, fun _ => 0, ρ⟩ fun r => ∀ c : Dev nD,
      r.2.mem ((c.tc : Thread nD τ).loc main_v62) = result (out c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v62 (Pipeline.mem_restRefs_of main_v62 (by decide) (by decide))).trans (tail_eq m c (out c) (hout c)),
      ((h c).2 main_arg0 (Pipeline.mem_restRefs_of main_arg0 (by decide) (by decide))).trans (W_main_arg0 m (Gen.dats m) c),
      ((h c).2 main_arg1 (Pipeline.mem_restRefs_of main_arg1 (by decide) (by decide))).trans (W_main_arg1 m (Gen.dats m) c)⟩)
    (run_main m ρ)

end Cert.KernelIdeal.KHost
end
-- ==== Proof.RefRun.lean ====
import proofs.«101357_j30545807409222_2_alg».proof.Proof.RefDefs
import proofs.«101357_j30545807409222_2_alg».proof.Proof.Gen.ReferenceIdeal
import Idealize.ShloMosaic.Lib.StableHlo.Run
import Idealize.ShloMosaic.Lib.Pipeline.Regions

/-! The reference program's run, read back.

@main of the reference is a straight line of 89 host operations once its two windows are put in sequence and the
bodies of the edge sort and of the row norm stand at their calls. The line is cut where the program's values are
named in `RefDefs`: the first 46 operations end with the sorted source words (%25) and destination words (%32),
the next 10 compute the first-occurrence mask (%41) from those two, the last 33 compute the result (%65) from the
vertices, the two word arrays and the mask. The contents after a stretch are a fold of the operations' results;
read at a buffer the fold is the composed term of the operations, and each stretch's term is the corresponding
definition's chain of bindings. `run` states the whole: every execution terminates with the result buffer at
`tail verts (src faces) (dst faces) (first faces)` and the arguments unchanged. -/

noncomputable section

namespace Cert.ReferenceIdeal.Ref

open Idealize.ShloMosaic Idealize.ShloMosaic.TcCoe Idealize.SL.Sem
open Cert.ReferenceIdeal Cert.ReferenceIdeal.Facts₀ Cert.ReferenceIdeal.Facts

variable {F : FTy → Type} [FloatOps F] [Cert.ReferenceIdeal.Facts]
/-- The 46 operations of @main up to the sorted destination words %32, in order, the edge sort's four in place. -/
abbrev opsA1 : List (HloOp τ sig (Elt F)) :=
  [ StableHlo.nullary main_c (fun i => lit0 (S3.rowMajor i)),
    StableHlo.nullary main_c_0 (fun i => lit1 (S3.rowMajor i)),
    StableHlo.nullary main_c_1 (constantI S_ 32 0#32),
    StableHlo.unary main_c_1 main_v0 (broadcastInDim S3 ![] bcast_S_S3 : (⟨S_, .i32⟩ : BufTy).Contents (Elt F) → (⟨S3, .i32⟩ : BufTy).Contents (Elt F)),
    StableHlo.binary main_c main_v0 main_v1 (cmpi .slt : (⟨S3, .i32⟩ : BufTy).Contents (Elt F) → (⟨S3, .i32⟩ : BufTy).Contents (Elt F) → (⟨S3, .i1⟩ : BufTy).Contents (Elt F)),
    StableHlo.nullary main_c_2 (constantI S_ 32 3#32),
    StableHlo.unary main_c_2 main_v2 (broadcastInDim S3 ![] bcast_S_S3 : (⟨S_, .i32⟩ : BufTy).Contents (Elt F) → (⟨S3, .i32⟩ : BufTy).Contents (Elt F)),
    StableHlo.binary main_c main_v2 main_v3 (addi : (⟨S3, .i32⟩ : BufTy).Contents (Elt F) → (⟨S3, .i32⟩ : BufTy).Contents (Elt F) → (⟨S3, .i32⟩ : BufTy).Contents (Elt F)),
    StableHlo.ternary main_v1 main_v3 main_c main_v4 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v4 main_v5 (broadcastInDim S3x1 ![0] bcast_S3_S3x1_0 : (⟨S3, .i32⟩ : BufTy).Contents (Elt F) → (⟨S3x1, .i32⟩ : BufTy).Contents (Elt F)),
    StableHlo.binary main_arg1 main_v5 main_v6 ((fun x i => Host.gather gather_S2000000x3_S3x1_S2000000x3_0_1_n_n_1_1_20000001 x i) : (⟨S2000000x3, .i32⟩ : BufTy).Contents (Elt F) → (⟨S3x1, .i32⟩ : BufTy).Contents (Elt F) → (⟨S2000000x3, .i32⟩ : BufTy).Contents (Elt F)),
    StableHlo.reshape main_v6 main_v7 rfl shapeCasts_S2000000x3_S6000000,
    StableHlo.nullary main_c_3 (constantI S_ 32 0#32),
    StableHlo.unary main_c_3 main_v8 (broadcastInDim S3 ![] bcast_S_S3 : (⟨S_, .i32⟩ : BufTy).Contents (Elt F) → (⟨S3, .i32⟩ : BufTy).Contents (Elt F)),
    StableHlo.binary main_c_0 main_v8 main_v9 (cmpi .slt : (⟨S3, .i32⟩ : BufTy).Contents (Elt F) → (⟨S3, .i32⟩ : BufTy).Contents (Elt F) → (⟨S3, .i1⟩ : BufTy).Contents (Elt F)),
    StableHlo.nullary main_c_4 (constantI S_ 32 3#32),
    StableHlo.unary main_c_4 main_v10 (broadcastInDim S3 ![] bcast_S_S3 : (⟨S_, .i32⟩ : BufTy).Contents (Elt F) → (⟨S3, .i32⟩ : BufTy).Contents (Elt F)),
    StableHlo.binary main_c_0 main_v10 main_v11 (addi : (⟨S3, .i32⟩ : BufTy).Contents (Elt F) → (⟨S3, .i32⟩ : BufTy).Contents (Elt F) → (⟨S3, .i32⟩ : BufTy).Contents (Elt F)),
    StableHlo.ternary main_v9 main_v11 main_c_0 main_v12 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v12 main_v13 (broadcastInDim S3x1 ![0] bcast_S3_S3x1_0 : (⟨S3, .i32⟩ : BufTy).Contents (Elt F) → (⟨S3x1, .i32⟩ : BufTy).Contents (Elt F)),
    StableHlo.binary main_arg1 main_v13 main_v14 ((fun x i => Host.gather gather_S2000000x3_S3x1_S2000000x3_0_1_n_n_1_1_20000001 x i) : (⟨S2000000x3, .i32⟩ : BufTy).Contents (Elt F) → (⟨S3x1, .i32⟩ : BufTy).Contents (Elt F) → (⟨S2000000x3, .i32⟩ : BufTy).Contents (Elt F)),
    StableHlo.reshape main_v14 main_v15 rfl shapeCasts_S2000000x3_S6000000,
    StableHlo.binary main_v7 main_v15 main_v16 ((fun a b => concatenate S12000000 0 [⟨S6000000, a⟩, ⟨S6000000, b⟩] concatenates_S6000000_S6000000_S12000000_d0) : (⟨S6000000, .i32⟩ : BufTy).Contents (Elt F) → (⟨S6000000, .i32⟩ : BufTy).Contents (Elt F) → (⟨S12000000, .i32⟩ : BufTy).Contents (Elt F)),
    StableHlo.binary main_v15 main_v7 main_v17 ((fun a b => concatenate S12000000 0 [⟨S6000000, a⟩, ⟨S6000000, b⟩] concatenates_S6000000_S6000000_S12000000_d0) : (⟨S6000000, .i32⟩ : BufTy).Contents (Elt F) → (⟨S6000000, .i32⟩ : BufTy).Contents (Elt F) → (⟨S12000000, .i32⟩ : BufTy).Contents (Elt F)),
    StableHlo.TRef.nullary main_call0.v0 (iotaInDim S12000000 32 0),
    StableHlo.TRef.ternary (.of main_v16 : StableHlo.TRef sig ⟨S12000000, .i32⟩) (.of main_v17 : StableHlo.TRef sig ⟨S12000000, .i32⟩) main_call0.v0 main_call0.v1_0 (fun x y z => (Host.sort3 S12000000 0 comparator_i32_i32_i32_d0 x y z).1),
    StableHlo.TRef.ternary (.of main_v16 : StableHlo.TRef sig ⟨S12000000, .i32⟩) (.of main_v17 : StableHlo.TRef sig ⟨S12000000, .i32⟩) main_call0.v0 main_call0.v1_1 (fun x y z => (Host.sort3 S12000000 0 comparator_i32_i32_i32_d0 x y z).2.1),
    StableHlo.TRef.ternary (.of main_v16 : StableHlo.TRef sig ⟨S12000000, .i32⟩) (.of main_v17 : StableHlo.TRef sig ⟨S12000000, .i32⟩) main_call0.v0 main_call0.v1_2 (fun x y z => (Host.sort3 S12000000 0 comparator_i32_i32_i32_d0 x y z).2.2),
    StableHlo.nullary main_c_5 (constantI S_ 32 0#32),
    StableHlo.unary main_c_5 main_v19 (broadcastInDim S12000000 ![] bcast_S_S12000000 : (⟨S_, .i32⟩ : BufTy).Contents (Elt F) → (⟨S12000000, .i32⟩ : BufTy).Contents (Elt F)),
    StableHlo.binary main_v18 main_v19 main_v20 (cmpi .slt : (⟨S12000000, .i32⟩ : BufTy).Contents (Elt F) → (⟨S12000000, .i32⟩ : BufTy).Contents (Elt F) → (⟨S12000000, .i1⟩ : BufTy).Contents (Elt F)),
    StableHlo.nullary main_c_6 (constantI S_ 32 12000000#32),
    StableHlo.unary main_c_6 main_v21 (broadcastInDim S12000000 ![] bcast_S_S12000000 : (⟨S_, .i32⟩ : BufTy).Contents (Elt F) → (⟨S12000000, .i32⟩ : BufTy).Contents (Elt F)),
    StableHlo.binary main_v18 main_v21 main_v22 (addi : (⟨S12000000, .i32⟩ : BufTy).Contents (Elt F) → (⟨S12000000, .i32⟩ : BufTy).Contents (Elt F) → (⟨S12000000, .i32⟩ : BufTy).Contents (Elt F)),
    StableHlo.ternary main_v20 main_v22 main_v18 main_v23 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    StableHlo.unary main_v23 main_v24 (broadcastInDim S12000000x1 ![0] bcast_S12000000_S12000000x1_0 : (⟨S12000000, .i32⟩ : BufTy).Contents (Elt F) → (⟨S12000000x1, .i32⟩ : BufTy).Contents (Elt F)),
    StableHlo.binary main_v16 main_v24 main_v25 ((fun x i => Host.gather gather_S12000000_S12000000x1_S12000000_n_0_n_n_0_1_1 x i) : (⟨S12000000, .i32⟩ : BufTy).Contents (Elt F) → (⟨S12000000x1, .i32⟩ : BufTy).Contents (Elt F) → (⟨S12000000, .i32⟩ : BufTy).Contents (Elt F)),
    StableHlo.nullary main_c_7 (constantI S_ 32 0#32),
    StableHlo.unary main_c_7 main_v26 (broadcastInDim S12000000 ![] bcast_S_S12000000 : (⟨S_, .i32⟩ : BufTy).Contents (Elt F) → (⟨S12000000, .i32⟩ : BufTy).Contents (Elt F)),
    StableHlo.binary main_v18 main_v26 main_v27 (cmpi .slt : (⟨S12000000, .i32⟩ : BufTy).Contents (Elt F) → (⟨S12000000, .i32⟩ : BufTy).Contents (Elt F) → (⟨S12000000, .i1⟩ : BufTy).Contents (Elt F)),
    StableHlo.nullary main_c_8 (constantI S_ 32 12000000#32),
    StableHlo.unary main_c_8 main_v28 (broadcastInDim S12000000 ![] bcast_S_S12000000 : (⟨S_, .i32⟩ : BufTy).Contents (Elt F) → (⟨S12000000, .i32⟩ : BufTy).Contents (Elt F)),
    StableHlo.binary main_v18 main_v28 main_v29 (addi : (⟨S12000000, .i32⟩ : BufTy).Contents (Elt F) → (⟨S12000000, .i32⟩ : BufTy).Contents (Elt F) → (⟨S12000000, .i32⟩ : BufTy).Contents (Elt F)),
    StableHlo.ternary main_v27 main_v29 main_v18 main_v30 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    StableHlo.unary main_v30 main_v31 (broadcastInDim S12000000x1 ![0] bcast_S12000000_S12000000x1_0 : (⟨S12000000, .i32⟩ : BufTy).Contents (Elt F) → (⟨S12000000x1, .i32⟩ : BufTy).Contents (Elt F)),
    StableHlo.binary main_v17 main_v31 main_v32 ((fun x i => Host.gather gather_S12000000_S12000000x1_S12000000_n_0_n_n_0_1_1 x i) : (⟨S12000000, .i32⟩ : BufTy).Contents (Elt F) → (⟨S12000000x1, .i32⟩ : BufTy).Contents (Elt F) → (⟨S12000000, .i32⟩ : BufTy).Contents (Elt F)) ]

/-- The 10 operations of @main computing the first-occurrence mask %41 from %25 and %32, in order. -/
abbrev opsA2 : List (HloOp τ sig (Elt F)) :=
  [ StableHlo.nullary main_c_9 (constantI S_ 1 1#1),
    StableHlo.unary main_c_9 main_v33 (broadcastInDim S1 ![] bcast_S_S1 : (⟨S_, .i1⟩ : BufTy).Contents (Elt F) → (⟨S1, .i1⟩ : BufTy).Contents (Elt F)),
    StableHlo.unary main_v25 main_v34 ((extractStridedSlice S11999999 ![1] · slices_S12000000_S11999999_1) : (⟨S12000000, .i32⟩ : BufTy).Contents (Elt F) → (⟨S11999999, .i32⟩ : BufTy).Contents (Elt F)),
    StableHlo.unary main_v25 main_v35 ((extractStridedSlice S11999999 ![0] · slices_S12000000_S11999999_0) : (⟨S12000000, .i32⟩ : BufTy).Contents (Elt F) → (⟨S11999999, .i32⟩ : BufTy).Contents (Elt F)),
    StableHlo.binary main_v34 main_v35 main_v36 (cmpi .ne : (⟨S11999999, .i32⟩ : BufTy).Contents (Elt F) → (⟨S11999999, .i32⟩ : BufTy).Contents (Elt F) → (⟨S11999999, .i1⟩ : BufTy).Contents (Elt F)),
    StableHlo.unary main_v32 main_v37 ((extractStridedSlice S11999999 ![1] · slices_S12000000_S11999999_1) : (⟨S12000000, .i32⟩ : BufTy).Contents (Elt F) → (⟨S11999999, .i32⟩ : BufTy).Contents (Elt F)),
    StableHlo.unary main_v32 main_v38 ((extractStridedSlice S11999999 ![0] · slices_S12000000_S11999999_0) : (⟨S12000000, .i32⟩ : BufTy).Contents (Elt F) → (⟨S11999999, .i32⟩ : BufTy).Contents (Elt F)),
    StableHlo.binary main_v37 main_v38 main_v39 (cmpi .ne : (⟨S11999999, .i32⟩ : BufTy).Contents (Elt F) → (⟨S11999999, .i32⟩ : BufTy).Contents (Elt F) → (⟨S11999999, .i1⟩ : BufTy).Contents (Elt F)),
    StableHlo.binary main_v36 main_v39 main_v40 (ori : (⟨S11999999, .i1⟩ : BufTy).Contents (Elt F) → (⟨S11999999, .i1⟩ : BufTy).Contents (Elt F) → (⟨S11999999, .i1⟩ : BufTy).Contents (Elt F)),
    StableHlo.binary main_v33 main_v40 main_v41 ((fun a b => concatenate S12000000 0 [⟨S1, a⟩, ⟨S11999999, b⟩] concatenates_S1_S11999999_S12000000_d0) : (⟨S1, .i1⟩ : BufTy).Contents (Elt F) → (⟨S11999999, .i1⟩ : BufTy).Contents (Elt F) → (⟨S12000000, .i1⟩ : BufTy).Contents (Elt F)) ]

/-- The 33 operations of @main from the weights %42 to the result %65, in order, the row norm's four in place. -/
abbrev opsB : List (HloOp τ sig (Elt F)) :=
  [ StableHlo.unary main_v41 main_v42 (uitofp .f32 : (⟨S12000000, .i1⟩ : BufTy).Contents (Elt F) → (⟨S12000000, .f32⟩ : BufTy).Contents (Elt F)),
    StableHlo.unary main_v42 main_v43 (broadcastInDim S12000000x1 ![0] bcast_S12000000_S12000000x1_0 : (⟨S12000000, .f32⟩ : BufTy).Contents (Elt F) → (⟨S12000000x1, .f32⟩ : BufTy).Contents (Elt F)),
    StableHlo.nullary main_c_10 (constantI S_ 32 0#32),
    StableHlo.unary main_c_10 main_v44 (broadcastInDim S12000000 ![] bcast_S_S12000000 : (⟨S_, .i32⟩ : BufTy).Contents (Elt F) → (⟨S12000000, .i32⟩ : BufTy).Contents (Elt F)),
    StableHlo.binary main_v32 main_v44 main_v45 (cmpi .slt : (⟨S12000000, .i32⟩ : BufTy).Contents (Elt F) → (⟨S12000000, .i32⟩ : BufTy).Contents (Elt F) → (⟨S12000000, .i1⟩ : BufTy).Contents (Elt F)),
    StableHlo.nullary main_c_11 (constantI S_ 32 1000000#32),
    StableHlo.unary main_c_11 main_v46 (broadcastInDim S12000000 ![] bcast_S_S12000000 : (⟨S_, .i32⟩ : BufTy).Contents (Elt F) → (⟨S12000000, .i32⟩ : BufTy).Contents (Elt F)),
    StableHlo.binary main_v32 main_v46 main_v47 (addi : (⟨S12000000, .i32⟩ : BufTy).Contents (Elt F) → (⟨S12000000, .i32⟩ : BufTy).Contents (Elt F) → (⟨S12000000, .i32⟩ : BufTy).Contents (Elt F)),
    StableHlo.ternary main_v45 main_v47 main_v32 main_v48 (select : (⟨S12000000, .i1⟩ : BufTy).Contents (Elt F) → (⟨S12000000, .i32⟩ : BufTy).Contents (Elt F) → (⟨S12000000, .i32⟩ : BufTy).Contents (Elt F) → (⟨S12000000, .i32⟩ : BufTy).Contents (Elt F)),
    StableHlo.unary main_v48 main_v49 (broadcastInDim S12000000x1 ![0] bcast_S12000000_S12000000x1_0 : (⟨S12000000, .i32⟩ : BufTy).Contents (Elt F) → (⟨S12000000x1, .i32⟩ : BufTy).Contents (Elt F)),
    StableHlo.binary main_arg0 main_v49 main_v50 ((fun x i => Host.gather gather_S1000000x3_S12000000x1_S12000000x3_1_0_n_n_0_1_13 x i) : (⟨S1000000x3, .f32⟩ : BufTy).Contents (Elt F) → (⟨S12000000x1, .i32⟩ : BufTy).Contents (Elt F) → (⟨S12000000x3, .f32⟩ : BufTy).Contents (Elt F)),
    StableHlo.unary main_v43 main_v51 (broadcastInDim S12000000x3 ![0, 1] bcast_S12000000x1_S12000000x3_0_1 : (⟨S12000000x1, .f32⟩ : BufTy).Contents (Elt F) → (⟨S12000000x3, .f32⟩ : BufTy).Contents (Elt F)),
    StableHlo.binary main_v51 main_v50 main_v52 (mulf : (⟨S12000000x3, .f32⟩ : BufTy).Contents (Elt F) → (⟨S12000000x3, .f32⟩ : BufTy).Contents (Elt F) → (⟨S12000000x3, .f32⟩ : BufTy).Contents (Elt F)),
    StableHlo.nullary main_cst (constant S_ .f32 0x00000000#32),
    StableHlo.unary main_cst main_v53 (broadcastInDim S1000000x3 ![] bcast_S_S1000000x3 : (⟨S_, .f32⟩ : BufTy).Contents (Elt F) → (⟨S1000000x3, .f32⟩ : BufTy).Contents (Elt F)),
    StableHlo.unary main_v25 main_v54 (broadcastInDim S12000000x1 ![0] bcast_S12000000_S12000000x1_0 : (⟨S12000000, .i32⟩ : BufTy).Contents (Elt F) → (⟨S12000000x1, .i32⟩ : BufTy).Contents (Elt F)),
    StableHlo.ternary main_v53 main_v54 main_v52 main_v55 ((fun x i u => Host.scatterAdd scatter_S1000000x3_S12000000x1_S12000000x3_1_0_0_1 x i u) : (⟨S1000000x3, .f32⟩ : BufTy).Contents (Elt F) → (⟨S12000000x1, .i32⟩ : BufTy).Contents (Elt F) → (⟨S12000000x3, .f32⟩ : BufTy).Contents (Elt F) → (⟨S1000000x3, .f32⟩ : BufTy).Contents (Elt F)),
    StableHlo.nullary main_cst_12 (constant S_ .f32 0x00000000#32),
    StableHlo.unary main_cst_12 main_v56 (broadcastInDim S1000000 ![] bcast_S_S1000000 : (⟨S_, .f32⟩ : BufTy).Contents (Elt F) → (⟨S1000000, .f32⟩ : BufTy).Contents (Elt F)),
    StableHlo.unary main_v25 main_v57 (broadcastInDim S12000000x1 ![0] bcast_S12000000_S12000000x1_0 : (⟨S12000000, .i32⟩ : BufTy).Contents (Elt F) → (⟨S12000000x1, .i32⟩ : BufTy).Contents (Elt F)),
    StableHlo.ternary main_v56 main_v57 main_v42 main_v58 ((fun x i u => Host.scatterAdd scatter_S1000000_S12000000x1_S12000000_n_0_0_1 x i u) : (⟨S1000000, .f32⟩ : BufTy).Contents (Elt F) → (⟨S12000000x1, .i32⟩ : BufTy).Contents (Elt F) → (⟨S12000000, .f32⟩ : BufTy).Contents (Elt F) → (⟨S1000000, .f32⟩ : BufTy).Contents (Elt F)),
    StableHlo.unary main_v58 main_v59 (broadcastInDim S1000000x1 ![0] bcast_S1000000_S1000000x1_0 : (⟨S1000000, .f32⟩ : BufTy).Contents (Elt F) → (⟨S1000000x1, .f32⟩ : BufTy).Contents (Elt F)),
    StableHlo.unary main_v59 main_v60 (broadcastInDim S1000000x3 ![0, 1] bcast_S1000000x1_S1000000x3_0_1 : (⟨S1000000x1, .f32⟩ : BufTy).Contents (Elt F) → (⟨S1000000x3, .f32⟩ : BufTy).Contents (Elt F)),
    StableHlo.binary main_v60 main_arg0 main_v61 (mulf : (⟨S1000000x3, .f32⟩ : BufTy).Contents (Elt F) → (⟨S1000000x3, .f32⟩ : BufTy).Contents (Elt F) → (⟨S1000000x3, .f32⟩ : BufTy).Contents (Elt F)),
    StableHlo.binary main_v61 main_v55 main_v62 (subf : (⟨S1000000x3, .f32⟩ : BufTy).Contents (Elt F) → (⟨S1000000x3, .f32⟩ : BufTy).Contents (Elt F) → (⟨S1000000x3, .f32⟩ : BufTy).Contents (Elt F)),
    StableHlo.TRef.binary (.of main_v62 : StableHlo.TRef sig ⟨S1000000x3, .f32⟩) (.of main_v62 : StableHlo.TRef sig ⟨S1000000x3, .f32⟩) main_call1.v0 mulf,
    StableHlo.TRef.nullary main_call1.cst (constant S_ .f32 0x00000000#32),
    StableHlo.TRef.binary main_call1.v0 main_call1.cst main_call1.v1 (fun x v => Host.reduceAdd x v reducesTo_S1000000x3_S1000000_d1 h_S_),
    StableHlo.TRef.unary main_call1.v1 main_call1.v2 Host.sqrt,
    StableHlo.nullary main_cst_13 (constant S_ .f32 0x00000000#32),
    StableHlo.binary main_v63 main_cst_13 main_v64 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    StableHlo.nullary main_cst_14 (constant S_ .f32 0x49742400#32),
    StableHlo.binary main_v64 main_cst_14 main_v65 (Host.divf : (⟨S_, .f32⟩ : BufTy).Contents (Elt F) → (⟨S_, .f32⟩ : BufTy).Contents (Elt F) → (⟨S_, .f32⟩ : BufTy).Contents (Elt F)) ]

/-- @main's 89 operations, in order. -/
abbrev ops : List (HloOp τ sig (Elt F)) := opsA1 ++ opsA2 ++ opsB

/-- The first-occurrence mask as a term of the sorted source and destination words (the operations %c_9 … %41):
    position 0 set; position i + 1 set when its source or its destination word differs from position i's. -/
def firstOf (s d : IVec S12000000 32) : IVec S12000000 1 :=
  have c_9 : IVec S_ 1 := constantI S_ 1 1#1
  have v33 : IVec S1 1 := broadcastInDim S1 ![] bcast_S_S1 c_9
  have v34 : IVec S11999999 32 := extractStridedSlice S11999999 ![1] s slices_S12000000_S11999999_1
  have v35 : IVec S11999999 32 := extractStridedSlice S11999999 ![0] s slices_S12000000_S11999999_0
  have v36 : IVec S11999999 1 := cmpi .ne v34 v35
  have v37 : IVec S11999999 32 := extractStridedSlice S11999999 ![1] d slices_S12000000_S11999999_1
  have v38 : IVec S11999999 32 := extractStridedSlice S11999999 ![0] d slices_S12000000_S11999999_0
  have v39 : IVec S11999999 1 := cmpi .ne v37 v38
  have v40 : IVec S11999999 1 := ori v36 v39
  have v41 : IVec S12000000 1 := concatenate S12000000 0 [⟨S1, v33⟩, ⟨S11999999, v40⟩] concatenates_S1_S11999999_S12000000_d0
  v41

attribute [local irreducible] Host.sort3 Host.gather concatenate shapeCast extractStridedSlice broadcastInDim in
/-- `first` is `firstOf` of `src` and `dst`: the same bindings, the two gathers named. -/
theorem first_split (faces : IVec S2000000x3 32) : first faces = firstOf (src faces) (dst faces) := rfl

/-- @main is its operations in a straight line: the two windows in sequence, the edge sort's and the row norm's
    bodies at their calls; the two sides unfold to the same chain of steps. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA1_sub : (opsA1 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.binary_bufs_sub .., StableHlo.binary_bufs_sub .., StableHlo.nullary_bufs_sub .., StableHlo.ternary_bufs_sub .., StableHlo.ternary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem opsA2_sub : (opsA2 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub ..⟩

theorem opsB_sub : (opsB : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.nullary_bufs_sub .., StableHlo.binary_bufs_sub ..⟩

theorem ops_sub : (ops : List (HloOp τ sig (Elt F))).Forall fun op => op.bufs ⊆ StableHlo.tcRefs τ sig :=
  List.forall_append.2 ⟨List.forall_append.2 ⟨opsA1_sub, opsA2_sub⟩, opsB_sub⟩

/-- No operation of the list leaves a result undetermined. -/
theorem ops_fresh : ∀ op ∈ (ops : List (HloOp τ sig (Elt F))), op.fresh = ∅ := by
  intro op h
  rcases List.mem_append.1 h with h | h
  · rcases List.mem_append.1 h with h | h
    · (repeat (cases h with | head => rfl | tail _ h => ?_)); exact nomatch h
    · (repeat (cases h with | head => rfl | tail _ h => ?_)); exact nomatch h
  · (repeat (cases h with | head => rfl | tail _ h => ?_)); exact nomatch h

/-- The contents after two stretches of operations are the second's after the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ### The first 46 operations: the sorted source and destination words -/

open Idealize.ShloMosaic.StableHlo in
attribute [local irreducible] Host.sort3 Host.gather concatenate shapeCast extractStridedSlice broadcastInDim in
set_option maxRecDepth 16384 in
set_option maxHeartbeats 1000000 in
/-- After the first 46 operations the buffer of %25 holds `src` of the faces: the fold read at that buffer is the
    operations' composed term, which is `src`'s chain of bindings with each name replaced by its value. -/
theorem src_eq (V : Valuation τ sig (Elt F)) :
    StableHlo.after opsA1 V (main_v25 : DevRef τ sig) = src (V (main_arg1 : DevRef τ sig)) := by
  after_results_simp
  rfl

open Idealize.ShloMosaic.StableHlo in
attribute [local irreducible] Host.sort3 Host.gather concatenate shapeCast extractStridedSlice broadcastInDim in
set_option maxRecDepth 16384 in
set_option maxHeartbeats 1000000 in
/-- After the first 46 operations the buffer of %32 holds `dst` of the faces. -/
theorem dst_eq (V : Valuation τ sig (Elt F)) :
    StableHlo.after opsA1 V (main_v32 : DevRef τ sig) = dst (V (main_arg1 : DevRef τ sig)) := by
  after_results_simp
  rfl

open Idealize.ShloMosaic.StableHlo in
/-- None of the first 46 operations writes an argument. -/
theorem argA0_eq (V : Valuation τ sig (Elt F)) :
    StableHlo.after opsA1 V (main_arg0 : DevRef τ sig) = V (main_arg0 : DevRef τ sig) := by
  after_results_simp

open Idealize.ShloMosaic.StableHlo in
theorem argA1_eq (V : Valuation τ sig (Elt F)) :
    StableHlo.after opsA1 V (main_arg1 : DevRef τ sig) = V (main_arg1 : DevRef τ sig) := by
  after_results_simp

/-! ### The next 10 operations: the first-occurrence mask -/

open Idealize.ShloMosaic.StableHlo in
attribute [local irreducible] concatenate extractStridedSlice broadcastInDim in
set_option maxRecDepth 16384 in
/-- From ANY contents `W`, after the 10 operations of the mask its buffer holds `firstOf` of `W`'s source and
    destination words. -/
theorem firstOf_eq (W : Valuation τ sig (Elt F)) :
    StableHlo.after opsA2 W (main_v41 : DevRef τ sig) = firstOf (W (main_v25 : DevRef τ sig)) (W (main_v32 : DevRef τ sig)) := by
  after_results_simp
  rfl

open Idealize.ShloMosaic.StableHlo in
/-- None of those 10 operations writes an argument, %25 or %32. -/
theorem argM0_eq (W : Valuation τ sig (Elt F)) :
    StableHlo.after opsA2 W (main_arg0 : DevRef τ sig) = W (main_arg0 : DevRef τ sig) := by
  after_results_simp

open Idealize.ShloMosaic.StableHlo in
theorem argM1_eq (W : Valuation τ sig (Elt F)) :
    StableHlo.after opsA2 W (main_arg1 : DevRef τ sig) = W (main_arg1 : DevRef τ sig) := by
  after_results_simp

open Idealize.ShloMosaic.StableHlo in
theorem argM25_eq (W : Valuation τ sig (Elt F)) :
    StableHlo.after opsA2 W (main_v25 : DevRef τ sig) = W (main_v25 : DevRef τ sig) := by
  after_results_simp

open Idealize.ShloMosaic.StableHlo in
theorem argM32_eq (W : Valuation τ sig (Elt F)) :
    StableHlo.after opsA2 W (main_v32 : DevRef τ sig) = W (main_v32 : DevRef τ sig) := by
  after_results_simp

/-! ### The last 33 operations: the result -/

open Idealize.ShloMosaic.StableHlo in
attribute [local irreducible] Host.gather Host.scatterAdd Host.reduceAdd Host.sqrt Host.divf broadcastInDim in
set_option maxRecDepth 16384 in
set_option maxHeartbeats 1000000 in
/-- From ANY contents `W`, after the last 33 operations the result buffer holds `tail` of `W`'s vertices, source
    words, destination words and mask: those operations read nothing else of what came before. -/
theorem tail_eq (W : Valuation τ sig (Elt F)) :
    StableHlo.after opsB W (main_v65 : DevRef τ sig)
      = tail (W (main_arg0 : DevRef τ sig)) (W (main_v25 : DevRef τ sig)) (W (main_v32 : DevRef τ sig)) (W (main_v41 : DevRef τ sig)) := by
  after_results_simp
  rfl

open Idealize.ShloMosaic.StableHlo in
/-- None of the last 33 operations writes an argument. -/
theorem argB0_eq (W : Valuation τ sig (Elt F)) :
    StableHlo.after opsB W (main_arg0 : DevRef τ sig) = W (main_arg0 : DevRef τ sig) := by
  after_results_simp

open Idealize.ShloMosaic.StableHlo in
theorem argB1_eq (W : Valuation τ sig (Elt F)) :
    StableHlo.after opsB W (main_arg1 : DevRef τ sig) = W (main_arg1 : DevRef τ sig) := by
  after_results_simp

/-! ### The run -/

/-- The result buffer after all 89 operations: `tail` of the vertices and of `src`, `dst`, `first` of the faces. -/
theorem out_eq (V : Valuation τ sig (Elt F)) :
    StableHlo.after ops V (main_v65 : DevRef τ sig)
      = tail (V (main_arg0 : DevRef τ sig)) (src (V (main_arg1 : DevRef τ sig))) (dst (V (main_arg1 : DevRef τ sig)))
          (first (V (main_arg1 : DevRef τ sig))) := by
  rw [after_append, after_append, tail_eq, argM0_eq, argM25_eq, argM32_eq, firstOf_eq, argA0_eq, src_eq, dst_eq, first_split]

theorem arg0_eq (V : Valuation τ sig (Elt F)) :
    StableHlo.after ops V (main_arg0 : DevRef τ sig) = V (main_arg0 : DevRef τ sig) := by
  rw [after_append, after_append, argB0_eq, argM0_eq, argA0_eq]

theorem arg1_eq (V : Valuation τ sig (Elt F)) :
    StableHlo.after ops V (main_arg1 : DevRef τ sig) = V (main_arg1 : DevRef τ sig) := by
  rw [after_append, after_append, argB1_eq, argM1_eq, argA1_eq]

/-- On every device, for any float values, from any memory with zero counters: every weakly fair execution of @main
    terminates with the result at `tail` of the vertices and of `src`, `dst`, `first` of the faces, and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v65)
          = tail (m ((c.tc : Thread nD τ).loc main_arg0)) (src (m ((c.tc : Thread nD τ).loc main_arg1)))
              (dst (m ((c.tc : Thread nD τ).loc main_arg1))) (first (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := F)) _ _).mono (fun _ h c => ⟨(h c main_v65).trans (out_eq _), (h c main_arg0).trans (arg0_eq _),
      (h c main_arg1).trans (arg1_eq _)⟩)
    (StableHlo.run_seq scopedRefs_eq scopedSems_eq defs main (fun _ => ops) main_eq (fun _ => ops_sub) m ρ (fun _ => ops_fresh))

end Cert.ReferenceIdeal.Ref

end
-- ==== Proof.lean ====
/-
  The mean length of the rows of the uniform mesh Laplacian applied to the vertices, two ways.

  Both programs turn the faces into twelve million directed edges, sort them lexicographically and flag each
  edge that differs from its predecessor. The reference weights every edge by its flag, adds the weighted
  destination coordinates and the weights into the edge's source vertex, forms degree times coordinates minus
  neighbour sum, takes the row norms and their mean. The kernel's program instead sends the unflagged edges to a
  spare row, adds coordinates and a column of ones in one pass, drops the spare row, packs coordinates, neighbour
  sums and degrees into seven rows over a column axis padded with zeros to 1048576, and lets a grid of eight points
  add the columns' Laplacian lengths lane by lane into a scratch row whose lanes are summed at the last point; the
  sum is divided by 1000000.

  At the extended reals the two are one number: a weight of zero and a redirection to the spare row both leave an
  edge out of every vertex's sums (zero times anything is zero), the padded columns have length zero, and a sum may
  be taken in any order. No finiteness of the input is used.

  The frames of the two kernel programs are the generated frame runs; the reference's frame is its run with the
  result dropped; nothing was rewritten by the idealization, so there is nothing to preserve.
-/
import proofs.«101357_j30545807409222_2_alg».proof.Defs
import proofs.«101357_j30545807409222_2_alg».proof.Proof.Gen.Kernel
import proofs.«101357_j30545807409222_2_alg».proof.Proof.Gen.Kernel.Skeleton
import proofs.«101357_j30545807409222_2_alg».proof.Proof.Gen.Kernel.Launch
import proofs.«101357_j30545807409222_2_alg».proof.Proof.Gen.Kernel.Points
import proofs.«101357_j30545807409222_2_alg».proof.Proof.Gen.Kernel.Frame
import proofs.«101357_j30545807409222_2_alg».proof.Proof.Gen.KernelIdeal
import proofs.«101357_j30545807409222_2_alg».proof.Proof.Gen.KernelIdeal.Skeleton
import proofs.«101357_j30545807409222_2_alg».proof.Proof.Gen.KernelIdeal.Launch
import proofs.«101357_j30545807409222_2_alg».proof.Proof.Gen.KernelIdeal.Points
import proofs.«101357_j30545807409222_2_alg».proof.Proof.Gen.KernelIdeal.Frame
import proofs.«101357_j30545807409222_2_alg».proof.Proof.Gen.ReferenceIdeal
import proofs.«101357_j30545807409222_2_alg».proof.Proof.Gen.Pre_finite_inputs
import proofs.«101357_j30545807409222_2_alg».proof.Proof.Bridge
import proofs.«101357_j30545807409222_2_alg».proof.Proof.KRegion
import proofs.«101357_j30545807409222_2_alg».proof.Proof.KHost
import proofs.«101357_j30545807409222_2_alg».proof.Proof.KRun
import proofs.«101357_j30545807409222_2_alg».proof.Proof.RefRun
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Ref.run (F := Ideal) m ρ)

theorem preserves : Cert.preserves_Kernel_KernelIdeal := trivial

/-- Both programs end with the mean Laplacian length of the same vertices over the same edge list. -/
theorem algebraic : Cert.algebraic_KernelIdeal_ReferenceIdeal := by
  intro m ρ m' ρ' _ hagree
  refine ⟨fun c => Cert.KernelIdeal.KHost.result (F := Ideal) (fun _ => Cert.Lap.total
      (Cert.KernelIdeal.KHost.packed (F := Ideal)
        (m ((c.tc : Thread Cert.KernelIdeal.nD Cert.KernelIdeal.τ).loc Cert.KernelIdeal.main_arg0))
        (Cert.KernelIdeal.KHost.src (m ((c.tc : Thread Cert.KernelIdeal.nD Cert.KernelIdeal.τ).loc Cert.KernelIdeal.main_arg1)))
        (Cert.KernelIdeal.KHost.dst (m ((c.tc : Thread Cert.KernelIdeal.nD Cert.KernelIdeal.τ).loc Cert.KernelIdeal.main_arg1)))
        (Cert.KernelIdeal.KHost.first (m ((c.tc : Thread Cert.KernelIdeal.nD Cert.KernelIdeal.τ).loc Cert.KernelIdeal.main_arg1))))),
    ?_, ?_⟩
  · refine (θ_run Cert.KernelIdeal.defs _ _).mono (fun _ h c => ⟨(h c).1.trans ?_, (h c).2⟩)
      (Cert.KernelIdeal.KHost.run_of m ρ
        (fun c => fun _ => Cert.Lap.total (Cert.KernelIdeal.Gen.V m c Cert.KernelIdeal.main_v59))
        (fun c => Cert.KernelIdeal.KRegion.out_final m c))
    exact congrArg (fun ct : Cert.Lap.SP.Idx → EReal => Cert.KernelIdeal.KHost.result (F := Ideal) (fun _ => Cert.Lap.total ct))
      (Cert.KernelIdeal.KHost.V_packed m c)
  · refine (θ_run Cert.ReferenceIdeal.defs _ _).mono (fun _ h c => ⟨(h c).1.trans ?_, (h c).2⟩)
      (Cert.ReferenceIdeal.Ref.run (F := Ideal) m' ρ')
    rw [(hagree c).1, (hagree c).2, ← Cert.Proof.Bridge.src_eq, ← Cert.Proof.Bridge.dst_eq, ← Cert.Proof.Bridge.first_eq]
    exact (Cert.Proof.Bridge.result_eq _ _ _ _).symm

end Claims

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
